-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩

abbrev nBuf : Space → Nat
  | .hbm => 97
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S100000, .f32⟩
  | .hbm, ⟨53, _⟩ => ⟨S100000x1, .f32⟩
  | .hbm, ⟨54, _⟩ => ⟨S100000x128, .bf16⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .bf16⟩
  | .hbm, ⟨64, _⟩ => ⟨S1600000x128, .f32⟩
  | .hbm, ⟨65, _⟩ => ⟨S1600000x1, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S5000x128, .bf16⟩
  | .local _ .vmem, ⟨8, _⟩ => ⟨S5000x128, .bf16⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_v49_2 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  shapeCasts_S1x128_S128 : S1x128.ShapeCasts S128
  bcast_S_S128 : S_.BroadcastsInDim S128 (![] : Fin 0 → Fin S128.rank)
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .i32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_cst_3 : Ref sig .tc := ⟨.hbm, 94, rfl⟩
abbrev main_call2_v12 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_14 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_call3_cst : Ref sig .tc := ⟨.hbm, 116, rfl⟩
abbrev main_call3_v0 : Ref sig .tc := ⟨.hbm, 117, rfl⟩
abbrev main_v68 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KerRun.lean ====
/-
  The kernel program's run, restated with its result buffer: from any launch memory with zero counters every weakly
  fair execution terminates without fault, the result buffer ends at the last boundary's contents (the fold of the
  host stretches and the three regions from the launch memory), and every argument array ends as launched.
-/
import proofs.«147712_j11338713662112_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer: as the generated frame theorem, with one more conjunct — the result buffer
    holds the last boundary's contents. -/
theorem run : θ_run defs (onTc (τ := τ) (main (F := F))) ⟨m, fun _ => 0, ρ⟩ (fun r => ∀ c : Dev nD,
      r.2.mem ((c.tc : Thread nD τ).loc main_v67) = Gen.W10 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v67 (by decide))),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.KerRun

end
-- ==== Proof.RefOps.lean ====
/- The reference program's @main as ONE list of host operations — the outlined functions' operations written at their
  call sites over the buffers of each call, which is how the compiler inlines them — one entry per line of the printed
  program, in order; and, entry by entry, that each touches TensorCore buffers only. That the list IS the program is
  proved where it is used (the run's module), not here.
-/
import proofs.«147712_j11338713662112_2_alg».proof.ReferenceIdeal
import proofs.«147712_j11338713662112_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main's 113 operations, in order, the callees' inlined. -/
abbrev ops : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v11 : StableHlo.TRef sig ⟨S100000, .f32⟩) main_call0.v1 main_call0.v2 select,
    StableHlo.nullary main_cst_3 (constant S_ .f32 0x00000000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v11 main_v15 main_v16 (cmpf .ogt : (⟨S100000, .f32⟩ : BufTy).Contents (Elt F) → (⟨S100000, .f32⟩ : BufTy).Contents (Elt F) → (⟨S100000, .i1⟩ : BufTy).Contents (Elt F)),
    StableHlo.unary main_v14 main_v17 (Host.rsqrt : (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S100000 ![] bcast_S_S100000),
    StableHlo.TRef.ternary (.of main_v16 : StableHlo.TRef sig ⟨S100000, .i1⟩) (.of main_v17 : StableHlo.TRef sig ⟨S100000, .f32⟩) main_call1.v1 main_call1.v2 select,
    StableHlo.nullary main_c (constantI S_ 32 0#32),
    StableHlo.unary main_c main_v19 (broadcastInDim S1700000 ![] bcast_S_S1700000 : (⟨S_, .i32⟩ : BufTy).Contents (Elt F) → (⟨S1700000, .i32⟩ : BufTy).Contents (Elt F)),
    StableHlo.binary main_v5 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v21 (broadcastInDim S1700000 ![] bcast_S_S1700000 : (⟨S_, .i32⟩ : BufTy).Contents (Elt F) → (⟨S1700000, .i32⟩ : BufTy).Contents (Elt F)),
    StableHlo.binary main_v5 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v5 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v8 main_v26 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v6 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v29 (broadcastInDim S1700000 ![] bcast_S_S1700000 : (⟨S_, .i32⟩ : BufTy).Contents (Elt F) → (⟨S1700000, .i32⟩ : BufTy).Contents (Elt F)),
    StableHlo.binary main_v6 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_8 (constantI S_ 32 0#32),
    StableHlo.unary main_c_8 main_v36 (broadcastInDim S1700000 ![] bcast_S_S1700000 : (⟨S_, .i32⟩ : BufTy).Contents (Elt F) → (⟨S1700000, .i32⟩ : BufTy).Contents (Elt F)),
    StableHlo.binary main_v5 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v38 (broadcastInDim S1700000 ![] bcast_S_S1700000 : (⟨S_, .i32⟩ : BufTy).Contents (Elt F) → (⟨S1700000, .i32⟩ : BufTy).Contents (Elt F)),
    StableHlo.binary main_v5 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v5 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v34 main_v43 (broadcastInDim S1700000x1 ![0] bcast_S1700000_S1700000x1_0 : (⟨S1700000, .f32⟩ : BufTy).Contents (Elt F) → (⟨S1700000x1, .f32⟩ : BufTy).Contents (Elt F)),
    StableHlo.unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    StableHlo.nullary main_cst_10 (constant S_ .f32 0x00000000#32),
    StableHlo.unary main_cst_10 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_11 (constant S_ .f32 0x00000000#32),
    StableHlo.binary main_v48 main_cst_11 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call2.cst (constant S_ .f32 0x00000000#32),
    StableHlo.TRef.binary (.of main_v48 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v48 : StableHlo.TRef sig ⟨S100000x128, .f32⟩) main_call2.v4 main_call2.v5 subf,
    StableHlo.TRef.binary main_call2.v5 main_call2.v5 main_call2.v6 mulf,
    StableHlo.TRef.unary (.of main_c_13 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v67 : StableHlo.TRef sig ⟨S100000x128, .f32⟩) main_call3.v0 main_call3.v1 maximumf ]

theorem ops_sub : (ops : List (HloOp τ sig (Elt F))).Forall fun op => op.bufs ⊆ StableHlo.tcRefs τ sig := by
  simp only [ops, List.Forall]
  exact ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

end Cert.ReferenceIdeal.RefRun

end
-- ==== Proof.RefRun.lean ====
/-
  The reference program's run. Its @main IS the straight line of host operations listed in the imported module —
  its two windows, the outlined functions' definitions unfolded at their calls and the call records at their
  fields, both sides one chain of steps once sequencing is reassociated — so every weakly fair execution
  terminates, nothing faulting, with every buffer at the fold of those operations over the launch contents.
-/
import proofs.«147712_j11338713662112_2_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- @main is the listed straight line. -/
theorem main_eq (c : Dev nD) : main (F := F) c = StableHlo.seq ops := by
  simp only [main, main_part0, main_part1, fn_where.body, fn_where_0.body, fn_var.body, fn_relu.body, ops, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- At the compiled mesh, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.RefArr.lean ====
/-
  The reference's result as a composition of array-level stages, each the literal composition, in program order,
  of the operations the printed reference carries, read at the ideal values (a float an extended real).

  Stages: the edge list with the self-loops appended (source words, target words, weights), the degree, its
  inverse square root, the normalised edge weights, the linear map, the aggregate, the column mean, the column
  variance, and the normalised, scaled, shifted and rectified result.
-/
import proofs.«147712_j11338713662112_2_alg».proof.ReferenceIdeal
import Idealize.ShloMosaic.PureOps.Ideal

noncomputable section

namespace Cert.ReferenceIdeal.RefArr

open Idealize.ShloMosaic
open Cert.ReferenceIdeal Cert.ReferenceIdeal.Facts₀

variable [Cert.ReferenceIdeal.Facts]

/-- The source words of the edges followed by the self-loops' (the nodes in order): row 0 of the edge index,
    flattened, with the iota appended. -/
def rowF (EI : IVec S2x1600000 32) : IVec S1700000 32 :=
  concatenate S1700000 0
    [⟨S1600000, shapeCast S1600000 (extractStridedSlice S1x1600000 ![0, 0] EI slices_S2x1600000_S1x1600000_0_0)
        shapeCasts_S1x1600000_S1600000⟩,
     ⟨S100000, iotaInDim S100000 32 0⟩] concatenates_S1600000_S100000_S1700000_d0

/-- The target words of the edges followed by the self-loops'. -/
def colF (EI : IVec S2x1600000 32) : IVec S1700000 32 :=
  concatenate S1700000 0
    [⟨S1600000, shapeCast S1600000 (extractStridedSlice S1x1600000 ![1, 0] EI slices_S2x1600000_S1x1600000_1_0)
        shapeCasts_S1x1600000_S1600000⟩,
     ⟨S100000, iotaInDim S100000 32 0⟩] concatenates_S1600000_S100000_S1700000_d0

/-- The edge weights followed by the self-loops' weight one. -/
def wF (Wt : FVec Ideal S1600000 .f32) : FVec Ideal S1700000 .f32 :=
  concatenate S1700000 0
    [⟨S1600000, Wt⟩,
     ⟨S100000, broadcastInDim S100000 ![] bcast_S_S100000 (constant (F := Ideal) S_ .f32 0x3F800000#32)⟩]
    concatenates_S1600000_S100000_S1700000_d0

/-- The degree: the weights scattered onto the zero table by the target words. -/
def degA (cf : IVec S1700000 32) (wf : FVec Ideal S1700000 .f32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 cf)
    wf

/-- The inverse square root of the degree where it is positive, zero elsewhere: the inner selection guards the
    root's argument (one where the degree is not positive), the outer one the result. -/
def disA (deg : FVec Ideal S100000 .f32) : FVec Ideal S100000 .f32 :=
  select
    (cmpf .ogt deg (broadcastInDim S100000 ![] bcast_S_S100000 (constant (F := Ideal) S_ .f32 0x00000000#32)))
    (Host.rsqrt
      (select
        (cmpf .ogt deg (broadcastInDim S100000 ![] bcast_S_S100000 (constant (F := Ideal) S_ .f32 0x00000000#32)))
        deg
        (broadcastInDim S100000 ![] bcast_S_S100000 (id (constant (F := Ideal) S_ .f32 0x3F800000#32)))))
    (broadcastInDim S100000 ![] bcast_S_S100000 (id (constant (F := Ideal) S_ .f32 0x00000000#32)))

/-- An index array as an indexed read normalises it (a negative word has the node count added), as a column of
    one-word index vectors. -/
def nidxA (v : IVec S1700000 32) : IVec S1700000x1 32 :=
  broadcastInDim S1700000x1 ![0] bcast_S1700000_S1700000x1_0
    (select
      (cmpi .slt v (broadcastInDim S1700000 ![] bcast_S_S1700000 (constantI S_ 32 0#32)))
      (addi v (broadcastInDim S1700000 ![] bcast_S_S1700000 (constantI S_ 32 100000#32)))
      v)

/-- The normalised weights: the inverse root at the source, times the weight, times the inverse root at the target. -/
def nrmA (dis : FVec Ideal S100000 .f32) (rf cf : IVec S1700000 32) (wf : FVec Ideal S1700000 .f32) :
    FVec Ideal S1700000 .f32 :=
  mulf
    (mulf (Host.gather gather_S100000_S1700000x1_S1700000_n_0_n_n_0_1_1 dis (nidxA rf)) wf)
    (Host.gather gather_S100000_S1700000x1_S1700000_n_0_n_n_0_1_1 dis (nidxA cf))

/-- The linear map. -/
def linA (X : FVec Ideal S100000x128 .f32) (Wm : FVec Ideal S128x128 .f32) : FVec Ideal S100000x128 .f32 :=
  Host.dotGeneral (F := Ideal) dot_S100000x128_S128x128_S100000x128_1_0_0_1_n_n none X Wm

/-- The aggregate: the source rows, scaled by the normalised weights, scattered onto the zero table by the target words. -/
def aggA (h : FVec Ideal S100000x128 .f32) (nrm : FVec Ideal S1700000 .f32) (rf cf : IVec S1700000 32) :
    FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 cf)
    (mulf
      (Host.gather gather_S100000x128_S1700000x1_S1700000x128_1_0_n_n_0_1_1128 h (nidxA rf))
      (broadcastInDim S1700000x128 ![0, 1] bcast_S1700000x1_S1700000x128_0_1
        (broadcastInDim S1700000x1 ![0] bcast_S1700000_S1700000x1_0 nrm)))

/-- The column mean. -/
def meanA (agg : FVec Ideal S100000x128 .f32) : FVec Ideal S128 .f32 :=
  Host.divf
    (Host.reduceAdd (F := Ideal) agg (constant (F := Ideal) S_ .f32 0x00000000#32) reducesTo_S100000x128_S128_d0 h_S_)
    (broadcastInDim S128 ![] bcast_S_S128 (constant (F := Ideal) S_ .f32 0x47C35000#32))

/-- The variance's count: the node count less the (zero) correction. -/
def varCount : FVec Ideal S_ .f32 :=
  subf (constant (F := Ideal) S_ .f32 0x47C35000#32) (sitofp (F := Ideal) .f32 (constantI S_ 32 0#32))

/-- The squared deviations from the column mean. -/
def sqDevA (agg : FVec Ideal S100000x128 .f32) : FVec Ideal S100000x128 .f32 :=
  mulf
    (subf agg
      (broadcastInDim S100000x128 ![0, 1] bcast_S1x128_S100000x128_0_1
        (Host.divf
          (broadcastInDim S1x128 ![1] bcast_S128_S1x128_1
            (Host.reduceAdd (F := Ideal) agg (constant (F := Ideal) S_ .f32 0x00000000#32)
              reducesTo_S100000x128_S128_d0 h_S_))
          (broadcastInDim S1x128 ![] bcast_S_S1x128 (constant (F := Ideal) S_ .f32 0x47C35000#32)))))
    (subf agg
      (broadcastInDim S100000x128 ![0, 1] bcast_S1x128_S100000x128_0_1
        (Host.divf
          (broadcastInDim S1x128 ![1] bcast_S128_S1x128_1
            (Host.reduceAdd (F := Ideal) agg (constant (F := Ideal) S_ .f32 0x00000000#32)
              reducesTo_S100000x128_S128_d0 h_S_))
          (broadcastInDim S1x128 ![] bcast_S_S1x128 (constant (F := Ideal) S_ .f32 0x47C35000#32)))))

/-- The column variance: the mean of the squared deviations where the count is positive (it is), else the not-a-number word. -/
def varA (agg : FVec Ideal S100000x128 .f32) : FVec Ideal S128 .f32 :=
  select
    (broadcastInDim S128 ![] bcast_S_S128 (cmpf .ogt varCount (constant (F := Ideal) S_ .f32 0x00000000#32)))
    (Host.divf
      (Host.reduceAdd (F := Ideal) (sqDevA agg) (constant (F := Ideal) S_ .f32 0x00000000#32)
        reducesTo_S100000x128_S128_d0 h_S_)
      (broadcastInDim S128 ![] bcast_S_S128 varCount))
    (broadcastInDim S128 ![] bcast_S_S128 (id (constant (F := Ideal) S_ .f32 0x7FC00000#32)))

/-- A row vector spread over the nodes. -/
def spread (v : FVec Ideal S128 .f32) : FVec Ideal S100000x128 .f32 :=
  broadcastInDim S100000x128 ![0, 1] bcast_S1x128_S100000x128_0_1 (broadcastInDim S1x128 ![1] bcast_S128_S1x128_1 v)

/-- The result: centred, scaled by the inverse root of the variance plus ε, by γ, shifted by β, rectified. -/
def outA (agg : FVec Ideal S100000x128 .f32) (mean var G B : FVec Ideal S128 .f32) : FVec Ideal S100000x128 .f32 :=
  maximumf
    (addf
      (mulf
        (mulf (subf agg (spread mean))
          (spread (Host.rsqrt (addf var (broadcastInDim S128 ![] bcast_S_S128 (constant (F := Ideal) S_ .f32 0x3727C5AC#32))))))
        (spread G))
      (spread B))
    (broadcastInDim S100000x128 ![] bcast_S_S100000x128 (constant (F := Ideal) S_ .f32 0x00000000#32))

/-- The reference's result array. -/
def refArr (X : FVec Ideal S100000x128 .f32) (EI : IVec S2x1600000 32) (Wt : FVec Ideal S1600000 .f32)
    (Wm : FVec Ideal S128x128 .f32) (G B : FVec Ideal S128 .f32) : FVec Ideal S100000x128 .f32 :=
  let agg := aggA (linA X Wm) (nrmA (disA (degA (colF EI) (wF Wt))) (rowF EI) (colF EI) (wF Wt)) (rowF EI) (colF EI)
  outA agg (meanA agg) (varA agg) G B

end Cert.ReferenceIdeal.RefArr

end
-- ==== Proof.LibTypedRefs.lean ====
/-
  Typed references: contents moved to the buffer's own type and back.

  An operation of an outlined function reads and writes its buffers through references that carry the tensor type of
  the value they hold; contents cross between that type and the buffer's own type along the equation of the two
  types. Moving a value to the buffer's type and straight back gives the value, for ANY typed reference — the fact
  is about the reference as a variable, so using it never asks Lean to compare two buffer types.
-/
import Idealize.ShloMosaic.Lib.StableHlo

namespace Cert.Lib.TypedRefs

open Idealize.ShloMosaic Idealize.ShloMosaic.StableHlo

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.Lib.TypedRefs
-- ==== Proof.RefLinkPieces.lean ====
/-
  The reference's operations cut into eight consecutive stretches, and what each stretch leaves in the buffers the
  later ones read, from ANY contents before it: the buffer a stretch computes holds the corresponding array-level
  stage of the contents of the buffers it reads, and a buffer it does not write keeps its contents.
-/
import proofs.«147712_j11338713662112_2_alg».proof.ReferenceIdeal
import proofs.«147712_j11338713662112_2_alg».proof.Proof.Gen.ReferenceIdeal
import proofs.«147712_j11338713662112_2_alg».proof.Proof.RefArr
import proofs.«147712_j11338713662112_2_alg».proof.Proof.LibTypedRefs
import Idealize.ShloMosaic.Lib.StableHlo.Run

noncomputable section

namespace Cert.ReferenceIdeal.RefLink

open Cert.ReferenceIdeal Cert.ReferenceIdeal.Gen Idealize.ShloMosaic Idealize.ShloMosaic.TcCoe Idealize.SL.Sem

variable {F : FTy → Type} [FloatOps F]

/-- Operations 1 … 10 of the 113. -/
def s1 : List (HloOp τ sig (Elt F)) :=
  [
    StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- Operations 11 … 14 of the 113. -/
def s2 : List (HloOp τ sig (Elt F)) :=
  [
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- Operations 15 … 29 of the 113. -/
def s3 : List (HloOp τ sig (Elt F)) :=
  [
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v11 : StableHlo.TRef sig ⟨S100000, .f32⟩) main_call0.v1 main_call0.v2 select,
    StableHlo.nullary main_cst_3 (constant S_ .f32 0x00000000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v11 main_v15 main_v16 (cmpf .ogt : (⟨S100000, .f32⟩ : BufTy).Contents (Elt F) → (⟨S100000, .f32⟩ : BufTy).Contents (Elt F) → (⟨S100000, .i1⟩ : BufTy).Contents (Elt F)),
    StableHlo.unary main_v14 main_v17 (Host.rsqrt : (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S100000 ![] bcast_S_S100000),
    StableHlo.TRef.ternary (.of main_v16 : StableHlo.TRef sig ⟨S100000, .i1⟩) (.of main_v17 : StableHlo.TRef sig ⟨S100000, .f32⟩) main_call1.v1 main_call1.v2 select ]

/-- Operations 30 … 49 of the 113. -/
def s4 : List (HloOp τ sig (Elt F)) :=
  [
    StableHlo.nullary main_c (constantI S_ 32 0#32),
    StableHlo.unary main_c main_v19 (broadcastInDim S1700000 ![] bcast_S_S1700000 : (⟨S_, .i32⟩ : BufTy).Contents (Elt F) → (⟨S1700000, .i32⟩ : BufTy).Contents (Elt F)),
    StableHlo.binary main_v5 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v21 (broadcastInDim S1700000 ![] bcast_S_S1700000 : (⟨S_, .i32⟩ : BufTy).Contents (Elt F) → (⟨S1700000, .i32⟩ : BufTy).Contents (Elt F)),
    StableHlo.binary main_v5 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v5 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v8 main_v26 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v6 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v29 (broadcastInDim S1700000 ![] bcast_S_S1700000 : (⟨S_, .i32⟩ : BufTy).Contents (Elt F) → (⟨S1700000, .i32⟩ : BufTy).Contents (Elt F)),
    StableHlo.binary main_v6 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)) ]

/-- Operations 50 … 66 of the 113. -/
def s5 : List (HloOp τ sig (Elt F)) :=
  [
    StableHlo.binary main_arg0 main_arg3 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_8 (constantI S_ 32 0#32),
    StableHlo.unary main_c_8 main_v36 (broadcastInDim S1700000 ![] bcast_S_S1700000 : (⟨S_, .i32⟩ : BufTy).Contents (Elt F) → (⟨S1700000, .i32⟩ : BufTy).Contents (Elt F)),
    StableHlo.binary main_v5 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v38 (broadcastInDim S1700000 ![] bcast_S_S1700000 : (⟨S_, .i32⟩ : BufTy).Contents (Elt F) → (⟨S1700000, .i32⟩ : BufTy).Contents (Elt F)),
    StableHlo.binary main_v5 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v5 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v34 main_v43 (broadcastInDim S1700000x1 ![0] bcast_S1700000_S1700000x1_0 : (⟨S1700000, .f32⟩ : BufTy).Contents (Elt F) → (⟨S1700000x1, .f32⟩ : BufTy).Contents (Elt F)),
    StableHlo.unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    StableHlo.nullary main_cst_10 (constant S_ .f32 0x00000000#32),
    StableHlo.unary main_cst_10 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 67 … 71 of the 113. -/
def s6 : List (HloOp τ sig (Elt F)) :=
  [
    StableHlo.nullary main_cst_11 (constant S_ .f32 0x00000000#32),
    StableHlo.binary main_v48 main_cst_11 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)) ]

/-- Operations 72 … 94 of the 113. -/
def s7 : List (HloOp τ sig (Elt F)) :=
  [
    StableHlo.nullary main_c_13 (constantI S_ 32 0#32),
    StableHlo.TRef.nullary main_call2.cst (constant S_ .f32 0x00000000#32),
    StableHlo.TRef.binary (.of main_v48 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v48 : StableHlo.TRef sig ⟨S100000x128, .f32⟩) main_call2.v4 main_call2.v5 subf,
    StableHlo.TRef.binary main_call2.v5 main_call2.v5 main_call2.v6 mulf,
    StableHlo.TRef.unary (.of main_c_13 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Operations 95 … 113 of the 113. -/
def s8 : List (HloOp τ sig (Elt F)) :=
  [
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v67 : StableHlo.TRef sig ⟨S100000x128, .f32⟩) main_call3.v0 main_call3.v1 maximumf ]

attribute [local irreducible] Host.reduceAdd Host.gather Host.scatterAdd concatenate

set_option maxRecDepth 8192
set_option maxHeartbeats 1000000

theorem s1_arg0 (X : Valuation τ sig (Elt Ideal)) :
    StableHlo.after (s1 (F := Ideal)) X (main_arg0 : DevRef τ sig) = X (main_arg0 : DevRef τ sig) := by
  unfold s1
  after_results_simp

theorem s1_arg1 (X : Valuation τ sig (Elt Ideal)) :
    StableHlo.after (s1 (F := Ideal)) X (main_arg1 : DevRef τ sig) = X (main_arg1 : DevRef τ sig) := by
  unfold s1
  after_results_simp

theorem s1_arg2 (X : Valuation τ sig (Elt Ideal)) :
    StableHlo.after (s1 (F := Ideal)) X (main_arg2 : DevRef τ sig) = X (main_arg2 : DevRef τ sig) := by
  unfold s1
  after_results_simp

theorem s1_arg3 (X : Valuation τ sig (Elt Ideal)) :
    StableHlo.after (s1 (F := Ideal)) X (main_arg3 : DevRef τ sig) = X (main_arg3 : DevRef τ sig) := by
  unfold s1
  after_results_simp

theorem s1_arg4 (X : Valuation τ sig (Elt Ideal)) :
    StableHlo.after (s1 (F := Ideal)) X (main_arg4 : DevRef τ sig) = X (main_arg4 : DevRef τ sig) := by
  unfold s1
  after_results_simp

theorem s1_arg5 (X : Valuation τ sig (Elt Ideal)) :
    StableHlo.after (s1 (F := Ideal)) X (main_arg5 : DevRef τ sig) = X (main_arg5 : DevRef τ sig) := by
  unfold s1
  after_results_simp

theorem s2_arg0 (X : Valuation τ sig (Elt Ideal)) :
    StableHlo.after (s2 (F := Ideal)) X (main_arg0 : DevRef τ sig) = X (main_arg0 : DevRef τ sig) := by
  unfold s2
  after_results_simp

theorem s2_arg1 (X : Valuation τ sig (Elt Ideal)) :
    StableHlo.after (s2 (F := Ideal)) X (main_arg1 : DevRef τ sig) = X (main_arg1 : DevRef τ sig) := by
  unfold s2
  after_results_simp

theorem s2_arg2 (X : Valuation τ sig (Elt Ideal)) :
    StableHlo.after (s2 (F := Ideal)) X (main_arg2 : DevRef τ sig) = X (main_arg2 : DevRef τ sig) := by
  unfold s2
  after_results_simp

theorem s2_arg3 (X : Valuation τ sig (Elt Ideal)) :
    StableHlo.after (s2 (F := Ideal)) X (main_arg3 : DevRef τ sig) = X (main_arg3 : DevRef τ sig) := by
  unfold s2
  after_results_simp

theorem s2_arg4 (X : Valuation τ sig (Elt Ideal)) :
    StableHlo.after (s2 (F := Ideal)) X (main_arg4 : DevRef τ sig) = X (main_arg4 : DevRef τ sig) := by
  unfold s2
  after_results_simp

theorem s2_arg5 (X : Valuation τ sig (Elt Ideal)) :
    StableHlo.after (s2 (F := Ideal)) X (main_arg5 : DevRef τ sig) = X (main_arg5 : DevRef τ sig) := by
  unfold s2
  after_results_simp

theorem s2_v5 (X : Valuation τ sig (Elt Ideal)) :
    StableHlo.after (s2 (F := Ideal)) X (main_v5 : DevRef τ sig) = X (main_v5 : DevRef τ sig) := by
  unfold s2
  after_results_simp

theorem s2_v6 (X : Valuation τ sig (Elt Ideal)) :
    StableHlo.after (s2 (F := Ideal)) X (main_v6 : DevRef τ sig) = X (main_v6 : DevRef τ sig) := by
  unfold s2
  after_results_simp

theorem s2_v8 (X : Valuation τ sig (Elt Ideal)) :
    StableHlo.after (s2 (F := Ideal)) X (main_v8 : DevRef τ sig) = X (main_v8 : DevRef τ sig) := by
  unfold s2
  after_results_simp

theorem s3_arg0 (X : Valuation τ sig (Elt Ideal)) :
    StableHlo.after (s3 (F := Ideal)) X (main_arg0 : DevRef τ sig) = X (main_arg0 : DevRef τ sig) := by
  unfold s3
  after_results_simp

theorem s3_arg1 (X : Valuation τ sig (Elt Ideal)) :
    StableHlo.after (s3 (F := Ideal)) X (main_arg1 : DevRef τ sig) = X (main_arg1 : DevRef τ sig) := by
  unfold s3
  after_results_simp

theorem s3_arg2 (X : Valuation τ sig (Elt Ideal)) :
    StableHlo.after (s3 (F := Ideal)) X (main_arg2 : DevRef τ sig) = X (main_arg2 : DevRef τ sig) := by
  unfold s3
  after_results_simp

theorem s3_arg3 (X : Valuation τ sig (Elt Ideal)) :
    StableHlo.after (s3 (F := Ideal)) X (main_arg3 : DevRef τ sig) = X (main_arg3 : DevRef τ sig) := by
  unfold s3
  after_results_simp

theorem s3_arg4 (X : Valuation τ sig (Elt Ideal)) :
    StableHlo.after (s3 (F := Ideal)) X (main_arg4 : DevRef τ sig) = X (main_arg4 : DevRef τ sig) := by
  unfold s3
  after_results_simp

theorem s3_arg5 (X : Valuation τ sig (Elt Ideal)) :
    StableHlo.after (s3 (F := Ideal)) X (main_arg5 : DevRef τ sig) = X (main_arg5 : DevRef τ sig) := by
  unfold s3
  after_results_simp

theorem s3_v5 (X : Valuation τ sig (Elt Ideal)) :
    StableHlo.after (s3 (F := Ideal)) X (main_v5 : DevRef τ sig) = X (main_v5 : DevRef τ sig) := by
  unfold s3
  after_results_simp

theorem s3_v6 (X : Valuation τ sig (Elt Ideal)) :
    StableHlo.after (s3 (F := Ideal)) X (main_v6 : DevRef τ sig) = X (main_v6 : DevRef τ sig) := by
  unfold s3
  after_results_simp

theorem s3_v8 (X : Valuation τ sig (Elt Ideal)) :
    StableHlo.after (s3 (F := Ideal)) X (main_v8 : DevRef τ sig) = X (main_v8 : DevRef τ sig) := by
  unfold s3
  after_results_simp

theorem s4_arg0 (X : Valuation τ sig (Elt Ideal)) :
    StableHlo.after (s4 (F := Ideal)) X (main_arg0 : DevRef τ sig) = X (main_arg0 : DevRef τ sig) := by
  unfold s4
  after_results_simp

theorem s4_arg1 (X : Valuation τ sig (Elt Ideal)) :
    StableHlo.after (s4 (F := Ideal)) X (main_arg1 : DevRef τ sig) = X (main_arg1 : DevRef τ sig) := by
  unfold s4
  after_results_simp

theorem s4_arg2 (X : Valuation τ sig (Elt Ideal)) :
    StableHlo.after (s4 (F := Ideal)) X (main_arg2 : DevRef τ sig) = X (main_arg2 : DevRef τ sig) := by
  unfold s4
  after_results_simp

theorem s4_arg3 (X : Valuation τ sig (Elt Ideal)) :
    StableHlo.after (s4 (F := Ideal)) X (main_arg3 : DevRef τ sig) = X (main_arg3 : DevRef τ sig) := by
  unfold s4
  after_results_simp

theorem s4_arg4 (X : Valuation τ sig (Elt Ideal)) :
    StableHlo.after (s4 (F := Ideal)) X (main_arg4 : DevRef τ sig) = X (main_arg4 : DevRef τ sig) := by
  unfold s4
  after_results_simp

theorem s4_arg5 (X : Valuation τ sig (Elt Ideal)) :
    StableHlo.after (s4 (F := Ideal)) X (main_arg5 : DevRef τ sig) = X (main_arg5 : DevRef τ sig) := by
  unfold s4
  after_results_simp

theorem s4_v5 (X : Valuation τ sig (Elt Ideal)) :
    StableHlo.after (s4 (F := Ideal)) X (main_v5 : DevRef τ sig) = X (main_v5 : DevRef τ sig) := by
  unfold s4
  after_results_simp

theorem s4_v6 (X : Valuation τ sig (Elt Ideal)) :
    StableHlo.after (s4 (F := Ideal)) X (main_v6 : DevRef τ sig) = X (main_v6 : DevRef τ sig) := by
  unfold s4
  after_results_simp

theorem s5_arg0 (X : Valuation τ sig (Elt Ideal)) :
    StableHlo.after (s5 (F := Ideal)) X (main_arg0 : DevRef τ sig) = X (main_arg0 : DevRef τ sig) := by
  unfold s5
  after_results_simp

theorem s5_arg1 (X : Valuation τ sig (Elt Ideal)) :
    StableHlo.after (s5 (F := Ideal)) X (main_arg1 : DevRef τ sig) = X (main_arg1 : DevRef τ sig) := by
  unfold s5
  after_results_simp

theorem s5_arg2 (X : Valuation τ sig (Elt Ideal)) :
    StableHlo.after (s5 (F := Ideal)) X (main_arg2 : DevRef τ sig) = X (main_arg2 : DevRef τ sig) := by
  unfold s5
  after_results_simp

theorem s5_arg3 (X : Valuation τ sig (Elt Ideal)) :
    StableHlo.after (s5 (F := Ideal)) X (main_arg3 : DevRef τ sig) = X (main_arg3 : DevRef τ sig) := by
  unfold s5
  after_results_simp

theorem s5_arg4 (X : Valuation τ sig (Elt Ideal)) :
    StableHlo.after (s5 (F := Ideal)) X (main_arg4 : DevRef τ sig) = X (main_arg4 : DevRef τ sig) := by
  unfold s5
  after_results_simp

theorem s5_arg5 (X : Valuation τ sig (Elt Ideal)) :
    StableHlo.after (s5 (F := Ideal)) X (main_arg5 : DevRef τ sig) = X (main_arg5 : DevRef τ sig) := by
  unfold s5
  after_results_simp

theorem s6_arg0 (X : Valuation τ sig (Elt Ideal)) :
    StableHlo.after (s6 (F := Ideal)) X (main_arg0 : DevRef τ sig) = X (main_arg0 : DevRef τ sig) := by
  unfold s6
  after_results_simp

theorem s6_arg1 (X : Valuation τ sig (Elt Ideal)) :
    StableHlo.after (s6 (F := Ideal)) X (main_arg1 : DevRef τ sig) = X (main_arg1 : DevRef τ sig) := by
  unfold s6
  after_results_simp

theorem s6_arg2 (X : Valuation τ sig (Elt Ideal)) :
    StableHlo.after (s6 (F := Ideal)) X (main_arg2 : DevRef τ sig) = X (main_arg2 : DevRef τ sig) := by
  unfold s6
  after_results_simp

theorem s6_arg3 (X : Valuation τ sig (Elt Ideal)) :
    StableHlo.after (s6 (F := Ideal)) X (main_arg3 : DevRef τ sig) = X (main_arg3 : DevRef τ sig) := by
  unfold s6
  after_results_simp

theorem s6_arg4 (X : Valuation τ sig (Elt Ideal)) :
    StableHlo.after (s6 (F := Ideal)) X (main_arg4 : DevRef τ sig) = X (main_arg4 : DevRef τ sig) := by
  unfold s6
  after_results_simp

theorem s6_arg5 (X : Valuation τ sig (Elt Ideal)) :
    StableHlo.after (s6 (F := Ideal)) X (main_arg5 : DevRef τ sig) = X (main_arg5 : DevRef τ sig) := by
  unfold s6
  after_results_simp

theorem s6_v48 (X : Valuation τ sig (Elt Ideal)) :
    StableHlo.after (s6 (F := Ideal)) X (main_v48 : DevRef τ sig) = X (main_v48 : DevRef τ sig) := by
  unfold s6
  after_results_simp

theorem s7_arg0 (X : Valuation τ sig (Elt Ideal)) :
    StableHlo.after (s7 (F := Ideal)) X (main_arg0 : DevRef τ sig) = X (main_arg0 : DevRef τ sig) := by
  unfold s7
  after_results_simp

theorem s7_arg1 (X : Valuation τ sig (Elt Ideal)) :
    StableHlo.after (s7 (F := Ideal)) X (main_arg1 : DevRef τ sig) = X (main_arg1 : DevRef τ sig) := by
  unfold s7
  after_results_simp

theorem s7_arg2 (X : Valuation τ sig (Elt Ideal)) :
    StableHlo.after (s7 (F := Ideal)) X (main_arg2 : DevRef τ sig) = X (main_arg2 : DevRef τ sig) := by
  unfold s7
  after_results_simp

theorem s7_arg3 (X : Valuation τ sig (Elt Ideal)) :
    StableHlo.after (s7 (F := Ideal)) X (main_arg3 : DevRef τ sig) = X (main_arg3 : DevRef τ sig) := by
  unfold s7
  after_results_simp

theorem s7_arg4 (X : Valuation τ sig (Elt Ideal)) :
    StableHlo.after (s7 (F := Ideal)) X (main_arg4 : DevRef τ sig) = X (main_arg4 : DevRef τ sig) := by
  unfold s7
  after_results_simp

theorem s7_arg5 (X : Valuation τ sig (Elt Ideal)) :
    StableHlo.after (s7 (F := Ideal)) X (main_arg5 : DevRef τ sig) = X (main_arg5 : DevRef τ sig) := by
  unfold s7
  after_results_simp

theorem s7_v48 (X : Valuation τ sig (Elt Ideal)) :
    StableHlo.after (s7 (F := Ideal)) X (main_v48 : DevRef τ sig) = X (main_v48 : DevRef τ sig) := by
  unfold s7
  after_results_simp

theorem s7_v51 (X : Valuation τ sig (Elt Ideal)) :
    StableHlo.after (s7 (F := Ideal)) X (main_v51 : DevRef τ sig) = X (main_v51 : DevRef τ sig) := by
  unfold s7
  after_results_simp

theorem s8_arg0 (X : Valuation τ sig (Elt Ideal)) :
    StableHlo.after (s8 (F := Ideal)) X (main_arg0 : DevRef τ sig) = X (main_arg0 : DevRef τ sig) := by
  unfold s8
  after_results_simp

theorem s8_arg1 (X : Valuation τ sig (Elt Ideal)) :
    StableHlo.after (s8 (F := Ideal)) X (main_arg1 : DevRef τ sig) = X (main_arg1 : DevRef τ sig) := by
  unfold s8
  after_results_simp

theorem s8_arg2 (X : Valuation τ sig (Elt Ideal)) :
    StableHlo.after (s8 (F := Ideal)) X (main_arg2 : DevRef τ sig) = X (main_arg2 : DevRef τ sig) := by
  unfold s8
  after_results_simp

theorem s8_arg3 (X : Valuation τ sig (Elt Ideal)) :
    StableHlo.after (s8 (F := Ideal)) X (main_arg3 : DevRef τ sig) = X (main_arg3 : DevRef τ sig) := by
  unfold s8
  after_results_simp

theorem s8_arg4 (X : Valuation τ sig (Elt Ideal)) :
    StableHlo.after (s8 (F := Ideal)) X (main_arg4 : DevRef τ sig) = X (main_arg4 : DevRef τ sig) := by
  unfold s8
  after_results_simp

theorem s8_arg5 (X : Valuation τ sig (Elt Ideal)) :
    StableHlo.after (s8 (F := Ideal)) X (main_arg5 : DevRef τ sig) = X (main_arg5 : DevRef τ sig) := by
  unfold s8
  after_results_simp

theorem s1_v5 (X : Valuation τ sig (Elt Ideal)) :
    StableHlo.after (s1 (F := Ideal)) X (main_v5 : DevRef τ sig)
      = RefArr.rowF (X (main_arg1 : DevRef τ sig)) := by
  unfold s1
  after_results_simp
  try simp only [Cert.Lib.TypedRefs.ofBuf_toBuf]
  rfl

theorem s1_v6 (X : Valuation τ sig (Elt Ideal)) :
    StableHlo.after (s1 (F := Ideal)) X (main_v6 : DevRef τ sig)
      = RefArr.colF (X (main_arg1 : DevRef τ sig)) := by
  unfold s1
  after_results_simp
  try simp only [Cert.Lib.TypedRefs.ofBuf_toBuf]
  rfl

theorem s1_v8 (X : Valuation τ sig (Elt Ideal)) :
    StableHlo.after (s1 (F := Ideal)) X (main_v8 : DevRef τ sig)
      = RefArr.wF (X (main_arg2 : DevRef τ sig)) := by
  unfold s1
  after_results_simp
  try simp only [Cert.Lib.TypedRefs.ofBuf_toBuf]
  rfl

theorem s2_v11 (X : Valuation τ sig (Elt Ideal)) :
    StableHlo.after (s2 (F := Ideal)) X (main_v11 : DevRef τ sig)
      = RefArr.degA (X (main_v6 : DevRef τ sig)) (X (main_v8 : DevRef τ sig)) := by
  unfold s2
  after_results_simp
  try simp only [Cert.Lib.TypedRefs.ofBuf_toBuf]
  rfl

theorem s3_v18 (X : Valuation τ sig (Elt Ideal)) :
    StableHlo.after (s3 (F := Ideal)) X (main_v18 : DevRef τ sig)
      = RefArr.disA (X (main_v11 : DevRef τ sig)) := by
  unfold s3
  after_results_simp
  try simp only [Cert.Lib.TypedRefs.ofBuf_toBuf]
  rfl

theorem s4_v34 (X : Valuation τ sig (Elt Ideal)) :
    StableHlo.after (s4 (F := Ideal)) X (main_v34 : DevRef τ sig)
      = RefArr.nrmA (X (main_v18 : DevRef τ sig)) (X (main_v5 : DevRef τ sig)) (X (main_v6 : DevRef τ sig)) (X (main_v8 : DevRef τ sig)) := by
  unfold s4
  after_results_simp
  try simp only [Cert.Lib.TypedRefs.ofBuf_toBuf]
  rfl

theorem s5_v48 (X : Valuation τ sig (Elt Ideal)) :
    StableHlo.after (s5 (F := Ideal)) X (main_v48 : DevRef τ sig)
      = RefArr.aggA (RefArr.linA (X (main_arg0 : DevRef τ sig)) (X (main_arg3 : DevRef τ sig))) (X (main_v34 : DevRef τ sig)) (X (main_v5 : DevRef τ sig)) (X (main_v6 : DevRef τ sig)) := by
  unfold s5
  after_results_simp
  try simp only [Cert.Lib.TypedRefs.ofBuf_toBuf]
  rfl

theorem s6_v51 (X : Valuation τ sig (Elt Ideal)) :
    StableHlo.after (s6 (F := Ideal)) X (main_v51 : DevRef τ sig)
      = RefArr.meanA (X (main_v48 : DevRef τ sig)) := by
  unfold s6
  after_results_simp
  try simp only [Cert.Lib.TypedRefs.ofBuf_toBuf]
  rfl

theorem s7_v52 (X : Valuation τ sig (Elt Ideal)) :
    StableHlo.after (s7 (F := Ideal)) X (main_v52 : DevRef τ sig)
      = RefArr.varA (X (main_v48 : DevRef τ sig)) := by
  unfold s7
  after_results_simp
  try simp only [Cert.Lib.TypedRefs.ofBuf_toBuf]
  rfl

theorem s8_v68 (X : Valuation τ sig (Elt Ideal)) :
    StableHlo.after (s8 (F := Ideal)) X (main_v68 : DevRef τ sig)
      = RefArr.outA (X (main_v48 : DevRef τ sig)) (X (main_v51 : DevRef τ sig)) (X (main_v52 : DevRef τ sig)) (X (main_arg4 : DevRef τ sig)) (X (main_arg5 : DevRef τ sig)) := by
  unfold s8
  after_results_simp
  try simp only [Cert.Lib.TypedRefs.ofBuf_toBuf]
  rfl

end Cert.ReferenceIdeal.RefLink

end
-- ==== Proof.LibAfterAppend.lean ====
/-
  The contents after two stretches of host operations run one after the other.

  The contents of a device's buffers after a list of host operations is a fold of the operations over the contents
  before. The fold over a concatenation is the fold over the second list started from the fold over the first. So a long
  stretch can be described stage by stage: each stage as a statement about an arbitrary starting valuation of which
  only the few buffers the stage reads are known, and the stages composed by this equation.
-/
import Idealize.ShloMosaic.Lib.StableHlo.Run

namespace Cert.Lib.AfterAppend

open Idealize.ShloMosaic Idealize.ShloMosaic.StableHlo

variable {τ : Topo} {sig : RefSig} {Val : EltTy → Type}

/-- The fold over a concatenation is the fold over the second list from the fold over the first. -/
theorem after_append (l₁ l₂ : List (HloOp τ sig Val)) (W : Valuation τ sig Val) :
    after (l₁ ++ l₂) W = after l₂ (after l₁ W) := by
  induction l₁ generalizing W with
  | nil => rfl
  | cons op l ih => simp only [List.cons_append, after_cons, ih]

end Cert.Lib.AfterAppend
-- ==== Proof.RefLink.lean ====
/-
  The reference's run read back: after the run the result buffer holds the composition of the array-level stages
  applied to the argument arrays as launched, and the argument buffers hold what they were launched with.

  The contents after the whole list of operations is the contents after its eight stretches in turn; each stretch's
  output is a stage of what it reads and leaves the rest, so the result buffer holds the stages' composition.
-/
import proofs.«147712_j11338713662112_2_alg».proof.Proof.RefRun
import proofs.«147712_j11338713662112_2_alg».proof.Proof.RefLinkPieces
import proofs.«147712_j11338713662112_2_alg».proof.Proof.LibAfterAppend

noncomputable section

namespace Cert.ReferenceIdeal.RefLink

open Cert.ReferenceIdeal Cert.ReferenceIdeal.Gen Idealize.ShloMosaic Idealize.ShloMosaic.TcCoe Idealize.SL.Sem

/-- The operations are the eight stretches in order. -/
theorem ops_split {F : FTy → Type} [FloatOps F] :
    RefRun.ops (F := F) = s1 ++ (s2 ++ (s3 ++ (s4 ++ (s5 ++ (s6 ++ (s7 ++ s8)))))) := rfl

/-- The contents after all the operations: the stretches' folds in turn. -/
theorem after_ops (V : Valuation τ sig (Elt Ideal)) :
    StableHlo.after (RefRun.ops (F := Ideal)) V
      = StableHlo.after s8 (StableHlo.after s7 (StableHlo.after s6 (StableHlo.after s5 (StableHlo.after s4
          (StableHlo.after s3 (StableHlo.after s2 (StableHlo.after s1 V))))))) := by
  rw [ops_split]
  simp only [Cert.Lib.AfterAppend.after_append]

/-- The fold at the result buffer is the stages' composition of the arguments. -/
theorem out_eq (V : Valuation τ sig (Elt Ideal)) :
    StableHlo.after (RefRun.ops (F := Ideal)) V (main_v68 : DevRef τ sig)
      = RefArr.refArr (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_ops]
  rw [s8_v68, s7_v48, s7_v51, s7_v52, s7_arg4, s7_arg5]
  rw [s6_v48, s6_v51, s6_arg4, s6_arg5]
  rw [s5_v48, s5_arg4, s5_arg5]
  rw [s4_v34, s4_v5, s4_v6, s4_arg0, s4_arg3, s4_arg4, s4_arg5]
  rw [s3_v18, s3_v5, s3_v6, s3_v8, s3_arg0, s3_arg3, s3_arg4, s3_arg5]
  rw [s2_v11, s2_v5, s2_v6, s2_v8, s2_arg0, s2_arg3, s2_arg4, s2_arg5]
  rw [s1_v5, s1_v6, s1_v8, s1_arg0, s1_arg3, s1_arg4, s1_arg5]
  rfl

theorem arg0_eq (V : Valuation τ sig (Elt Ideal)) :
    StableHlo.after (RefRun.ops (F := Ideal)) V (main_arg0 : DevRef τ sig) = V (main_arg0 : DevRef τ sig) := by
  rw [after_ops, s8_arg0, s7_arg0, s6_arg0, s5_arg0, s4_arg0, s3_arg0, s2_arg0, s1_arg0]

theorem arg1_eq (V : Valuation τ sig (Elt Ideal)) :
    StableHlo.after (RefRun.ops (F := Ideal)) V (main_arg1 : DevRef τ sig) = V (main_arg1 : DevRef τ sig) := by
  rw [after_ops, s8_arg1, s7_arg1, s6_arg1, s5_arg1, s4_arg1, s3_arg1, s2_arg1, s1_arg1]

theorem arg2_eq (V : Valuation τ sig (Elt Ideal)) :
    StableHlo.after (RefRun.ops (F := Ideal)) V (main_arg2 : DevRef τ sig) = V (main_arg2 : DevRef τ sig) := by
  rw [after_ops, s8_arg2, s7_arg2, s6_arg2, s5_arg2, s4_arg2, s3_arg2, s2_arg2, s1_arg2]

theorem arg3_eq (V : Valuation τ sig (Elt Ideal)) :
    StableHlo.after (RefRun.ops (F := Ideal)) V (main_arg3 : DevRef τ sig) = V (main_arg3 : DevRef τ sig) := by
  rw [after_ops, s8_arg3, s7_arg3, s6_arg3, s5_arg3, s4_arg3, s3_arg3, s2_arg3, s1_arg3]

theorem arg4_eq (V : Valuation τ sig (Elt Ideal)) :
    StableHlo.after (RefRun.ops (F := Ideal)) V (main_arg4 : DevRef τ sig) = V (main_arg4 : DevRef τ sig) := by
  rw [after_ops, s8_arg4, s7_arg4, s6_arg4, s5_arg4, s4_arg4, s3_arg4, s2_arg4, s1_arg4]

theorem arg5_eq (V : Valuation τ sig (Elt Ideal)) :
    StableHlo.after (RefRun.ops (F := Ideal)) V (main_arg5 : DevRef τ sig) = V (main_arg5 : DevRef τ sig) := by
  rw [after_ops, s8_arg5, s7_arg5, s6_arg5, s5_arg5, s4_arg5, s3_arg5, s2_arg5, s1_arg5]

end Cert.ReferenceIdeal.RefLink

end
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.Spec.lean ====
/-
  One graph-convolution layer with symmetric normalisation, self-loops and batch normalisation, entry by entry
  over the extended reals.

  Nodes `0 … N-1`, edges `0 … E-1`; edge `e` carries a weight `w e` and two 32-bit words, its source `row e` and its
  target `col e`. A word names a target node only when its signed value IS the node (a scatter drops every other
  word); it names a source node after "add N if negative, then clamp into [0, N-1]" (what an indexed read does):
  `src`. Every node also has a self-loop of weight one:

    deg i   = (Σ over the edges into i of w e) + 1
    dis i   = deg i ^ (-1/2) where deg i > 0, else 0
    nrm e   = dis (src (row e)) · w e · dis (src (col e))
    lin     = x · W
    agg i j = (Σ over the edges e into i of lin (src (row e)) j · nrm e) + lin i j · (dis i · dis i)

  and the layer's result is `max (((agg i j - mean j) · (var j + ε)^(-1/2)) · γ j + β j) 0` with `mean` the column
  mean of `agg`. The two programs differ only in how they spell the column variance: `varR`, the mean of the squared
  deviations, against `varK`, the mean of the squares less the squared mean, clamped at zero. For real entries the
  two are one number (`varK_eq_varR`): Σ (a - m)² = Σ a² - N·m² when m = (Σ a)/N, and a mean of squares is
  nonnegative, so the clamp does nothing.
-/
import Idealize.ShloMosaic.PureOps.Ideal
import Idealize.ShloMosaic.Lib.ValueIdx
import proofs.«147712_j11338713662112_2_alg».proof.Proof.LibRowIndex

noncomputable section

open scoped BigOperators

namespace Cert.GcnBn

open Idealize.ShloMosaic

/-- Nodes, edges, features. -/
abbrev NN : ℕ := 100000
abbrev EE : ℕ := 1600000
abbrev CC : ℕ := 128

/-! ## The constants the programs spell -/

/-- `0x47C35000` is the float 100000, the node count. -/
theorem n_f32 : Ideal.ofBits .f32 0x47C35000#32 = ((100000 : ℝ) : EReal) := by
  simp [Ideal.ofBits, Ideal.ieee, -EReal.coe_mul]; norm_num

/-- `0x3F800000` is the float 1. -/
theorem one_f32 : Ideal.ofBits .f32 0x3F800000#32 = 1 := by
  simp [Ideal.ofBits, Ideal.ieee, -EReal.coe_mul]; norm_num

/-- The batch normalisation's ε, kept as the word both programs spell. -/
def eps : EReal := Ideal.ofBits .f32 0x3727C5AC#32

/-- The node count as an extended real. -/
def nF : EReal := ((100000 : ℝ) : EReal)

/-! ## Which node a word names -/

/-- An index word as an indexed read normalises it: a negative word has the node count added. -/
def nidx (b : BitVec 32) : BitVec 32 := Scalar.select (IntOp.cmpi .slt b 0#32) (IntOp.addi b 100000#32) b

/-- The node an indexed read takes for a word: normalised, read signed, clamped into the node range. -/
def src (b : BitVec 32) : Fin NN := Cert.RowIndex.clampRow NN (by decide) (nidx b)

section Layer

variable (row col : Fin EE → BitVec 32) (w : Fin EE → EReal) (x : Fin NN → Fin CC → EReal) (W : Fin CC → Fin CC → EReal)
  (γ β : Fin CC → EReal)

/-- The edges into node `i`: those whose target word, read signed, is `i`. -/
def into (i : Fin NN) : Finset (Fin EE) := Finset.univ.filter fun e => (col e).toInt = (i.val : ℤ)

/-- The weighted in-degree, the self-loop counted. -/
def deg (i : Fin NN) : EReal := (∑ e ∈ into col i, w e) + 1

/-- The inverse square root of the degree where it is positive, zero elsewhere. -/
def dis (i : Fin NN) : EReal := if 0 < deg col w i then Ideal.rsqrt (deg col w i) else 0

/-- An edge's normalised weight. -/
def nrm (e : Fin EE) : EReal := dis col w (src (row e)) * w e * dis col w (src (col e))

/-- The linear map `x · W`. -/
def lin (i : Fin NN) (j : Fin CC) : EReal := ∑ k : Fin CC, x i k * W k j

/-- The aggregate at a node: its in-edges' messages and its own self-loop message. -/
def agg (i : Fin NN) (j : Fin CC) : EReal :=
  (∑ e ∈ into col i, lin x W (src (row e)) j * nrm row col w e) + lin x W i j * (dis col w i * dis col w i)

end Layer

section Norm

variable (a : Fin NN → Fin CC → EReal) (v γ β : Fin CC → EReal)

/-- The column mean. -/
def mean (j : Fin CC) : EReal := Ideal.div (∑ i : Fin NN, a i j) nF

/-- The column variance as the mean of the squares less the squared mean, clamped at zero. -/
def varK (j : Fin CC) : EReal := max (Ideal.div (∑ i : Fin NN, a i j * a i j) nF - mean a j * mean a j) 0

/-- The column variance as the mean of the squared deviations. -/
def varR (j : Fin CC) : EReal := Ideal.div (∑ i : Fin NN, (a i j - mean a j) * (a i j - mean a j)) nF

/-- Batch normalisation with a given variance, the affine map and the rectifier. -/
def bn (i : Fin NN) (j : Fin CC) : EReal := max ((a i j - mean a j) * Ideal.rsqrt (v j + eps) * γ j + β j) 0

end Norm

/-- The result with the variance spelt as the clamped difference. -/
def outK (row col : Fin EE → BitVec 32) (w : Fin EE → EReal) (x : Fin NN → Fin CC → EReal) (W : Fin CC → Fin CC → EReal)
    (γ β : Fin CC → EReal) (i : Fin NN) (j : Fin CC) : EReal :=
  bn (agg row col w x W) (varK (agg row col w x W)) γ β i j

/-- The result with the variance spelt as the mean squared deviation. -/
def outR (row col : Fin EE → BitVec 32) (w : Fin EE → EReal) (x : Fin NN → Fin CC → EReal) (W : Fin CC → Fin CC → EReal)
    (γ β : Fin CC → EReal) (i : Fin NN) (j : Fin CC) : EReal :=
  bn (agg row col w x W) (varR (agg row col w x W)) γ β i j

end Cert.GcnBn

end
-- ==== Proof.LibSumSplit.lean ====
/-
  Filtered sums over an index range cut in two, in any additive commutative monoid (so on the extended reals, with
  no finiteness): a filtered sum over `Fin N` with `N = a + b` is the filtered sum over the first `a` positions
  plus the filtered sum over the last `b`; a filtered sum whose filter holds at exactly one position is the term
  there; and a 32-bit word made from a natural number below `2^31` reads back, signed, as that number — so among
  the words `0, 1, …, b - 1` laid out in order exactly one names a given row.
-/
import Mathlib

namespace Cert.Lib.SumSplit

open Finset

variable {M : Type*} [AddCommMonoid M]

/-- A filtered sum over `Fin N`, `N = a + b`: the first `a` positions, then the last `b`. -/
theorem sum_filter_split {a b N : ℕ} (h : a + b = N) (p : Fin N → Prop) [DecidablePred p] (f : Fin N → M) :
    ∑ n ∈ univ.filter p, f n
      = ∑ e ∈ (univ : Finset (Fin a)).filter (fun e => p (Fin.cast h (Fin.castAdd b e))), f (Fin.cast h (Fin.castAdd b e))
        + ∑ j ∈ (univ : Finset (Fin b)).filter (fun j => p (Fin.cast h (Fin.natAdd a j))), f (Fin.cast h (Fin.natAdd a j)) := by
  subst h
  simp only [Finset.sum_filter]
  exact Fin.sum_univ_add (fun n => if p n then f n else 0)

/-- A filtered sum whose filter holds at exactly one position is the term there. -/
theorem sum_filter_unique {ι : Type*} [Fintype ι] [DecidableEq ι] (p : ι → Prop) [DecidablePred p] (g : ι)
    (hp : ∀ j, p j ↔ j = g) (f : ι → M) : ∑ j ∈ univ.filter p, f j = f g := by
  have hs : univ.filter p = {g} := by
    ext j
    simp only [Finset.mem_filter, Finset.mem_univ, true_and, Finset.mem_singleton]
    exact hp j
  rw [hs, Finset.sum_singleton]

/-- A 32-bit word made from a natural number below `2^31` reads back, signed, as that number. -/
theorem toInt_ofNat_small {j : ℕ} (hj : j < 2147483648) : (BitVec.ofNat 32 j).toInt = (j : ℤ) := by
  rw [BitVec.toInt_eq_toNat_cond, BitVec.toNat_ofNat]
  have h32 : (2 : ℕ) ^ 32 = 4294967296 := by norm_num
  rw [h32, Nat.mod_eq_of_lt (by omega)]
  rw [if_pos (by omega)]

/-- Such a word is not negative. -/
theorem toInt_ofNat_small_nonneg {j : ℕ} (hj : j < 2147483648) : 0 ≤ (BitVec.ofNat 32 j).toInt := by
  rw [toInt_ofNat_small hj]; exact Int.natCast_nonneg j

/-- Among the words `0, 1, …` exactly the `g`-th names row `g`. -/
theorem toInt_ofNat_eq_iff {j g : ℕ} (hj : j < 2147483648) : (BitVec.ofNat 32 j).toInt = (g : ℤ) ↔ j = g := by
  rw [toInt_ofNat_small hj]; exact Int.natCast_inj

end Cert.Lib.SumSplit
-- ==== Proof.RefArrLayout.lean ====
/-
  The reference's layout stages read at an index: the edge list with the self-loops appended, the index
  normalisation, and a row vector spread over the nodes.

  A concatenation of 1600000 edge entries and 100000 self-loop entries read at a position below 1600000 is the edge
  entry there, and at position 1600000 + k the k-th self-loop entry; the self-loops' words are the nodes in order,
  their weight is one.
-/
import proofs.«147712_j11338713662112_2_alg».proof.Proof.RefArr
import proofs.«147712_j11338713662112_2_alg».proof.Proof.Spec
import proofs.«147712_j11338713662112_2_alg».proof.Proof.LibSumSplit
import Idealize.ShloMosaic.Lib.Pipeline.Value
import Idealize.ShloMosaic.Lib.IdealHost

noncomputable section

namespace Cert.ReferenceIdeal.RefArr

open Idealize.ShloMosaic Idealize.ShloMosaic.ValueIdx
open Cert.ReferenceIdeal Cert.ReferenceIdeal.Facts₀

variable [Cert.ReferenceIdeal.Facts]

/-- The edges' source words. -/
abbrev row (EI : IVec S2x1600000 32) : Fin 1600000 → BitVec 32 := fun e => EI (ix2 (0 : Fin 2) e)

/-- The edges' target words. -/
abbrev col (EI : IVec S2x1600000 32) : Fin 1600000 → BitVec 32 := fun e => EI (ix2 (1 : Fin 2) e)

/-- The position of edge e in the extended list. -/
abbrev posE (e : Fin 1600000) : Fin 1700000 := Fin.cast (by norm_num : 1600000 + 100000 = 1700000) (Fin.castAdd 100000 e)

/-- The position of node k's self-loop in the extended list. -/
abbrev posT (k : Fin 100000) : Fin 1700000 := Fin.cast (by norm_num : 1600000 + 100000 = 1700000) (Fin.natAdd 1600000 k)

/-! ## A two-piece concatenation of flat arrays -/

section Concat
variable {α : Type} (a : S1600000.Idx → α) (b : S100000.Idx → α)

theorem concat_edge (e : Fin 1600000) :
    concatenate S1700000 0 [⟨S1600000, a⟩, ⟨S100000, b⟩] concatenates_S1600000_S100000_S1700000_d0 (ix1 (posE e))
      = a (ix1 e) := by
  refine concatenate_pair_apply_left (0 : Fin 1) a b _ (ix1 (posE e)) rfl (ix1 e) fun c => ?_
  match c with
  | ⟨0, _⟩ => rfl

theorem concat_tail (k : Fin 100000) :
    concatenate S1700000 0 [⟨S1600000, a⟩, ⟨S100000, b⟩] concatenates_S1600000_S100000_S1700000_d0 (ix1 (posT k))
      = b (ix1 k) := by
  refine concatenate_pair_apply_right (0 : Fin 1) a b _ (ix1 (posT k)) rfl rfl (ix1 k) (fun c hc => ?_) ?_
  · match c with
    | ⟨0, _⟩ => exact absurd rfl hc
  · show k.val + 1600000 = 1600000 + k.val
    omega

end Concat

/-! ## The extended edge list -/

/-- Row r of the edge index, flattened, at e. -/
theorem slice_row_apply (EI : IVec S2x1600000 32) (r : Fin 2) (h : S2x1600000.Slices ![r.val, 0] S1x1600000) (e : Fin 1600000) :
    shapeCast S1600000 (extractStridedSlice S1x1600000 ![r.val, 0] EI h) shapeCasts_S1x1600000_S1600000 (ix1 e)
      = EI (ix2 r e) := by
  refine (shapeCast_apply _ _ (ix1 e) (ix2 (0 : Fin 1) e) ?_).trans ?_
  · rw [Shape.rowMajor_val_two, Shape.rowMajor_val_one]
    show 0 * 1600000 + e.val = e.val
    omega
  · refine extractStridedSlice_apply _ EI h _ (ix2 r e) fun c => ?_
    match c with
    | ⟨0, _⟩ => show r.val = r.val + 0; omega
    | ⟨1, _⟩ => show e.val = 0 + e.val; omega

theorem rowF_edge (EI : IVec S2x1600000 32) (e : Fin 1600000) : rowF EI (ix1 (posE e)) = row EI e :=
  (concat_edge _ _ e).trans (slice_row_apply EI 0 _ e)

theorem colF_edge (EI : IVec S2x1600000 32) (e : Fin 1600000) : colF EI (ix1 (posE e)) = col EI e :=
  (concat_edge _ _ e).trans (slice_row_apply EI 1 _ e)

theorem rowF_tail (EI : IVec S2x1600000 32) (k : Fin 100000) : rowF EI (ix1 (posT k)) = BitVec.ofNat 32 k.val :=
  concat_tail _ _ k

theorem colF_tail (EI : IVec S2x1600000 32) (k : Fin 100000) : colF EI (ix1 (posT k)) = BitVec.ofNat 32 k.val :=
  concat_tail _ _ k

theorem wF_edge (Wt : FVec Ideal S1600000 .f32) (e : Fin 1600000) : wF Wt (ix1 (posE e)) = Wt (ix1 e) :=
  concat_edge _ _ e

theorem wF_tail (Wt : FVec Ideal S1600000 .f32) (k : Fin 100000) : wF Wt (ix1 (posT k)) = 1 :=
  (concat_tail _ _ k).trans Cert.GcnBn.one_f32

/-! ## The index normalisation -/

/-- The normalised index column at n is the specification's normalisation of the n-th word. -/
theorem nidxA_apply (v : IVec S1700000 32) (n : Fin 1700000) : nidxA v (ix2 n (0 : Fin 1)) = Cert.GcnBn.nidx (v (ix1 n)) := by
  unfold nidxA
  refine (broadcastInDim_apply _ _ _ (ix2 n (0 : Fin 1)) (ix1 n) fun c => ?_).trans rfl
  match c with
  | ⟨0, _⟩ => rfl

/-- The index column of an array of words at n is the n-th word. -/
theorem column_apply {α : Type} (v : S1700000.Idx → α) (n : Fin 1700000) :
    broadcastInDim S1700000x1 ![0] bcast_S1700000_S1700000x1_0 v (ix2 n (0 : Fin 1)) = v (ix1 n) := by
  refine broadcastInDim_apply _ _ _ (ix2 n (0 : Fin 1)) (ix1 n) fun c => ?_
  match c with
  | ⟨0, _⟩ => rfl

/-- A node's own word names the node for an indexed read: it is not negative, so the normalisation leaves it, and its
    signed value is the node. -/
theorem src_ofNat (k : Fin 100000) : Cert.GcnBn.src (BitVec.ofNat 32 k.val) = k := by
  have hk : k.val < 2147483648 := by have := k.isLt; omega
  have h0 : Cert.GcnBn.nidx (BitVec.ofNat 32 k.val) = BitVec.ofNat 32 k.val := by
    unfold Cert.GcnBn.nidx IntOp.cmpi
    have hs : (BitVec.ofNat 32 k.val).slt 0#32 = false := by
      rw [BitVec.slt_eq_decide, Cert.Lib.SumSplit.toInt_ofNat_small hk]
      simp
    simp only [hs]
    exact select_zero _ _
  unfold Cert.GcnBn.src
  rw [h0]
  exact Cert.RowIndex.clampRow_of_eq _ _ k (Cert.Lib.SumSplit.toInt_ofNat_small hk)

/-! ## A row vector spread over the nodes -/

theorem spread_apply (v : FVec Ideal S128 .f32) (i : Fin 100000) (j : Fin 128) : spread v (ix2 i j) = v (ix1 j) := by
  unfold spread
  refine (broadcastInDim_apply _ _ _ (ix2 i j) (ix2 (0 : Fin 1) j) fun c => ?_).trans
    (broadcastInDim_apply _ _ _ (ix2 (0 : Fin 1) j) (ix1 j) fun c => ?_)
  · match c with
    | ⟨0, _⟩ => rfl
    | ⟨1, _⟩ => rfl
  · match c with
    | ⟨0, _⟩ => rfl

end Cert.ReferenceIdeal.RefArr

end
-- ==== Proof.RefArrNorm.lean ====
/-
  The reference's normalisation stages read at an index: the column mean, the column variance (the mean of the
  squared deviations: the count is the node count less zero, which is positive, so the guarded quotient is taken),
  and the normalised, scaled, shifted and rectified result.
-/
import proofs.«147712_j11338713662112_2_alg».proof.Proof.RefArrLayout
import Idealize.ShloMosaic.PureOps.Ideal.Laws

noncomputable section

open scoped BigOperators

namespace Cert.ReferenceIdeal.RefArr

open Idealize.ShloMosaic Idealize.ShloMosaic.ValueIdx
open Cert.ReferenceIdeal Cert.ReferenceIdeal.Facts₀

variable [Cert.ReferenceIdeal.Facts]

/-- A one-row array spread over the nodes reads its row. -/
theorem rowSpread_apply (y : FVec Ideal S1x128 .f32) (i : Fin 100000) (j : Fin 128) :
    broadcastInDim S100000x128 ![0, 1] bcast_S1x128_S100000x128_0_1 y (ix2 i j) = y (ix2 (0 : Fin 1) j) := by
  refine broadcastInDim_apply _ _ _ (ix2 i j) (ix2 (0 : Fin 1) j) fun c => ?_
  match c with
  | ⟨0, _⟩ => rfl
  | ⟨1, _⟩ => rfl

/-- A vector as a one-row array. -/
theorem asRow_apply (v : FVec Ideal S128 .f32) (j : Fin 128) :
    broadcastInDim S1x128 ![1] bcast_S128_S1x128_1 v (ix2 (0 : Fin 1) j) = v (ix1 j) := by
  refine broadcastInDim_apply _ _ _ (ix2 (0 : Fin 1) j) (ix1 j) fun c => ?_
  match c with
  | ⟨0, _⟩ => rfl

/-- The column sum from the zero initial value. -/
theorem colSum_apply (a : FVec Ideal S100000x128 .f32) (j : Fin 128) :
    Host.reduceAdd (F := Ideal) a (constant (F := Ideal) S_ .f32 0x00000000#32) reducesTo_S100000x128_S128_d0 h_S_ (ix1 j)
      = ∑ i : Fin 100000, a (ix2 i j) := by
  have hR : S100000x128.Reduces [0] S128 := by decide
  rw [hostReduceAdd_apply, Ideal.hostReduceAdd_single reducesTo_S100000x128_S128_d0 hR, constant_apply,
    Ideal.ofBits_zero_f32, zero_add]
  show ∑ i : Fin 100000, a (hR.lift (ix1 j) i) = _
  refine Finset.sum_congr rfl fun i _ => congrArg a ?_
  funext c
  refine Fin.ext ?_
  match c with
  | ⟨0, _⟩ => rfl
  | ⟨1, _⟩ => rfl

theorem meanA_apply (a : FVec Ideal S100000x128 .f32) (j : Fin 128) :
    meanA a (ix1 j) = Cert.GcnBn.mean (fun i j => a (ix2 i j)) j := by
  unfold meanA Cert.GcnBn.mean Cert.GcnBn.nF
  rw [hostDivf_apply, colSum_apply, broadcastInDim_scalar_apply, constant_apply, Cert.GcnBn.n_f32]

/-- The variance's count is the node count. -/
theorem varCount_eq (k : S_.Idx) : varCount k = ((100000 : ℝ) : EReal) := by
  show Ideal.ofBits .f32 0x47C35000#32 - (((0#32 : BitVec 32).toInt : ℝ) : EReal) = _
  rw [Cert.GcnBn.n_f32]
  simp

theorem sqDevA_apply (a : FVec Ideal S100000x128 .f32) (i : Fin 100000) (j : Fin 128) :
    sqDevA a (ix2 i j)
      = (a (ix2 i j) - Cert.GcnBn.mean (fun i j => a (ix2 i j)) j) * (a (ix2 i j) - Cert.GcnBn.mean (fun i j => a (ix2 i j)) j) := by
  have hm : broadcastInDim S100000x128 ![0, 1] bcast_S1x128_S100000x128_0_1
        (Host.divf
          (broadcastInDim S1x128 ![1] bcast_S128_S1x128_1
            (Host.reduceAdd (F := Ideal) a (constant (F := Ideal) S_ .f32 0x00000000#32)
              reducesTo_S100000x128_S128_d0 h_S_))
          (broadcastInDim S1x128 ![] bcast_S_S1x128 (constant (F := Ideal) S_ .f32 0x47C35000#32))) (ix2 i j)
      = Cert.GcnBn.mean (fun i j => a (ix2 i j)) j := by
    unfold Cert.GcnBn.mean Cert.GcnBn.nF
    rw [rowSpread_apply, hostDivf_apply, asRow_apply, colSum_apply, broadcastInDim_scalar_apply, constant_apply,
      Cert.GcnBn.n_f32]
  unfold sqDevA
  rw [mulf_apply, subf_apply, hm]

theorem varA_apply (a : FVec Ideal S100000x128 .f32) (j : Fin 128) :
    varA a (ix1 j) = Cert.GcnBn.varR (fun i j => a (ix2 i j)) j := by
  have hpos : (0 : EReal) < ((100000 : ℝ) : EReal) := by exact_mod_cast (by norm_num : (0 : ℝ) < 100000)
  have hc : FloatOps.cmpf (F := Ideal) (φ := .f32) .ogt ((100000 : ℝ) : EReal) (0 : EReal) = 1#1 := by
    show BitVec.ofBool (decide ((0 : EReal) < ((100000 : ℝ) : EReal))) = 1#1
    rw [decide_eq_true hpos]
    rfl
  unfold varA Cert.GcnBn.varR Cert.GcnBn.nF
  rw [select_apply]
  rw [broadcastInDim_scalar_apply]
  rw [cmpf_apply]
  rw [varCount_eq]
  rw [constant_apply]
  rw [Ideal.ofBits_zero_f32]
  rw [hc]
  rw [select_one]
  rw [hostDivf_apply]
  rw [colSum_apply]
  rw [broadcastInDim_scalar_apply]
  rw [varCount_eq]
  exact congrArg (fun s => Ideal.div s ((100000 : ℝ) : EReal)) (Finset.sum_congr rfl fun i _ => sqDevA_apply a i j)

theorem outA_apply (a : FVec Ideal S100000x128 .f32) (m v G B : FVec Ideal S128 .f32) (i : Fin 100000) (j : Fin 128) :
    outA a m v G B (ix2 i j)
      = max ((a (ix2 i j) - m (ix1 j)) * Ideal.rsqrt (v (ix1 j) + Cert.GcnBn.eps) * G (ix1 j) + B (ix1 j)) 0 := by
  unfold outA
  rw [maximumf_apply, addf_apply, mulf_apply, mulf_apply, subf_apply, spread_apply, spread_apply, spread_apply,
    spread_apply, broadcastInDim_scalar_apply, constant_apply, Ideal.ofBits_zero_f32]
  show max ((a (ix2 i j) - m (ix1 j)) * Ideal.rsqrt (v (ix1 j) + Ideal.ofBits .f32 0x3727C5AC#32) * G (ix1 j) + B (ix1 j)) 0 = _
  rfl

end Cert.ReferenceIdeal.RefArr

end
-- ==== Proof.LibFlatGather.lean ====
/-
  A gather of scalars indexed by data, read at an index.

  `x[idx]` over an `[R]` table of scalars (one index per result entry, carried as an `[N, 1]` array of words) reads the
  table at `min (toNat idx) (R - 1)`: the word read signed and CLAMPED into `[0, R - 1]` — the same row `clampRow` names
  for the gather of whole rows.
-/
import proofs.«147712_j11338713662112_2_alg».proof.Proof.LibRowIndex

noncomputable section

namespace Cert.RowIndex

open Idealize.ShloMosaic Idealize.ShloMosaic.ValueIdx

/-- A gather of scalars from an `[R]` table, the entry named by an `[N, 1]` array of words. -/
abbrev flatGather (R N : Nat) (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

variable {R N w : Nat}

/-- THE FLAT GATHER READ AT `n`: the table at entry `clampRow` of the `n`-th index word. -/
theorem flatGather_apply {α : Type} (hR : 0 < R)
    (wf : GatherDims.WF ⟨1, ![R]⟩ ⟨2, ![N, 1]⟩ ⟨1, ![N]⟩ [] [0] [] [0] [] 1 ![1])
    (x : (⟨1, ![R]⟩ : Shape).Idx → α) (idx : IVec ⟨2, ![N, 1]⟩ w) (n : Fin N) :
    Host.gather (flatGather R N wf) x idx (ix1 n) = x (ix1 (clampRow R hR (idx (ix2 n (0 : Fin 1))))) := by
  unfold Host.gather
  congr 1
  funext a
  refine Fin.ext ?_
  match a with
  | ⟨0, _⟩ =>
    show (flatGather R N wf).start (ix1 n) idx 0 + (flatGather R N wf).batchCoord (ix1 n) 0
      + (flatGather R N wf).offCoord (ix1 n) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGather R N wf).startIndexMap from List.mem_singleton.mpr rfl)]
    have hsi : (flatGather R N wf).siIdx (ix1 n) ⟨List.idxOf (0 : Fin 1) (flatGather R N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

end Cert.RowIndex

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.RefArrGraph.lean ====
/-
  The reference's graph stages read at an index: the degree, its inverse square root, the normalised weights, the
  linear map and the aggregate.

  A scatter-add onto the zero table read at node i is the sum of the updates whose target word is i. Over the extended
  list that sum is the sum over the edges into i plus the self-loops' part, and among the self-loops' words — the nodes
  in order — exactly the i-th names i: the degree gains the weight one, the aggregate the node's own message.
-/
import proofs.«147712_j11338713662112_2_alg».proof.Proof.RefArrLayout
import proofs.«147712_j11338713662112_2_alg».proof.Proof.LibRowIndex
import proofs.«147712_j11338713662112_2_alg».proof.Proof.LibFlatGather
import proofs.«147712_j11338713662112_2_alg».proof.Proof.LibSumSplit
import proofs.«147712_j11338713662112_2_alg».proof.Proof.LibPlainDot

noncomputable section

open scoped BigOperators

namespace Cert.ReferenceIdeal.RefArr

open Idealize.ShloMosaic Idealize.ShloMosaic.ValueIdx
open Cert.ReferenceIdeal Cert.ReferenceIdeal.Facts₀
open Cert.Lib.SumSplit

variable [Cert.ReferenceIdeal.Facts]

/-- Among the self-loops' words exactly the i-th names node i. -/
theorem tail_word_iff (k i : Fin 100000) : (BitVec.ofNat 32 k.val).toInt = (i.val : ℤ) ↔ k = i :=
  (toInt_ofNat_eq_iff (by have := k.isLt; omega)).trans Fin.val_inj

/-- A filtered sum over the extended list: the edges' part, then the self-loops'. -/
theorem split17 (p : Fin 1700000 → Prop) [DecidablePred p] (f : Fin 1700000 → EReal) :
    ∑ n ∈ Finset.univ.filter p, f n
      = ∑ e ∈ (Finset.univ : Finset (Fin 1600000)).filter (fun e => p (posE e)), f (posE e)
        + ∑ k ∈ (Finset.univ : Finset (Fin 100000)).filter (fun k => p (posT k)), f (posT k) :=
  sum_filter_split (by norm_num : 1600000 + 100000 = 1700000) p f

/-! ## The degree -/

/-- The degree stage at node i: the weights whose target word is i, summed. -/
theorem degA_sum (cf : IVec S1700000 32) (wf : FVec Ideal S1700000 .f32) (i : Fin 100000) :
    degA cf wf (ix1 i)
      = ∑ n ∈ Finset.univ.filter (fun n : Fin 1700000 => (cf (ix1 n)).toInt = (i.val : ℤ)), wf (ix1 n) := by
  have hwf : ScatterDims.WF (⟨1, ![100000]⟩ : Shape) ⟨2, ![1700000, 1]⟩ ⟨1, ![1700000]⟩ [] [0] [0] 1 :=
    scatter_S100000_S1700000x1_S1700000_n_0_0_1.wf
  have hrec : scatter_S100000_S1700000x1_S1700000_n_0_0_1 = Cert.RowIndex.flatScatter 100000 1700000 hwf := rfl
  unfold degA
  rw [hrec, Cert.RowIndex.flatScatterAdd_apply, broadcastInDim_scalar_apply, constant_apply, Ideal.ofBits_zero_f32,
    zero_add]
  exact Finset.sum_congr (Finset.filter_congr fun n _ => by rw [column_apply]) fun _ _ => rfl

theorem deg_apply (EI : IVec S2x1600000 32) (Wt : FVec Ideal S1600000 .f32) (i : Fin 100000) :
    degA (colF EI) (wF Wt) (ix1 i) = Cert.GcnBn.deg (col EI) (fun e => Wt (ix1 e)) i := by
  rw [degA_sum, split17]
  unfold Cert.GcnBn.deg Cert.GcnBn.into
  refine congrArg₂ (· + ·) ?_ ?_
  · exact Finset.sum_congr (Finset.filter_congr fun e _ => by rw [colF_edge]) fun e _ => wF_edge Wt e
  · refine (sum_filter_unique _ i (fun k => ?_) _).trans (wF_tail Wt i)
    rw [colF_tail]
    exact tail_word_iff k i

/-! ## Its inverse square root -/

theorem disA_apply (d : FVec Ideal S100000 .f32) (i : Fin 100000) :
    disA d (ix1 i) = if 0 < d (ix1 i) then Ideal.rsqrt (d (ix1 i)) else 0 := by
  show Scalar.select (Ideal.cmp .ogt (d (ix1 i)) (Ideal.ofBits .f32 0x00000000#32))
      (Ideal.rsqrt (Scalar.select (Ideal.cmp .ogt (d (ix1 i)) (Ideal.ofBits .f32 0x00000000#32)) (d (ix1 i))
        (Ideal.ofBits .f32 0x3F800000#32)))
      (Ideal.ofBits .f32 0x00000000#32) = _
  rw [Ideal.ofBits_zero_f32]
  by_cases h : 0 < d (ix1 i)
  · have hc : Ideal.cmp .ogt (d (ix1 i)) 0 = 1#1 := by
      show BitVec.ofBool (decide (0 < d (ix1 i))) = 1#1
      rw [decide_eq_true h]; rfl
    rw [hc, select_one, select_one, if_pos h]
  · have hc : Ideal.cmp .ogt (d (ix1 i)) 0 = 0#1 := by
      show BitVec.ofBool (decide (0 < d (ix1 i))) = 0#1
      rw [decide_eq_false h]; rfl
    rw [hc, select_zero, if_neg h]

theorem dis_apply (EI : IVec S2x1600000 32) (Wt : FVec Ideal S1600000 .f32) (i : Fin 100000) :
    disA (degA (colF EI) (wF Wt)) (ix1 i) = Cert.GcnBn.dis (col EI) (fun e => Wt (ix1 e)) i := by
  rw [disA_apply, deg_apply]
  rfl

/-! ## The normalised weights -/

theorem nrmA_apply (dis : FVec Ideal S100000 .f32) (rf cf : IVec S1700000 32) (wf : FVec Ideal S1700000 .f32)
    (n : Fin 1700000) :
    nrmA dis rf cf wf (ix1 n)
      = dis (ix1 (Cert.GcnBn.src (rf (ix1 n)))) * wf (ix1 n) * dis (ix1 (Cert.GcnBn.src (cf (ix1 n)))) := by
  have hwf : GatherDims.WF (⟨1, ![100000]⟩ : Shape) ⟨2, ![1700000, 1]⟩ ⟨1, ![1700000]⟩ [] [0] [] [0] [] 1 ![1] :=
    gather_S100000_S1700000x1_S1700000_n_0_n_n_0_1_1.wf
  have hrec : gather_S100000_S1700000x1_S1700000_n_0_n_n_0_1_1 = Cert.RowIndex.flatGather 100000 1700000 hwf := rfl
  unfold nrmA
  rw [mulf_apply, mulf_apply, hrec, Cert.RowIndex.flatGather_apply (by decide : 0 < 100000),
    Cert.RowIndex.flatGather_apply (by decide : 0 < 100000), nidxA_apply, nidxA_apply]
  rfl

theorem nrm_edge (EI : IVec S2x1600000 32) (Wt : FVec Ideal S1600000 .f32) (e : Fin 1600000) :
    nrmA (disA (degA (colF EI) (wF Wt))) (rowF EI) (colF EI) (wF Wt) (ix1 (posE e))
      = Cert.GcnBn.nrm (row EI) (col EI) (fun e => Wt (ix1 e)) e := by
  rw [nrmA_apply, rowF_edge, colF_edge, wF_edge, dis_apply, dis_apply]
  rfl

theorem nrm_tail (EI : IVec S2x1600000 32) (Wt : FVec Ideal S1600000 .f32) (k : Fin 100000) :
    nrmA (disA (degA (colF EI) (wF Wt))) (rowF EI) (colF EI) (wF Wt) (ix1 (posT k))
      = Cert.GcnBn.dis (col EI) (fun e => Wt (ix1 e)) k * 1 * Cert.GcnBn.dis (col EI) (fun e => Wt (ix1 e)) k := by
  rw [nrmA_apply, rowF_tail, colF_tail, wF_tail, src_ofNat, dis_apply]

/-! ## The linear map -/

theorem linA_apply (X : FVec Ideal S100000x128 .f32) (Wm : FVec Ideal S128x128 .f32) (i : Fin 100000) (j : Fin 128) :
    linA X Wm (ix2 i j) = Cert.GcnBn.lin (fun i k => X (ix2 i k)) (fun k j => Wm (ix2 k j)) i j := by
  have hR : Cert.Lib.PlainDot.Reads (R := 100000) (K := 128) (C := 128)
      dot_S100000x128_S128x128_S100000x128_1_0_0_1_n_n :=
    ⟨rfl, rfl, fun _ _ => rfl, fun _ _ => rfl, fun _ _ => rfl, fun _ _ => rfl⟩
  exact Cert.Lib.PlainDot.dotGeneral_apply hR none .single X Wm i j

/-! ## The aggregate -/

/-- The aggregate stage at (i, j): the scaled source rows whose target word is i, summed. -/
theorem aggA_sum (h : FVec Ideal S100000x128 .f32) (nrm : FVec Ideal S1700000 .f32) (rf cf : IVec S1700000 32)
    (i : Fin 100000) (j : Fin 128) :
    aggA h nrm rf cf (ix2 i j)
      = ∑ n ∈ Finset.univ.filter (fun n : Fin 1700000 => (cf (ix1 n)).toInt = (i.val : ℤ)),
          h (ix2 (Cert.GcnBn.src (rf (ix1 n))) j) * nrm (ix1 n) := by
  have hswf : ScatterDims.WF (⟨2, ![100000, 128]⟩ : Shape) ⟨2, ![1700000, 1]⟩ ⟨2, ![1700000, 128]⟩ [1] [0] [0] 1 :=
    scatter_S100000x128_S1700000x1_S1700000x128_1_0_0_1.wf
  have hsrec : scatter_S100000x128_S1700000x1_S1700000x128_1_0_0_1
      = Cert.RowIndex.rowScatter 100000 128 1700000 hswf := rfl
  have hgwf : GatherDims.WF (⟨2, ![100000, 128]⟩ : Shape) ⟨2, ![1700000, 1]⟩ ⟨2, ![1700000, 128]⟩ [1] [0] [] [0] [] 1
      ![1, 128] := gather_S100000x128_S1700000x1_S1700000x128_1_0_n_n_0_1_1128.wf
  have hgrec : gather_S100000x128_S1700000x1_S1700000x128_1_0_n_n_0_1_1128
      = Cert.RowIndex.rowGather 100000 128 1700000 hgwf := rfl
  unfold aggA
  rw [hsrec, Cert.RowIndex.rowScatterAdd_apply, broadcastInDim_scalar_apply, constant_apply, Ideal.ofBits_zero_f32,
    zero_add]
  refine Finset.sum_congr (Finset.filter_congr fun n _ => by rw [column_apply]) fun n _ => ?_
  rw [mulf_apply, hgrec, Cert.RowIndex.rowGather_apply (by decide : 0 < 100000), nidxA_apply]
  refine congrArg (fun s => h (ix2 (Cert.GcnBn.src (rf (ix1 n))) j) * s) ?_
  refine (broadcastInDim_apply _ _ _ (ix2 n j) (ix2 n (0 : Fin 1)) fun c => ?_).trans (column_apply nrm n)
  match c with
  | ⟨0, _⟩ => rfl
  | ⟨1, _⟩ => rfl

theorem agg_apply (X : FVec Ideal S100000x128 .f32) (EI : IVec S2x1600000 32) (Wt : FVec Ideal S1600000 .f32)
    (Wm : FVec Ideal S128x128 .f32) (i : Fin 100000) (j : Fin 128) :
    aggA (linA X Wm) (nrmA (disA (degA (colF EI) (wF Wt))) (rowF EI) (colF EI) (wF Wt)) (rowF EI) (colF EI) (ix2 i j)
      = Cert.GcnBn.agg (row EI) (col EI) (fun e => Wt (ix1 e)) (fun i k => X (ix2 i k)) (fun k j => Wm (ix2 k j)) i j := by
  rw [aggA_sum, split17]
  unfold Cert.GcnBn.agg Cert.GcnBn.into
  refine congrArg₂ (· + ·) ?_ ?_
  · refine Finset.sum_congr (Finset.filter_congr fun e _ => by rw [colF_edge]) fun e _ => ?_
    rw [rowF_edge, nrm_edge, linA_apply]
  · refine (sum_filter_unique _ i (fun k => ?_) _).trans ?_
    · rw [colF_tail]
      exact tail_word_iff k i
    · rw [rowF_tail, src_ofNat, nrm_tail, linA_apply, mul_one]

end Cert.ReferenceIdeal.RefArr

end
-- ==== Proof.RefArrApply.lean ====
/-
  The reference's result read at an index: the composition of the stages at (i, j) is the specification's result with
  the variance spelt as the mean squared deviation, of the argument arrays read entry by entry.
-/
import proofs.«147712_j11338713662112_2_alg».proof.Proof.RefArrNorm
import proofs.«147712_j11338713662112_2_alg».proof.Proof.RefArrGraph

noncomputable section

namespace Cert.ReferenceIdeal.RefArr

open Idealize.ShloMosaic Idealize.ShloMosaic.ValueIdx
open Cert.ReferenceIdeal Cert.ReferenceIdeal.Facts₀

variable [Cert.ReferenceIdeal.Facts]

theorem refArr_apply (X : FVec Ideal S100000x128 .f32) (EI : IVec S2x1600000 32) (Wt : FVec Ideal S1600000 .f32)
    (Wm : FVec Ideal S128x128 .f32) (G B : FVec Ideal S128 .f32) (i : Fin 100000) (j : Fin 128) :
    refArr X EI Wt Wm G B (ix2 i j)
      = Cert.GcnBn.outR (row EI) (col EI) (fun e => Wt (ix1 e)) (fun i k => X (ix2 i k)) (fun k j => Wm (ix2 k j))
          (fun j => G (ix1 j)) (fun j => B (ix1 j)) i j := by
  have hA : ∀ (i : Fin 100000) (j : Fin 128),
      aggA (linA X Wm) (nrmA (disA (degA (colF EI) (wF Wt))) (rowF EI) (colF EI) (wF Wt)) (rowF EI) (colF EI) (ix2 i j)
        = Cert.GcnBn.agg (row EI) (col EI) (fun e => Wt (ix1 e)) (fun i k => X (ix2 i k)) (fun k j => Wm (ix2 k j)) i j :=
    agg_apply X EI Wt Wm
  have hF : (fun (i : Fin 100000) (j : Fin 128) =>
        aggA (linA X Wm) (nrmA (disA (degA (colF EI) (wF Wt))) (rowF EI) (colF EI) (wF Wt)) (rowF EI) (colF EI) (ix2 i j))
      = Cert.GcnBn.agg (row EI) (col EI) (fun e => Wt (ix1 e)) (fun i k => X (ix2 i k)) (fun k j => Wm (ix2 k j)) :=
    funext fun i => funext fun j => hA i j
  show outA
      (aggA (linA X Wm) (nrmA (disA (degA (colF EI) (wF Wt))) (rowF EI) (colF EI) (wF Wt)) (rowF EI) (colF EI))
      (meanA (aggA (linA X Wm) (nrmA (disA (degA (colF EI) (wF Wt))) (rowF EI) (colF EI) (wF Wt)) (rowF EI) (colF EI)))
      (varA (aggA (linA X Wm) (nrmA (disA (degA (colF EI) (wF Wt))) (rowF EI) (colF EI) (wF Wt)) (rowF EI) (colF EI)))
      G B (ix2 i j) = _
  rw [outA_apply, meanA_apply, varA_apply, hF, hA]
  rfl

end Cert.ReferenceIdeal.RefArr

end
-- ==== Proof.ArgRead.lean ====
/-
  The six argument arrays read as the layer's inputs: the two rows of the edge index as the source and target
  words, the weight vector, the feature matrix, the square weight matrix, and a feature vector (γ or β).
-/
import proofs.«147712_j11338713662112_2_alg».proof.Proof.Spec

noncomputable section

namespace Cert.GcnBn

open Idealize.ShloMosaic Idealize.ShloMosaic.ValueIdx

/-- The source words: row 0 of the edge index. -/
abbrev rowOf (EI : (⟨2, ![2, 1600000]⟩ : Shape).Idx → BitVec 32) : Fin EE → BitVec 32 := fun e => EI (ix2 (0 : Fin 2) e)
/-- The target words: row 1 of the edge index. -/
abbrev colOf (EI : (⟨2, ![2, 1600000]⟩ : Shape).Idx → BitVec 32) : Fin EE → BitVec 32 := fun e => EI (ix2 (1 : Fin 2) e)
/-- The edge weights. -/
abbrev vecOf (Wt : (⟨1, ![1600000]⟩ : Shape).Idx → EReal) : Fin EE → EReal := fun e => Wt (ix1 e)
/-- The node features. -/
abbrev matOf (X : (⟨2, ![100000, 128]⟩ : Shape).Idx → EReal) : Fin NN → Fin CC → EReal := fun i k => X (ix2 i k)
/-- The weight matrix. -/
abbrev sqOf (Wm : (⟨2, ![128, 128]⟩ : Shape).Idx → EReal) : Fin CC → Fin CC → EReal := fun k j => Wm (ix2 k j)
/-- A feature vector. -/
abbrev featOf (G : (⟨1, ![128]⟩ : Shape).Idx → EReal) : Fin CC → EReal := fun j => G (ix1 j)

end Cert.GcnBn

end
-- ==== Proof.LibVarForms.lean ====
/-
  Two spellings of a variance, over the reals.

  For real numbers r₀ … r_{N-1} and n = N ≠ 0, with m = (Σ rᵢ)/n: the mean squared deviation (Σ (rᵢ - m)²)/n equals the
  mean square less the squared mean, (Σ rᵢ²)/n - m², because Σ (rᵢ - m)² = Σ rᵢ² - 2m·Σ rᵢ + N·m² and Σ rᵢ = n·m. The left
  side is a sum of squares over a positive number, so the right side is nonnegative and clamping it at zero changes
  nothing: `max ((Σ rᵢ²)/n - m²) 0` is the same number. Divisions are written as products with 1/n, the form a division
  by a nonzero real takes on the extended reals. This joins a kernel that accumulates Σ x and Σ x² in one pass (and
  clamps the difference against cancellation) to a reference that calls a library variance.
-/
import Mathlib.Data.EReal.Operations
import Mathlib.Tactic

open scoped BigOperators

namespace Cert.Lib.VarForms

/-- The mean squared deviation is the mean square less the squared mean, clamped at zero or not. `N` is the number of
    terms and `n` the same number as a real. -/
theorem mean_sq_dev_eq_clamped {N : ℕ} (r : Fin N → ℝ) (n : ℝ) (hn : (N : ℝ) = n) (hn0 : n ≠ 0) :
    (∑ i, (r i - (∑ i, r i) * (1 / n)) * (r i - (∑ i, r i) * (1 / n))) * (1 / n)
      = max ((∑ i, r i * r i) * (1 / n) - (∑ i, r i) * (1 / n) * ((∑ i, r i) * (1 / n))) 0 := by
  set S := ∑ i, r i with hS
  set Q := ∑ i, r i * r i with hQ
  set m := S * (1 / n) with hm
  have hexp : ∑ i, (r i - m) * (r i - m) = Q - 2 * m * S + n * (m * m) := by
    have h1 : ∀ i, (r i - m) * (r i - m) = r i * r i - 2 * m * r i + m * m := fun i => by ring
    rw [Finset.sum_congr rfl fun i _ => h1 i, Finset.sum_add_distrib, Finset.sum_sub_distrib, ← Finset.mul_sum,
      Finset.sum_const, Finset.card_univ, Fintype.card_fin, nsmul_eq_mul, hn]
  have hSm : S = n * m := by rw [hm]; field_simp
  have hid : (∑ i, (r i - m) * (r i - m)) * (1 / n) = Q * (1 / n) - m * m := by
    rw [hexp, hSm]; field_simp; ring
  have hnn : 0 ≤ (∑ i, (r i - m) * (r i - m)) := Finset.sum_nonneg fun i _ => mul_self_nonneg _
  have hnpos : 0 < n := by
    rcases Nat.eq_zero_or_pos N with h0 | hp
    · exfalso; rw [h0] at hn; exact hn0 (by simpa using hn.symm)
    · rw [← hn]; exact_mod_cast hp
  have hge : 0 ≤ Q * (1 / n) - m * m := by
    rw [← hid]; exact mul_nonneg hnn (by positivity)
  rw [hid, max_eq_left hge]

end Cert.Lib.VarForms
-- ==== Proof.VarLaw.lean ====
/-
  The one law that joins the two programs: for REAL entries the column variance spelt as "mean of the squares less
  the squared mean, clamped at zero" is the column variance spelt as "mean of the squared deviations".

  Over the reals, with m = (Σ aᵢ)/N and N the number of rows, Σ (aᵢ - m)² = Σ aᵢ² - 2m·Σ aᵢ + N·m² = Σ aᵢ² - N·m²,
  so (Σ (aᵢ - m)²)/N = (Σ aᵢ²)/N - m²; the left side is a sum of squares over a positive number, hence nonnegative,
  so clamping the right side at zero changes nothing (the imported lemma on the two spellings of a variance). On the extended reals the identity fails at an infinite entry
  (∞ - ∞), which is why the aggregate's entries are first shown to be real: every input is real, a sum or product of
  reals is real, and the inverse square root of a positive real is real.
-/
import proofs.«147712_j11338713662112_2_alg».proof.Proof.Spec
import proofs.«147712_j11338713662112_2_alg».proof.Proof.LibVarForms

noncomputable section

open scoped BigOperators

namespace Cert.GcnBn

open Idealize.ShloMosaic

/-! ## Real extended reals -/

/-- An extended real that is a real number. -/
def IsReal (x : EReal) : Prop := ∃ r : ℝ, x = (r : EReal)

theorem IsReal.zero : IsReal 0 := ⟨0, EReal.coe_zero.symm⟩
theorem IsReal.one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- The inverse square root of a positive real is a real. -/
theorem isReal_rsqrt_of_pos {x : EReal} (hx : IsReal x) (hpos : 0 < x) : IsReal (Ideal.rsqrt x) := by
  obtain ⟨d, rfl⟩ := hx
  have hd : 0 < d := by exact_mod_cast hpos
  refine ⟨(Real.sqrt d)⁻¹, ?_⟩
  rw [Ideal.rsqrt_coe, if_neg (not_lt.2 hd.le), if_neg hd.ne']

/-! ## The aggregate of real inputs is real -/

section Real

variable (row col : Fin EE → BitVec 32) (w : Fin EE → EReal) (x : Fin NN → Fin CC → EReal) (W : Fin CC → Fin CC → EReal)
  (hw : ∀ e, IsReal (w e)) (hx : ∀ i k, IsReal (x i k)) (hW : ∀ k j, IsReal (W k j))

include hw in
theorem isReal_deg (i : Fin NN) : IsReal (deg col w i) :=
  (IsReal.sum _ _ fun e _ => hw e).add IsReal.one

include hw in
theorem isReal_dis (i : Fin NN) : IsReal (dis col w i) := by
  unfold dis
  split
  · rename_i h; exact isReal_rsqrt_of_pos (isReal_deg col w hw i) h
  · exact IsReal.zero

include hw in
theorem isReal_nrm (e : Fin EE) : IsReal (nrm row col w e) :=
  ((isReal_dis col w hw _).mul (hw e)).mul (isReal_dis col w hw _)

include hx hW in
theorem isReal_lin (i : Fin NN) (j : Fin CC) : IsReal (lin x W i j) :=
  IsReal.sum _ _ fun k _ => (hx i k).mul (hW k j)

include hw hx hW in
theorem isReal_agg (i : Fin NN) (j : Fin CC) : IsReal (agg row col w x W i j) :=
  (IsReal.sum _ _ fun e _ => (isReal_lin x W hx hW _ j).mul (isReal_nrm row col w hw e)).add
    ((isReal_lin x W hx hW i j).mul ((isReal_dis col w hw i).mul (isReal_dis col w hw i)))

end Real

/-! ## The variance, two ways -/

/-- For a real-valued array the two spellings of the column variance agree. -/
theorem varK_eq_varR (a : Fin NN → Fin CC → EReal) (ha : ∀ i j, IsReal (a i j)) (j : Fin CC) : varK a j = varR a j := by
  choose r hr using ha
  have hn0 : (100000 : ℝ) ≠ 0 := by norm_num
  have hS : ∑ i : Fin NN, a i j = ((∑ i : Fin NN, r i j : ℝ) : EReal) := by
    rw [coe_sum]; exact Finset.sum_congr rfl fun i _ => hr i j
  have hm : mean a j = (((∑ i : Fin NN, r i j) * (1 / 100000) : ℝ) : EReal) := by
    unfold mean nF
    rw [hS, Ideal.div_coe hn0, ← EReal.coe_mul]
  have hQ : ∑ i : Fin NN, a i j * a i j = ((∑ i : Fin NN, r i j * r i j : ℝ) : EReal) := by
    rw [coe_sum]; exact Finset.sum_congr rfl fun i _ => by rw [hr i j, EReal.coe_mul]
  have hD : ∑ i : Fin NN, (a i j - mean a j) * (a i j - mean a j)
      = ((∑ i : Fin NN, (r i j - (∑ i : Fin NN, r i j) * (1 / 100000)) * (r i j - (∑ i : Fin NN, r i j) * (1 / 100000)) : ℝ) : EReal) := by
    rw [coe_sum]
    exact Finset.sum_congr rfl fun i _ => by rw [hm, hr i j, ← EReal.coe_sub, ← EReal.coe_mul]
  unfold varK varR
  rw [hD, hQ, hm]
  unfold nF
  rw [Ideal.div_coe hn0, Ideal.div_coe hn0, ← EReal.coe_mul, ← EReal.coe_mul, ← EReal.coe_mul, ← EReal.coe_sub,
    ← EReal.coe_zero, ← EReal.coe_strictMono.monotone.map_max]
  exact congrArg _ (Cert.Lib.VarForms.mean_sq_dev_eq_clamped (fun i => r i j) 100000 (by norm_num) hn0).symm

/-- The two results agree when the edge weights and the two matrices are real. -/
theorem outK_eq_outR (row col : Fin EE → BitVec 32) (w : Fin EE → EReal) (x : Fin NN → Fin CC → EReal)
    (W : Fin CC → Fin CC → EReal) (γ β : Fin CC → EReal)
    (hw : ∀ e, IsReal (w e)) (hx : ∀ i k, IsReal (x i k)) (hW : ∀ k j, IsReal (W k j)) (i : Fin NN) (j : Fin CC) :
    outK row col w x W γ β i j = outR row col w x W γ β i j := by
  unfold outK outR bn
  rw [varK_eq_varR _ (isReal_agg row col w x W hw hx hW) j]

end Cert.GcnBn

end
-- ==== Proof.BridgeCore.lean ====
/-
  The reference's result array, entry by entry, in the kernel-side spelling of the layer: the reference spells the
  column variance as the mean of the squared deviations, the kernel as the mean of the squares less the squared mean,
  clamped at zero; for real inputs the aggregate is real and the two variances are one number, so the two results
  agree at every entry.
-/
import proofs.«147712_j11338713662112_2_alg».proof.Proof.RefArrApply
import proofs.«147712_j11338713662112_2_alg».proof.Proof.ArgRead
import proofs.«147712_j11338713662112_2_alg».proof.Proof.VarLaw

noncomputable section

namespace Cert.Bridge

open Idealize.ShloMosaic Idealize.ShloMosaic.ValueIdx Cert.GcnBn

variable [Cert.ReferenceIdeal.Facts]

/-- The reference's result array at an entry is the layer's result with the variance spelt as the clamped difference,
    when the features, the edge weights and the weight matrix are real. -/
theorem refArr_eq_outK (X : FVec Ideal Cert.ReferenceIdeal.S100000x128 .f32) (EI : IVec Cert.ReferenceIdeal.S2x1600000 32)
    (Wt : FVec Ideal Cert.ReferenceIdeal.S1600000 .f32) (Wm : FVec Ideal Cert.ReferenceIdeal.S128x128 .f32)
    (G B : FVec Ideal Cert.ReferenceIdeal.S128 .f32)
    (hX : ∀ i, IsReal (X i)) (hWt : ∀ e, IsReal (Wt e)) (hWm : ∀ i, IsReal (Wm i)) (i : Fin 100000) (j : Fin 128) :
    Cert.ReferenceIdeal.RefArr.refArr X EI Wt Wm G B (ix2 i j)
      = outK (rowOf EI) (colOf EI) (vecOf Wt) (matOf X) (sqOf Wm) (featOf G) (featOf B) i j := by
  rw [Cert.ReferenceIdeal.RefArr.refArr_apply]
  exact (outK_eq_outR (rowOf EI) (colOf EI) (vecOf Wt) (matOf X) (sqOf Wm) (featOf G) (featOf B)
    (fun e => hWt (ix1 e)) (fun i k => hX (ix2 i k)) (fun k j => hWm (ix2 k j)) i j).symm

end Cert.Bridge

end
-- ==== Proof.Finite.lean ====
/-
  What the precondition says: every entry of the feature matrix, of the edge weights and of the weight matrix is a
  real number.

  The precondition is the conjunction, over the five float arguments, of "every |entry| is below +∞", each a
  reduction by `and` of a one-bit array down to a single bit, and the claim assumes the final bit is one. A
  conjunction that is one has both conjuncts one; a reduction by `and` that is one met only ones; and an extended
  real whose absolute value is below +∞ is neither infinity, so it is a real.
-/
import proofs.«147712_j11338713662112_2_alg».proof.Pre_finite_inputs
import Idealize.ShloMosaic.Lib.ReduceAll
import Idealize.ShloMosaic.Lib.ValueIdx
import Idealize.ShloMosaic.PureOps.Ideal.Laws
import proofs.«147712_j11338713662112_2_alg».proof.Proof.VarLaw

noncomputable section

namespace Cert.Finite

open Idealize.ShloMosaic Cert.Pre_finite_inputs Cert.GcnBn

variable [Cert.Pre_finite_inputs.Facts]

instance : Subsingleton S_.Idx := ⟨fun a b => funext fun d => d.elim0⟩

/-- The word `0x7F800000` is +∞. -/
theorem inf_f32 : Ideal.ofBits .f32 0x7F800000#32 = ⊤ := by
  simp [Ideal.ofBits, Ideal.ieee]

/-- An extended real whose absolute value compares below +∞ is a real. -/
theorem isReal_of_flag (x : EReal)
    (h : FloatOps.cmpf (F := Ideal) (φ := .f32) .olt (FloatOps.hostAbsf (F := Ideal) (φ := .f32) x) (FloatOps.ofBits (F := Ideal) .f32 0x7F800000#32) = 1#1) :
    IsReal x := by
  rw [Ideal.cmpf_def, Ideal.hostAbsf_def, Ideal.absf_def, Ideal.ofBits_def, inf_f32] at h
  induction x using EReal.rec with
  | bot => exfalso; revert h; simp [Ideal.cmp]
  | coe r => exact ⟨r, rfl⟩
  | top => exfalso; revert h; simp [Ideal.cmp]

/-- Under the precondition the entries of the first, third and fourth arguments are reals. -/
theorem real_of_pre (a0 : FVec Ideal S100000x128 .f32) (a1 : IVec S2x1600000 32) (a2 : FVec Ideal S1600000 .f32)
    (a3 : FVec Ideal S128x128 .f32) (a4 a5 : FVec Ideal S128 .f32)
    (h : fn (F := Ideal) a0 a1 a2 a3 a4 a5 = fun _ => 1#1) :
    (∀ i, IsReal (a0 i)) ∧ (∀ e, IsReal (a2 e)) ∧ (∀ i, IsReal (a3 i)) := by
  have h0 := congrFun h ValueIdx.ix0
  dsimp only [fn, fn_part1, andi] at h0
  obtain ⟨h1234, -⟩ := IntOp.andi_eq_one.1 h0
  obtain ⟨h123, -⟩ := IntOp.andi_eq_one.1 h1234
  obtain ⟨h12, h3⟩ := IntOp.andi_eq_one.1 h123
  obtain ⟨h1, h2⟩ := IntOp.andi_eq_one.1 h12
  refine ⟨fun i => ?_, fun e => ?_, fun i => ?_⟩
  · exact isReal_of_flag _ (Host.reduce_andi_all _ _ _ _ _ h1 i)
  · exact isReal_of_flag _ (Host.reduce_andi_all _ _ _ _ _ h2 e)
  · exact isReal_of_flag _ (Host.reduce_andi_all _ _ _ _ _ h3 i)

end Cert.Finite

end
-- ==== Proof.RegValDefs.lean ====
/-
  Reading the kernel's buffers as arrays of extended reals: the program's array shapes, an entry of each, and the
  entry the fused second region writes — the aggregate plus the self-loop factor times the product row.
-/
import proofs.«147712_j11338713662112_2_alg».proof.Proof.Gen.KernelIdeal.Frame
import Idealize.ShloMosaic.Lib.ValueIdx
import Idealize.ShloMosaic.PureOps.Ideal

noncomputable section

namespace Cert.KernelIdeal.RegVal

open Cert.KernelIdeal Idealize.ShloMosaic Idealize.ShloMosaic.TcCoe Idealize.ShloMosaic.ValueIdx

/-- Arrays of extended reals at the program's shapes, and their entries. -/
abbrev Mat : Type := S100000x128.Idx → EReal
abbrev Sq : Type := S128x128.Idx → EReal
abbrev Row : Type := S1x128.Idx → EReal
abbrev Col : Type := S100000x1.Idx → EReal
abbrev atM (a : Mat) (i : Fin 100000) (j : Fin 128) : EReal := a (ix2 i j)
abbrev atS (a : Sq) (k j : Fin 128) : EReal := a (ix2 k j)
abbrev atR (a : Row) (j : Fin 128) : EReal := a (ix2 (0 : Fin 1) j)
abbrev atC (a : Col) (i : Fin 100000) : EReal := a (ix2 i (0 : Fin 1))

variable (V : (c : Dev nD) → (b : Ref sig .tc) → Buf (Elt Ideal) ((c : Thread nD τ).loc b))

/-- The second region's first output at an entry: the aggregate plus the self-loop factor times the product row. -/
def full (c : Dev nD) (i : Fin 100000) (j : Fin 128) : EReal :=
  atM (V c main_v48) i j + atC (V c main_v33) i * atM (V c main_v34) i j

end Cert.KernelIdeal.RegVal

end
-- ==== Proof.RegVal0.lean ====
/-
  What the first kernel region leaves in its output array, as a whole-array function of the arrays it finds at
  entry (V), entry by entry over the extended reals: the product of the two input arrays.

  The grid's point t works on rows 5000·t … 5000·t + 4999 of the left operand and on the whole right operand; the
  format changes are the identity on the extended reals, so what it stores at row p, column q of its block is the
  row-by-column sum; the twenty blocks tile the output array.
-/
import proofs.«147712_j11338713662112_2_alg».proof.Proof.RegValDefs
import proofs.«147712_j11338713662112_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

/-- The two zero offsets, however spelt. -/
theorem hz0 : (![0, 0] : Fin 2 → Nat) = fun _ => 0 := funext fun a => by fin_cases a <;> rfl

/-- How the body's dimension record reads its operands: left axis 1 against right axis 0. -/
theorem reads0 : Cert.Lib.PlainDot.Reads (R := 5000) (K := 128) (C := 128) dot_S5000x128_S128x128_S5000x128_1_0_0_1_n_n :=
  ⟨by decide, by decide, fun _ _ => rfl, fun _ _ => rfl, fun _ _ => rfl, fun _ _ => rfl⟩

/-- The body's stored value at an entry of the block: the row of the first block against the column of the second. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.Lib.PlainDot.matmul_zero_apply (φ₁ := .bf16) (φ₂ := .bf16) reads0 none
    (truncf .bf16 x0 bitsLt_bf16_f32) (truncf .bf16 x1 bitsLt_bf16_f32) p q

/-- The block indices over the grid: the row blocks of the left operand and of the output move with the point, every
    other block index is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The product array. -/
def prod0 (c : Dev nD) : Mat := fun i =>
  ∑ k : Fin 128, atM (V c main_arg0) (i 0) k * atS (V c main_arg3) k (i 1)

/-- What point t writes back is block t of the product array. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = prod0 V c (((cfg0.win 2).blk t).view.emb (ix2 p q))
  refine (pay0_apply _ _ p q).trans ?_
  unfold prod0
  refine Finset.sum_congr rfl fun k _ => ?_
  have h0 : ((cfg0.win 0).blk t).view.emb (ix2 p k)
      = ix2 (n0 := 100000) ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; rw [e0, e4]
    | ⟨1, _⟩ => show win0_0.index t (1 : Fin 2) * 128 + 1 * k.val = k.val; rw [e1]; omega
  have h1 : ((cfg0.win 1).blk t).view.emb (ix2 k q)
      = ix2 (n1 := 128) k ((((cfg0.win 2).blk t).view.emb (ix2 p q)) 1) := by
    funext a; apply Fin.ext
    match a with
    | ⟨0, _⟩ => show win0_1.index t (0 : Fin 2) * 128 + 1 * k.val = k.val; rw [e2]; omega
    | ⟨1, _⟩ => show win0_1.index t (1 : Fin 2) * 128 + 1 * q.val = win0_2.index t (1 : Fin 2) * 128 + 1 * q.val; rw [e3, e5]
  have hA : (iblk0 V c 0 t (ix2 p k) : EReal)
      = atM (V c main_arg0) ((((cfg0.win 2).blk t).view.emb (ix2 p q)) 0) k := congrArg (show Mat from V c main_arg0) h0
  have hB : (iblk0 V c 1 t (ix2 k q) : EReal)
      = atS (V c main_arg3) k ((((cfg0.win 2).blk t).view.emb (ix2 p q)) 1) := congrArg (show Sq from V c main_arg3) h1
  exact congrArg₂ (fun a b : EReal => a * b) hA hB

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every entry of the output array is in some point's block: row r is in the block of point r / 5000. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  have ht : (i 0).val / 5000 < cfg0.N := by rw [hN]; omega
  obtain ⟨-, -, -, -, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the region is the product array. -/
theorem final0 (c : Dev nD) : (dat0 (F := Ideal) V c).arrAt 2 cfg0.N = prod0 V c :=
  (dat0 (F := Ideal) V c).arrAt_eq_of_cover 2 (prod0 V c) (fun t _ => flushed0_eq V c t) cover0

/-- Region 0: the output array is the product of the two input arrays. -/
theorem reg0 (c : Dev nD) (i : Fin 100000) (j : Fin 128) :
    atM ((dat0 (F := Ideal) V c).arrAt 2 cfg0.N) i j
      = ∑ k : Fin 128, atM (V c main_arg0) i k * atS (V c main_arg3) k j :=
  congrFun (final0 V c) (ix2 i j)

end Cert.KernelIdeal.RegVal

end
-- ==== Proof.Reg1Pieces.lean ====
/-
  What each case of the second kernel's body leaves in its three output blocks, as the body's arithmetic applied to the
  input blocks (and, for the two running column accumulators, to what they held before): the stores' rectangles are the
  whole blocks, so the last store's payload is the block.
-/
import proofs.«147712_j11338713662112_2_alg».proof.Proof.Gen.KernelIdeal.Frame
import Idealize.ShloMosaic.Lib.ValueIdx
import Idealize.ShloMosaic.Lib.Pipeline.Value
import Idealize.ShloMosaic.Lib.Tactic
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

variable {F : FTy → Type} [FloatOps F]

theorem r1_hz : (![0, 0] : Fin 2 → Nat) = fun _ => 0 := funext fun a => by fin_cases a <;> rfl

/-- Whatever the point, the first output's block is the aggregate block plus the factor column times the product block. -/
theorem r1_out_A_3 (c : Dev nD) (i : grid1.Coords) (a1 : Memref sig .tc .vmem S5000x128 .f32) (h1 : a1.IsWhole) (a2 : Memref sig .tc .vmem S5000x128 .bf16) (h2 : a2.IsWhole) (a3 : Memref sig .tc .vmem S5000x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x128 .bf16) (x2 : Vec F S5000x1 .f32) :
    out1_A_3 c i a1 h1 a2 h2 a3 h3 a4 h4 a5 h5 a6 h6 hc x0 x1 x2 = k1_pay3 x1 x0 x2 := by
  unfold out1_A_3
  rw [View.read_writes_eq_canon _ _ _ (cover1_A_3 c i a1 h1 a2 h2 a3 h3 a4 h4 a5 h5 a6 h6 hc x0 x1 x2)]
  unfold kernelRun1_A
  dsimp only
  rw [View.canon_unit_zero r1_hz]
  simp only [View.readAt_eq_ld, h1.read_unread, h2.read_unread, h3.read_unread, View.ld_unit_zero (S := S5000x128) r1_hz, View.ld_unit_zero (S := S5000x1) r1_hz]

theorem r1_out_B_3 (c : Dev nD) (i : grid1.Coords) (a1 : Memref sig .tc .vmem S5000x128 .f32) (h1 : a1.IsWhole) (a2 : Memref sig .tc .vmem S5000x128 .bf16) (h2 : a2.IsWhole) (a3 : Memref sig .tc .vmem S5000x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x128 .bf16) (x2 : Vec F S5000x1 .f32) (xo4 xo5 : Vec F S1x128 .f32) :
    out1_B_3 c i a1 h1 a2 h2 a3 h3 a4 h4 a5 h5 a6 h6 hc x0 x1 x2 xo4 xo5 = k1_pay3 x1 x0 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  rw [View.canon_unit_zero r1_hz]
  simp only [View.readAt_eq_ld, h1.read_unread, h2.read_unread, h3.read_unread, View.ld_unit_zero (S := S5000x128) r1_hz, View.ld_unit_zero (S := S5000x1) r1_hz]

/-- At the first point the column-sum accumulator is zeroed, read back, and the block's column sums added. -/
theorem r1_out_A_4 (c : Dev nD) (i : grid1.Coords) (a1 : Memref sig .tc .vmem S5000x128 .f32) (h1 : a1.IsWhole) (a2 : Memref sig .tc .vmem S5000x128 .bf16) (h2 : a2.IsWhole) (a3 : Memref sig .tc .vmem S5000x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x128 .bf16) (x2 : Vec F S5000x1 .f32) :
    out1_A_4 c i a1 h1 a2 h2 a3 h3 a4 h4 a5 h5 a6 h6 hc x0 x1 x2 = k1_pay4 x1 x0 x2 (k1_pay1 (F := F)) := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) r1_hz, View.readCov_unit_zero (S := S1x128) _ r1_hz]
  simp only [View.readAt_eq_ld, h1.read_unread, h2.read_unread, h3.read_unread, View.ld_unit_zero (S := S5000x128) r1_hz, View.ld_unit_zero (S := S5000x1) r1_hz]

/-- At a later point the block's column sums are added to what the accumulator held. -/
theorem r1_out_B_4 (c : Dev nD) (i : grid1.Coords) (a1 : Memref sig .tc .vmem S5000x128 .f32) (h1 : a1.IsWhole) (a2 : Memref sig .tc .vmem S5000x128 .bf16) (h2 : a2.IsWhole) (a3 : Memref sig .tc .vmem S5000x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x128 .bf16) (x2 : Vec F S5000x1 .f32) (xo4 xo5 : Vec F S1x128 .f32) :
    out1_B_4 c i a1 h1 a2 h2 a3 h3 a4 h4 a5 h5 a6 h6 hc x0 x1 x2 xo4 xo5 = k1_pay4 x1 x0 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  rw [View.canon_unit_zero r1_hz]
  simp only [View.readAt_eq_ld, h1.read_unread, h2.read_unread, h3.read_unread, h5.read_unread, View.ld_unit_zero (S := S5000x128) r1_hz, View.ld_unit_zero (S := S5000x1) r1_hz, View.ld_unit_zero (S := S1x128) r1_hz]

/-- The same for the accumulator of the column sums of squares. -/
theorem r1_out_A_5 (c : Dev nD) (i : grid1.Coords) (a1 : Memref sig .tc .vmem S5000x128 .f32) (h1 : a1.IsWhole) (a2 : Memref sig .tc .vmem S5000x128 .bf16) (h2 : a2.IsWhole) (a3 : Memref sig .tc .vmem S5000x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x128 .bf16) (x2 : Vec F S5000x1 .f32) :
    out1_A_5 c i a1 h1 a2 h2 a3 h3 a4 h4 a5 h5 a6 h6 hc x0 x1 x2 = k1_pay5 x1 x0 x2 (k1_pay2 (F := F)) := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) r1_hz, View.readCov_unit_zero (S := S1x128) _ r1_hz]
  simp only [View.readAt_eq_ld, h1.read_unread, h2.read_unread, h3.read_unread, View.ld_unit_zero (S := S5000x128) r1_hz, View.ld_unit_zero (S := S5000x1) r1_hz]

theorem r1_out_B_5 (c : Dev nD) (i : grid1.Coords) (a1 : Memref sig .tc .vmem S5000x128 .f32) (h1 : a1.IsWhole) (a2 : Memref sig .tc .vmem S5000x128 .bf16) (h2 : a2.IsWhole) (a3 : Memref sig .tc .vmem S5000x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x128 .bf16) (x2 : Vec F S5000x1 .f32) (xo4 xo5 : Vec F S1x128 .f32) :
    out1_B_5 c i a1 h1 a2 h2 a3 h3 a4 h4 a5 h5 a6 h6 hc x0 x1 x2 xo4 xo5 = k1_pay5 x1 x0 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  rw [View.canon_unit_zero r1_hz]
  simp only [View.readAt_eq_ld, h1.read_unread, h2.read_unread, h3.read_unread, h6.read_unread, View.ld_unit_zero (S := S5000x128) r1_hz, View.ld_unit_zero (S := S5000x1) r1_hz, View.ld_unit_zero (S := S1x128) r1_hz]

end Cert.KernelIdeal.RegVal
end
-- ==== Proof.Reg1Pay.lean ====
/-
  The second kernel's arithmetic read entry by entry over the extended reals: the first output's block, and the two
  running column accumulators, at a row and a column of the block.
-/
import proofs.«147712_j11338713662112_2_alg».proof.Proof.Gen.KernelIdeal.Frame
import Idealize.ShloMosaic.Lib.ValueIdx
import Idealize.ShloMosaic.Lib.Pipeline.Value
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

/-- The first output's block at a row and a column: the aggregate entry plus the row's factor times the product entry
    (the widening of the product's format is the identity over the extended reals). -/
theorem r1_pay3_apply (v3 : Vec Ideal S5000x128 .bf16) (v6 : Vec Ideal S5000x128 .f32) (v8 : Vec Ideal S5000x1 .f32)
    (p : Fin 5000) (q : Fin 128) :
    k1_pay3 (F := Ideal) v3 v6 v8 (ix2 p q) = v6 (ix2 p q) + v8 (ix2 p (0 : Fin 1)) * v3 (ix2 p q) := by
  unfold k1_pay3
  simp only [shapeCast_self]
  show v6 (ix2 p q) + broadcastTo S5000x128 v8 broadcasts_S5000x1_S5000x128 (ix2 p q) * v3 (ix2 p q) = _
  refine congrArg (fun z => v6 (ix2 p q) + z * v3 (ix2 p q)) ?_
  exact broadcastTo_apply v8 _ (ix2 p q) (ix2 p (0 : Fin 1)) (fun a => by match a with | ⟨0, _⟩ => rfl | ⟨1, _⟩ => rfl)

/-- A block's column sums, stored as a one-row block, at a column: the sum down the block's rows. -/
theorem r1_colsum_apply (w : Vec Ideal S5000x128 .f32) (q : Fin 128) :
    shapeCast S1x128 (multiReduction (F := Ideal) .add [0] S128 w 0x00000000#32 reduces_S5000x128_S128 (.inl rfl) rfl)
      shapeCasts_S128_S1x128 (ix2 (0 : Fin 1) q) = ∑ k : Fin 5000, w (ix2 k q) := by
  refine (shapeCast_addUnit_apply ![128] _ shapeCasts_S128_S1x128 (ix2 (0 : Fin 1) q)).trans ?_
  refine (Ideal.multiReduction_add_single w 0x00000000#32 reduces_S5000x128_S128 (.inl rfl) rfl _).trans ?_
  show ∑ k : Fin 5000, w (reduces_S5000x128_S128.lift _ k) = _
  refine Finset.sum_congr rfl fun k _ => congrArg w (funext fun a => Fin.ext ?_)
  match a with
  | ⟨0, _⟩ => rfl
  | ⟨1, _⟩ => rfl

/-- The column-sum accumulator after a point, at a column: what it held plus the sum down the block's rows. -/
theorem r1_pay4_apply (v3 : Vec Ideal S5000x128 .bf16) (v6 : Vec Ideal S5000x128 .f32) (v8 : Vec Ideal S5000x1 .f32)
    (v14 : Vec Ideal S1x128 .f32) (q : Fin 128) :
    k1_pay4 (F := Ideal) v3 v6 v8 v14 (ix2 (0 : Fin 1) q)
      = v14 (ix2 (0 : Fin 1) q) + ∑ k : Fin 5000, k1_pay3 (F := Ideal) v3 v6 v8 (ix2 k q) := by
  unfold k1_pay4
  simp only [shapeCast_self]
  exact congrArg (fun z => v14 (ix2 (0 : Fin 1) q) + z) (r1_colsum_apply (k1_pay3 (F := Ideal) v3 v6 v8) q)

/-- The same for the squares. -/
theorem r1_pay5_apply (v3 : Vec Ideal S5000x128 .bf16) (v6 : Vec Ideal S5000x128 .f32) (v8 : Vec Ideal S5000x1 .f32)
    (v20 : Vec Ideal S1x128 .f32) (q : Fin 128) :
    k1_pay5 (F := Ideal) v3 v6 v8 v20 (ix2 (0 : Fin 1) q)
      = v20 (ix2 (0 : Fin 1) q)
        + ∑ k : Fin 5000, k1_pay3 (F := Ideal) v3 v6 v8 (ix2 k q) * k1_pay3 (F := Ideal) v3 v6 v8 (ix2 k q) := by
  unfold k1_pay5
  simp only [shapeCast_self]
  exact congrArg (fun z => v20 (ix2 (0 : Fin 1) q) + z)
    (r1_colsum_apply (mulf (k1_pay3 (F := Ideal) v3 v6 v8) (k1_pay3 (F := Ideal) v3 v6 v8)) q)

/-- The word the accumulators are reset to is the number zero. -/
theorem r1_pay1_apply (j : S1x128.Idx) : k1_pay1 (F := Ideal) j = 0 := by
  unfold k1_pay1
  exact Ideal.ofBits_zero_f32

theorem r1_pay2_apply (j : S1x128.Idx) : k1_pay2 (F := Ideal) j = 0 := by
  unfold k1_pay2
  exact Ideal.ofBits_zero_f32

end Cert.KernelIdeal.RegVal
end
-- ==== Proof.LibAccBlocks.lean ====
/-
  Accumulating a sum block by block.

  A sum over `J · K` consecutive terms is the sum over `J` consecutive blocks of the `K` terms of each block
  (`sum_fin_blocks`). An accumulator that starts at `z + S 0` and adds `S (k + 1)` at step `k + 1` holds
  `z + ∑_{k ≤ n} S k` after step `n` (`accK_eq`). Together: started from zero and fed the `J` block sums in order, the
  accumulator ends at the whole sum (`acc_blocks`; `acc_full` is the case of 16 blocks of 256 making 4096 terms).
  Everything is stated in an additive commutative monoid, so it holds on the extended reals with no finiteness condition.
-/
import Mathlib.Algebra.BigOperators.Fin
import Mathlib.Algebra.BigOperators.Group.Finset.Basic
import Mathlib.Logic.Equiv.Fin.Basic
import Mathlib.Tactic.Ring
import Mathlib.Tactic.Linarith

open scoped BigOperators

namespace LibAccBlocks

variable {M : Type*} [AddCommMonoid M]

/-- The accumulator after step `n`: it starts at `z + S 0` and step `k + 1` adds `S (k + 1)`. -/
def accK (z : M) (S : ℕ → M) : ℕ → M
  | 0 => z + S 0
  | (k + 1) => accK z S k + S (k + 1)

@[simp] theorem accK_zero (z : M) (S : ℕ → M) : accK z S 0 = z + S 0 := rfl

@[simp] theorem accK_succ (z : M) (S : ℕ → M) (k : ℕ) : accK z S (k + 1) = accK z S k + S (k + 1) := rfl

/-- After step `n` the accumulator is the start value plus the first `n + 1` terms. -/
theorem accK_eq (z : M) (S : ℕ → M) (n : ℕ) : accK z S n = z + ∑ k ∈ Finset.range (n + 1), S k := by
  induction n with
  | zero => simp
  | succ n ih => rw [accK_succ, ih, Finset.sum_range_succ _ (n + 1), add_assoc]

/-- The same with the terms indexed by `Fin (n + 1)`, from a zero start. -/
theorem accK_eq_sum_fin (S : ℕ → M) (n : ℕ) : accK 0 S n = ∑ a : Fin (n + 1), S a.val := by
  rw [accK_eq, zero_add, Fin.sum_univ_eq_sum_range]

/-- The accumulator only looks at the terms up to its step. -/
theorem accK_congr (z : M) (S T : ℕ → M) (n : ℕ) (h : ∀ k, k ≤ n → S k = T k) : accK z S n = accK z T n := by
  rw [accK_eq, accK_eq]
  refine congrArg (z + ·) (Finset.sum_congr rfl fun k hk => h k ?_)
  have := Finset.mem_range.mp hk
  omega

/-- Position `j` of block `k` is a position of the whole. -/
theorem blk_lt {J K k j : ℕ} (hk : k < J) (hj : j < K) : k * K + j < J * K :=
  calc k * K + j < k * K + K := by omega
    _ = (k + 1) * K := by ring
    _ ≤ J * K := Nat.mul_le_mul_right K hk

/-- A sum over `J · K` consecutive terms, block by block. -/
theorem sum_fin_blocks (J K : ℕ) (f : Fin (J * K) → M) :
    ∑ a : Fin J, ∑ b : Fin K, f ⟨a.val * K + b.val, blk_lt a.isLt b.isLt⟩ = ∑ i : Fin (J * K), f i := by
  rw [← Equiv.sum_comp finProdFinEquiv f, Fintype.sum_prod_type]
  refine Finset.sum_congr rfl fun a _ => Finset.sum_congr rfl fun b _ => congrArg f (Fin.ext ?_)
  show a.val * K + b.val = b.val + K * a.val
  ring

/-- Fed the `J` block sums in order from a zero start, the accumulator ends at the whole sum. -/
theorem acc_blocks {J K : ℕ} (hJ : 0 < J) (f : Fin (J * K) → M) :
    accK 0 (fun k => ∑ j : Fin K, f ⟨(k % J) * K + j.val, blk_lt (Nat.mod_lt k hJ) j.isLt⟩) (J - 1)
      = ∑ i : Fin (J * K), f i := by
  obtain ⟨n, rfl⟩ : ∃ n, J = n + 1 := ⟨J - 1, by omega⟩
  rw [Nat.add_sub_cancel, accK_eq_sum_fin, ← sum_fin_blocks]
  refine Finset.sum_congr rfl fun a _ => Finset.sum_congr rfl fun b _ => congrArg f (Fin.ext ?_)
  show (a.val % (n + 1)) * K + b.val = a.val * K + b.val
  rw [Nat.mod_eq_of_lt a.isLt]

/-- 4096 terms as 16 blocks of 256. -/
theorem sum_fin_blocks_4096 (f : Fin 4096 → M) :
    ∑ a : Fin 16, ∑ b : Fin 256, f ⟨a.val * 256 + b.val, by have := a.isLt; have := b.isLt; omega⟩ = ∑ i : Fin 4096, f i :=
  sum_fin_blocks 16 256 f

/-- 16 blocks of 256 accumulated from zero give the sum of all 4096 terms. -/
theorem acc_full (f : Fin 4096 → M) :
    accK 0 (fun k => ∑ j : Fin 256, f ⟨(k % 16) * 256 + j.val, by have := j.isLt; omega⟩) 15 = ∑ i : Fin 4096, f i :=
  acc_blocks (J := 16) (K := 256) (by decide) f

end LibAccBlocks
-- ==== Proof.Reg1Blocks.lean ====
/-
  Where each window's block sits in its array at a point of the grid (row block `t` of 20 blocks of 5000 rows; the two
  accumulators' one block is the whole array), and what the three output blocks hold after each point, in terms of the
  body's arithmetic.
-/
import proofs.«147712_j11338713662112_2_alg».proof.Proof.Reg1Pieces
import proofs.«147712_j11338713662112_2_alg».proof.Proof.Reg1Pay
import proofs.«147712_j11338713662112_2_alg».proof.Proof.LibAccBlocks

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

/-! ## Where a block sits in its array -/

/-- The block index of every window at every point: the row blocks move with the point, the accumulators stay. -/
theorem r1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of row block `k` (of 20 blocks of 5000 rows). -/
def r1_row (k : ℕ) (p : Fin 5000) : Fin 100000 :=
  ⟨(k % 20) * 5000 + p.val, by have := p.isLt; have := Nat.mod_lt k (show 0 < 20 by decide); omega⟩

variable {F : FTy → Type} [FloatOps F]
variable (V : (c : Dev nD) → (b : Ref sig .tc) → Buf (Elt F) ((c : Thread nD τ).loc b))

theorem r1_emb0 (t : Fin cfg1.N) (p : Fin 5000) (q : Fin 128) :
    ((cfg1.win 0).blk t).view.emb (ix2 p q) = ix2 (r1_row t.val p) q := by
  have hN : t.val < 20 := lt_of_lt_of_eq t.isLt N_1
  obtain ⟨e0, e1, -⟩ := r1_idx t
  funext a; apply Fin.ext
  match a with
  | ⟨0, _⟩ => show win1_0.index t (0 : Fin 2) * 5000 + 1 * p.val = (t.val % 20) * 5000 + p.val; rw [e0]; omega
  | ⟨1, _⟩ => show win1_0.index t (1 : Fin 2) * 128 + 1 * q.val = q.val; rw [e1]; omega

theorem r1_emb1 (t : Fin cfg1.N) (p : Fin 5000) (q : Fin 128) :
    ((cfg1.win 1).blk t).view.emb (ix2 p q) = ix2 (r1_row t.val p) q := by
  have hN : t.val < 20 := lt_of_lt_of_eq t.isLt N_1
  obtain ⟨-, -, e0, e1, -⟩ := r1_idx t
  funext a; apply Fin.ext
  match a with
  | ⟨0, _⟩ => show win1_1.index t (0 : Fin 2) * 5000 + 1 * p.val = (t.val % 20) * 5000 + p.val; rw [e0]; omega
  | ⟨1, _⟩ => show win1_1.index t (1 : Fin 2) * 128 + 1 * q.val = q.val; rw [e1]; omega

theorem r1_emb2 (t : Fin cfg1.N) (p : Fin 5000) (q : Fin 1) :
    ((cfg1.win 2).blk t).view.emb (ix2 p q) = ix2 (r1_row t.val p) q := by
  have hN : t.val < 20 := lt_of_lt_of_eq t.isLt N_1
  obtain ⟨-, -, -, -, e0, e1, -⟩ := r1_idx t
  funext a; apply Fin.ext
  match a with
  | ⟨0, _⟩ => show win1_2.index t (0 : Fin 2) * 5000 + 1 * p.val = (t.val % 20) * 5000 + p.val; rw [e0]; omega
  | ⟨1, _⟩ => show win1_2.index t (1 : Fin 2) * 1 + 1 * q.val = q.val; rw [e1]; omega

theorem r1_emb3 (t : Fin cfg1.N) (p : Fin 5000) (q : Fin 128) :
    ((cfg1.win 3).blk t).view.emb (ix2 p q) = ix2 (r1_row t.val p) q := by
  have hN : t.val < 20 := lt_of_lt_of_eq t.isLt N_1
  obtain ⟨-, -, -, -, -, -, e0, e1, -⟩ := r1_idx t
  funext a; apply Fin.ext
  match a with
  | ⟨0, _⟩ => show win1_3.index t (0 : Fin 2) * 5000 + 1 * p.val = (t.val % 20) * 5000 + p.val; rw [e0]; omega
  | ⟨1, _⟩ => show win1_3.index t (1 : Fin 2) * 128 + 1 * q.val = q.val; rw [e1]; omega

/-! ## What the three output blocks hold after a point -/

/-- After every point the first output's block is the body's pointwise arithmetic of the point's input blocks. -/
theorem r1_outs3 (c : Dev nD) (t : Fin cfg1.N) :
    (outsAt1 V c t.val t.isLt).1 = k1_pay3 (iblk1 V c 1 t) (iblk1 V c 0 t) (iblk1 V c 2 t) := by
  by_cases h0 : t.val % 20 = 0
  · rw [outsAt1_A V c t h0]
    dsimp only
    exact r1_out_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]
    dsimp only
    exact r1_out_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun hh => h0 ((hcond1_0 t).mp hh)) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2

/-- After the first point the column-sum accumulator holds the reset word plus the first block's column sums. -/
theorem r1_outs4_A (c : Dev nD) (n : ℕ) (h : n < cfg1.N) (h0 : n % 20 = 0) :
    (outsAt1 V c n h).2.1 = k1_pay4 (iblk1 V c 1 ⟨n, h⟩) (iblk1 V c 0 ⟨n, h⟩) (iblk1 V c 2 ⟨n, h⟩) (k1_pay1 (F := F)) :=
  (congrArg (fun z => z.2.1) (outsAt1_A V c ⟨n, h⟩ h0)).trans
    (r1_out_A_4 c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) ((hcond1_0 ⟨n, h⟩).mpr h0) (iblk1 V c 0 ⟨n, h⟩) (iblk1 V c 1 ⟨n, h⟩) (iblk1 V c 2 ⟨n, h⟩))

/-- After a later point it holds what it held after the point before plus the point's block's column sums. -/
theorem r1_outs4_B (c : Dev nD) (n : ℕ) (h : n + 1 < cfg1.N) (h0 : ¬(n + 1) % 20 = 0) :
    (outsAt1 V c (n + 1) h).2.1 = k1_pay4 (iblk1 V c 1 ⟨n + 1, h⟩) (iblk1 V c 0 ⟨n + 1, h⟩) (iblk1 V c 2 ⟨n + 1, h⟩) (outsAt1 V c n (Nat.lt_of_succ_lt h)).2.1 :=
  (congrArg (fun z => z.2.1) (outsAt1_B V c ⟨n + 1, h⟩ h0)).trans
    (r1_out_B_4 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩)
      (outsAt1 V c n (Nat.lt_of_succ_lt h)).2.1 (outsAt1 V c n (Nat.lt_of_succ_lt h)).2.2)

theorem r1_outs5_A (c : Dev nD) (n : ℕ) (h : n < cfg1.N) (h0 : n % 20 = 0) :
    (outsAt1 V c n h).2.2 = k1_pay5 (iblk1 V c 1 ⟨n, h⟩) (iblk1 V c 0 ⟨n, h⟩) (iblk1 V c 2 ⟨n, h⟩) (k1_pay2 (F := F)) :=
  (congrArg (fun z => z.2.2) (outsAt1_A V c ⟨n, h⟩ h0)).trans
    (r1_out_A_5 c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) ((hcond1_0 ⟨n, h⟩).mpr h0) (iblk1 V c 0 ⟨n, h⟩) (iblk1 V c 1 ⟨n, h⟩) (iblk1 V c 2 ⟨n, h⟩))

theorem r1_outs5_B (c : Dev nD) (n : ℕ) (h : n + 1 < cfg1.N) (h0 : ¬(n + 1) % 20 = 0) :
    (outsAt1 V c (n + 1) h).2.2 = k1_pay5 (iblk1 V c 1 ⟨n + 1, h⟩) (iblk1 V c 0 ⟨n + 1, h⟩) (iblk1 V c 2 ⟨n + 1, h⟩) (outsAt1 V c n (Nat.lt_of_succ_lt h)).2.2 :=
  (congrArg (fun z => z.2.2) (outsAt1_B V c ⟨n + 1, h⟩ h0)).trans
    (r1_out_B_5 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩)
      (outsAt1 V c n (Nat.lt_of_succ_lt h)).2.1 (outsAt1 V c n (Nat.lt_of_succ_lt h)).2.2)

end Cert.KernelIdeal.RegVal
end
-- ==== Proof.Reg1Acc.lean ====
/-
  The second region's accumulation over the grid, over the extended reals: each point's first-output block is a row
  block of the completed aggregate, and after point `n` each of the two running accumulators holds, from zero, the sums
  over the row blocks up to `n`; twenty row blocks of 5000 rows make the sum over all 100000 rows.
-/
import proofs.«147712_j11338713662112_2_alg».proof.Proof.Reg1Blocks
import proofs.«147712_j11338713662112_2_alg».proof.Proof.RegValDefs

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- An input block at a point, at a row and a column of the block, is its array's entry at that row of the point's row
    block. -/
theorem r1_rd0 (c : Dev nD) (t : Fin cfg1.N) (p : Fin 5000) (q : Fin 128) :
    (iblk1 V c 0 t : Vec Ideal S5000x128 .f32) (ix2 p q) = atM (V c main_v48) (r1_row t.val p) q := by
  show (V c main_v48 : Mat) (((cfg1.win 0).blk t).view.emb (ix2 p q)) = (V c main_v48 : Mat) (ix2 (r1_row t.val p) q)
  rw [r1_emb0]

theorem r1_rd1 (c : Dev nD) (t : Fin cfg1.N) (p : Fin 5000) (q : Fin 128) :
    (iblk1 V c 1 t : Vec Ideal S5000x128 .bf16) (ix2 p q) = atM (V c main_v34) (r1_row t.val p) q := by
  show (V c main_v34 : Mat) (((cfg1.win 1).blk t).view.emb (ix2 p q)) = (V c main_v34 : Mat) (ix2 (r1_row t.val p) q)
  rw [r1_emb1]

theorem r1_rd2 (c : Dev nD) (t : Fin cfg1.N) (p : Fin 5000) :
    (iblk1 V c 2 t : Vec Ideal S5000x1 .f32) (ix2 p (0 : Fin 1)) = atC (V c main_v33) (r1_row t.val p) := by
  show (V c main_v33 : Col) (((cfg1.win 2).blk t).view.emb (ix2 p (0 : Fin 1))) = (V c main_v33 : Col) (ix2 (r1_row t.val p) (0 : Fin 1))
  rw [r1_emb2]

/-- The first output's block at a point, at a row and a column of the block, is the completed aggregate's entry at that
    row of the point's row block. -/
theorem r1_blk_full (c : Dev nD) (t : Fin cfg1.N) (p : Fin 5000) (q : Fin 128) :
    k1_pay3 (F := Ideal) (iblk1 V c 1 t) (iblk1 V c 0 t) (iblk1 V c 2 t) (ix2 p q) = full V c (r1_row t.val p) q := by
  refine (r1_pay3_apply (iblk1 V c 1 t) (iblk1 V c 0 t) (iblk1 V c 2 t) p q).trans ?_
  rw [r1_rd0 V c t p q, r1_rd1 V c t p q, r1_rd2 V c t p]
  rfl

/-- Row block `k`'s column sum, and its column sum of squares, at column `q`. -/
def r1_S (c : Dev nD) (q : Fin 128) (k : ℕ) : EReal := ∑ p : Fin 5000, full V c (r1_row k p) q
def r1_Q (c : Dev nD) (q : Fin 128) (k : ℕ) : EReal :=
  ∑ p : Fin 5000, full V c (r1_row k p) q * full V c (r1_row k p) q

/-- After point `n` the column-sum accumulator holds, from zero, the column sums of the row blocks up to `n`. -/
theorem r1_acc4 (c : Dev nD) (q : Fin 128) : ∀ (n : ℕ) (h : n < cfg1.N),
    (outsAt1 (F := Ideal) V c n h).2.1 (ix2 (0 : Fin 1) q) = LibAccBlocks.accK 0 (r1_S V c q) n
  | 0, h => by
    refine (congrFun (r1_outs4_A V c 0 h rfl) (ix2 (0 : Fin 1) q)).trans ?_
    refine (r1_pay4_apply (iblk1 V c 1 ⟨0, h⟩) (iblk1 V c 0 ⟨0, h⟩) (iblk1 V c 2 ⟨0, h⟩) (k1_pay1 (F := Ideal)) q).trans ?_
    show _ + _ = (0 : EReal) + r1_S V c q 0
    exact congrArg₂ (· + ·) (r1_pay1_apply _) (Finset.sum_congr rfl fun p _ => r1_blk_full V c ⟨0, h⟩ p q)
  | n + 1, h => by
    have hN : cfg1.N = 20 := N_1
    have hB : ¬(n + 1) % 20 = 0 := by omega
    refine (congrFun (r1_outs4_B V c n h hB) (ix2 (0 : Fin 1) q)).trans ?_
    refine (r1_pay4_apply (iblk1 V c 1 ⟨n + 1, h⟩) (iblk1 V c 0 ⟨n + 1, h⟩) (iblk1 V c 2 ⟨n + 1, h⟩) (outsAt1 V c n (Nat.lt_of_succ_lt h)).2.1 q).trans ?_
    show _ + _ = LibAccBlocks.accK 0 (r1_S V c q) n + r1_S V c q (n + 1)
    exact congrArg₂ (· + ·) (r1_acc4 c q n _) (Finset.sum_congr rfl fun p _ => r1_blk_full V c ⟨n + 1, h⟩ p q)

/-- The same for the accumulator of the squares. -/
theorem r1_acc5 (c : Dev nD) (q : Fin 128) : ∀ (n : ℕ) (h : n < cfg1.N),
    (outsAt1 (F := Ideal) V c n h).2.2 (ix2 (0 : Fin 1) q) = LibAccBlocks.accK 0 (r1_Q V c q) n
  | 0, h => by
    refine (congrFun (r1_outs5_A V c 0 h rfl) (ix2 (0 : Fin 1) q)).trans ?_
    refine (r1_pay5_apply (iblk1 V c 1 ⟨0, h⟩) (iblk1 V c 0 ⟨0, h⟩) (iblk1 V c 2 ⟨0, h⟩) (k1_pay2 (F := Ideal)) q).trans ?_
    show _ + _ = (0 : EReal) + r1_Q V c q 0
    exact congrArg₂ (· + ·) (r1_pay2_apply _) (Finset.sum_congr rfl fun p _ =>
      congrArg₂ (· * ·) (r1_blk_full V c ⟨0, h⟩ p q) (r1_blk_full V c ⟨0, h⟩ p q))
  | n + 1, h => by
    have hN : cfg1.N = 20 := N_1
    have hB : ¬(n + 1) % 20 = 0 := by omega
    refine (congrFun (r1_outs5_B V c n h hB) (ix2 (0 : Fin 1) q)).trans ?_
    refine (r1_pay5_apply (iblk1 V c 1 ⟨n + 1, h⟩) (iblk1 V c 0 ⟨n + 1, h⟩) (iblk1 V c 2 ⟨n + 1, h⟩) (outsAt1 V c n (Nat.lt_of_succ_lt h)).2.2 q).trans ?_
    show _ + _ = LibAccBlocks.accK 0 (r1_Q V c q) n + r1_Q V c q (n + 1)
    exact congrArg₂ (· + ·) (r1_acc5 c q n _) (Finset.sum_congr rfl fun p _ =>
      congrArg₂ (· * ·) (r1_blk_full V c ⟨n + 1, h⟩ p q) (r1_blk_full V c ⟨n + 1, h⟩ p q))

/-- Twenty row blocks of 5000 rows accumulated from zero are the sum over all 100000 rows. -/
theorem r1_total4 (c : Dev nD) (q : Fin 128) :
    LibAccBlocks.accK 0 (r1_S V c q) 19 = ∑ i : Fin 100000, full V c i q :=
  LibAccBlocks.acc_blocks (J := 20) (K := 5000) (by decide) (fun i : Fin (20 * 5000) => full V c i q)

theorem r1_total5 (c : Dev nD) (q : Fin 128) :
    LibAccBlocks.accK 0 (r1_Q V c q) 19 = ∑ i : Fin 100000, full V c i q * full V c i q :=
  LibAccBlocks.acc_blocks (J := 20) (K := 5000) (by decide) (fun i : Fin (20 * 5000) => full V c i q * full V c i q)

end Cert.KernelIdeal.RegVal
end
-- ==== Proof.RegVal1.lean ====
/-
  What the second kernel region leaves in its three output arrays, entry by entry over the extended reals, as
  functions of the arrays the region finds at entry: the completed aggregate (the aggregate plus the self-loop factor
  times the product row), its column sums and its column sums of squares. The first output is written back row block
  by row block, and the twenty row blocks tile the array; the two accumulators are written back once, after the last
  point, when they hold the sums over all twenty row blocks.
-/
import proofs.«147712_j11338713662112_2_alg».proof.Proof.Reg1Acc
import proofs.«147712_j11338713662112_2_alg».proof.Proof.RegValDefs
import Idealize.ShloMosaic.Lib.Pipeline.Value
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The first output: the completed aggregate -/

/-- The completed aggregate as one array. -/
def r1_G3 (c : Dev nD) : Mat := fun i => full V c (i 0) (i 1)

/-- What point `t` writes back is row block `t` of the completed aggregate. -/
theorem r1_flushed3 (c : Dev nD) (t : Fin cfg1.N) :
    (dat1 (F := Ideal) V c).flushed 3 t = ((cfg1.win 3).blk t).view.read (Elt Ideal) (r1_G3 V c) := by
  show (cfg1.win 3).cut (grid1.coords t) ((dat1 (F := Ideal) V c).after 3 t) = _
  rw [after1_3, r1_outs3 V c t]
  have e : (k1_pay3 (F := Ideal) (iblk1 V c 1 t) (iblk1 V c 0 t) (iblk1 V c 2 t) : Vec Ideal S5000x128 .f32)
      = (((cfg1.win 3).blk t).view.read (Elt Ideal) (r1_G3 V c) : Vec Ideal S5000x128 .f32) := by
    funext j
    obtain ⟨p, q, rfl⟩ : ∃ (p : Fin 5000) (q : Fin 128), j = ix2 p q := ⟨j 0, j 1, eq_ix2 j⟩
    refine (r1_blk_full V c t p q).trans ?_
    show _ = r1_G3 V c (((cfg1.win 3).blk t).view.emb (ix2 p q))
    rw [r1_emb3]
    rfl
  exact e

/-- An entry of the array is in point `t`'s block iff each coordinate is in the block's range on its axis. -/
theorem r1_mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v49_0).slice (win1_3.rect t)).set ↔ _
  rw [View.set_slice_whole, Rect.mem_set_unit]
  exact Iff.rfl

/-- Every entry is in the block of the point its row block names. -/
theorem r1_cover3 (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, e0, e1, -⟩ := r1_idx t
  refine ⟨t, flush1_3 t, ?_⟩
  rw [r1_mem_blk3]
  intro a
  match a with
  | ⟨0, _⟩ =>
    show win1_3.index t (0 : Fin 2) * 5000 ≤ (i 0).val ∧ (i 0).val < win1_3.index t (0 : Fin 2) * 5000 + 5000
    rw [e0]; show (i 0).val / 5000 * 5000 ≤ (i 0).val ∧ (i 0).val < (i 0).val / 5000 * 5000 + 5000; omega
  | ⟨1, _⟩ =>
    show win1_3.index t (1 : Fin 2) * 128 ≤ (i 1).val ∧ (i 1).val < win1_3.index t (1 : Fin 2) * 128 + 128
    rw [e1]; omega

theorem r1_final3 (c : Dev nD) : (dat1 (F := Ideal) V c).arrAt 3 cfg1.N = r1_G3 V c :=
  (dat1 (F := Ideal) V c).arrAt_eq_of_cover 3 (r1_G3 V c) (fun t _ => r1_flushed3 V c t) r1_cover3

theorem reg1_full (c : Dev nD) (i : Fin 100000) (j : Fin 128) :
    atM ((dat1 (F := Ideal) V c).arrAt 3 cfg1.N) i j = full V c i j :=
  congrFun (r1_final3 V c) (ix2 i j)

/-! ## The two accumulators -/

/-- The column sums, and the column sums of squares, of the completed aggregate, as one-row arrays. -/
def r1_G4 (c : Dev nD) : Row := fun i => ∑ r : Fin 100000, full V c r (i 1)
def r1_G5 (c : Dev nD) : Row := fun i => ∑ r : Fin 100000, full V c r (i 1) * full V c r (i 1)

/-- The last point. -/
def r1_last : Fin cfg1.N := ⟨19, by rw [show cfg1.N = 20 from N_1]; decide⟩

theorem r1_hz4 : (fun a => win1_4.index r1_last a * main_v49_1.ty.shape.size a) = fun _ => 0 := by
  obtain ⟨-, -, -, -, -, -, -, -, e0, e1, -⟩ := r1_idx r1_last
  funext a
  match a with
  | ⟨0, _⟩ => show win1_4.index r1_last (0 : Fin 2) * _ = 0; rw [e0, Nat.zero_mul]
  | ⟨1, _⟩ => show win1_4.index r1_last (1 : Fin 2) * _ = 0; rw [e1, Nat.zero_mul]

theorem r1_hz5 : (fun a => win1_5.index r1_last a * main_v49_2.ty.shape.size a) = fun _ => 0 := by
  obtain ⟨-, -, -, -, -, -, -, -, -, -, e0, e1⟩ := r1_idx r1_last
  funext a
  match a with
  | ⟨0, _⟩ => show win1_5.index r1_last (0 : Fin 2) * _ = 0; rw [e0, Nat.zero_mul]
  | ⟨1, _⟩ => show win1_5.index r1_last (1 : Fin 2) * _ = 0; rw [e1, Nat.zero_mul]

/-- The one write-back of the column sums, after the last point, writes the sums over all rows. -/
theorem r1_flushed4 (c : Dev nD) (t : Fin cfg1.N) (hf : (cfg1.win 4).flush t = true) :
    (dat1 (F := Ideal) V c).flushed 4 t = ((cfg1.win 4).blk t).view.read (Elt Ideal) (r1_G4 V c) := by
  have hN : cfg1.N = 20 := N_1
  have h19 : t.val = 19 := by have := (flush1_4 t).mp hf; have := t.isLt; omega
  obtain rfl : t = r1_last := Fin.ext h19
  show (cfg1.win 4).cut (grid1.coords r1_last) ((dat1 (F := Ideal) V c).after 4 r1_last) = _
  rw [after1_4]
  refine Eq.trans ?_ (Memref.read_access_unit_zero (Elt Ideal) main_v49_1 r1_hz4 (fun a => by rw [congrFun r1_hz4 a]; simp) (r1_G4 V c)).symm
  have e : ((outsAt1 (F := Ideal) V c r1_last.val r1_last.isLt).2.1 : Vec Ideal S1x128 .f32) = (r1_G4 V c : Vec Ideal S1x128 .f32) := by
    funext j
    obtain ⟨a, q, rfl⟩ : ∃ (a : Fin 1) (q : Fin 128), j = ix2 a q := ⟨j 0, j 1, eq_ix2 j⟩
    obtain rfl : a = 0 := Subsingleton.elim _ _
    exact (r1_acc4 V c q 19 r1_last.isLt).trans (r1_total4 V c q)
  exact e

theorem r1_flushed5 (c : Dev nD) (t : Fin cfg1.N) (hf : (cfg1.win 5).flush t = true) :
    (dat1 (F := Ideal) V c).flushed 5 t = ((cfg1.win 5).blk t).view.read (Elt Ideal) (r1_G5 V c) := by
  have hN : cfg1.N = 20 := N_1
  have h19 : t.val = 19 := by have := (flush1_5 t).mp hf; have := t.isLt; omega
  obtain rfl : t = r1_last := Fin.ext h19
  show (cfg1.win 5).cut (grid1.coords r1_last) ((dat1 (F := Ideal) V c).after 5 r1_last) = _
  rw [after1_5]
  refine Eq.trans ?_ (Memref.read_access_unit_zero (Elt Ideal) main_v49_2 r1_hz5 (fun a => by rw [congrFun r1_hz5 a]; simp) (r1_G5 V c)).symm
  have e : ((outsAt1 (F := Ideal) V c r1_last.val r1_last.isLt).2.2 : Vec Ideal S1x128 .f32) = (r1_G5 V c : Vec Ideal S1x128 .f32) := by
    funext j
    obtain ⟨a, q, rfl⟩ : ∃ (a : Fin 1) (q : Fin 128), j = ix2 a q := ⟨j 0, j 1, eq_ix2 j⟩
    obtain rfl : a = 0 := Subsingleton.elim _ _
    exact (r1_acc5 V c q 19 r1_last.isLt).trans (r1_total5 V c q)
  exact e

/-- The last point's block of an accumulator is the whole one-row array. -/
theorem r1_cover4 (i : S1x128.Idx) :
    ∃ t : Fin cfg1.N, (cfg1.win 4).flush t = true ∧ i ∈ ((cfg1.win 4).blk t).view.set := by
  obtain ⟨-, -, -, -, -, -, -, -, e0, e1, -⟩ := r1_idx r1_last
  refine ⟨r1_last, (flush1_4 r1_last).mpr rfl, ?_⟩
  show i ∈ ((View.whole main_v49_1).slice (win1_4.rect r1_last)).set
  rw [View.set_slice_whole, Rect.mem_set_unit]
  intro a
  have h0 : (i 0 : Nat) < 1 := (i 0).isLt
  have h1 : (i 1 : Nat) < 128 := (i 1).isLt
  match a with
  | ⟨0, _⟩ =>
    show win1_4.index r1_last (0 : Fin 2) * 1 ≤ (i 0 : Nat) ∧ (i 0 : Nat) < win1_4.index r1_last (0 : Fin 2) * 1 + 1
    rw [e0]; omega
  | ⟨1, _⟩ =>
    show win1_4.index r1_last (1 : Fin 2) * 128 ≤ (i 1 : Nat) ∧ (i 1 : Nat) < win1_4.index r1_last (1 : Fin 2) * 128 + 128
    rw [e1]; omega

theorem r1_cover5 (i : S1x128.Idx) :
    ∃ t : Fin cfg1.N, (cfg1.win 5).flush t = true ∧ i ∈ ((cfg1.win 5).blk t).view.set := by
  obtain ⟨-, -, -, -, -, -, -, -, -, -, e0, e1⟩ := r1_idx r1_last
  refine ⟨r1_last, (flush1_5 r1_last).mpr rfl, ?_⟩
  show i ∈ ((View.whole main_v49_2).slice (win1_5.rect r1_last)).set
  rw [View.set_slice_whole, Rect.mem_set_unit]
  intro a
  have h0 : (i 0 : Nat) < 1 := (i 0).isLt
  have h1 : (i 1 : Nat) < 128 := (i 1).isLt
  match a with
  | ⟨0, _⟩ =>
    show win1_5.index r1_last (0 : Fin 2) * 1 ≤ (i 0 : Nat) ∧ (i 0 : Nat) < win1_5.index r1_last (0 : Fin 2) * 1 + 1
    rw [e0]; omega
  | ⟨1, _⟩ =>
    show win1_5.index r1_last (1 : Fin 2) * 128 ≤ (i 1 : Nat) ∧ (i 1 : Nat) < win1_5.index r1_last (1 : Fin 2) * 128 + 128
    rw [e1]; omega

theorem r1_final4 (c : Dev nD) : (dat1 (F := Ideal) V c).arrAt 4 cfg1.N = r1_G4 V c :=
  (dat1 (F := Ideal) V c).arrAt_eq_of_cover 4 (r1_G4 V c) (r1_flushed4 V c) r1_cover4

theorem r1_final5 (c : Dev nD) : (dat1 (F := Ideal) V c).arrAt 5 cfg1.N = r1_G5 V c :=
  (dat1 (F := Ideal) V c).arrAt_eq_of_cover 5 (r1_G5 V c) (r1_flushed5 V c) r1_cover5

theorem reg1_sum (c : Dev nD) (j : Fin 128) :
    atR ((dat1 (F := Ideal) V c).arrAt 4 cfg1.N) j = ∑ i : Fin 100000, full V c i j :=
  congrFun (r1_final4 V c) (ix2 (0 : Fin 1) j)

theorem reg1_sumsq (c : Dev nD) (j : Fin 128) :
    atR ((dat1 (F := Ideal) V c).arrAt 5 cfg1.N) j = ∑ i : Fin 100000, full V c i j * full V c i j :=
  congrFun (r1_final5 V c) (ix2 (0 : Fin 1) j)

end Cert.KernelIdeal.RegVal

end
-- ==== Proof.RegVal2.lean ====
/-
  What the third kernel region leaves in its output array, as a whole-array function of the arrays it finds at
  entry (V), entry by entry over the extended reals: the aggregate centred by the mean row, scaled by the
  inverse-deviation row and by the scale row, shifted by the shift row, and rectified.

  The grid's point t works on rows 5000·t … 5000·t + 4999 of the aggregate and on the four whole [1,128] rows, which
  the body spreads over the block's rows; the twenty blocks tile the output array.
-/
import proofs.«147712_j11338713662112_2_alg».proof.Proof.RegValDefs
import Idealize.ShloMosaic.Lib.ValueIdx
import Idealize.ShloMosaic.Lib.Pipeline.Value
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.ShloMosaic.ValueIdx
open Idealize.ShloMosaic.Pipeline (Dat)

/-- The two zero offsets, however spelt. -/
theorem hz2 : (![0, 0] : Fin 2 → Nat) = fun _ => 0 := funext fun a => by fin_cases a <;> rfl

/-- A [1,128] row spread over the 5000 rows of a block, read at (p, q), is the row at q. -/
theorem spreadRow_apply (x : Vec Ideal S1x128 .f32) (h : S1x128.Broadcasts S5000x128) (p : Fin 5000) (q : Fin 128) :
    broadcastTo S5000x128 x h (ix2 p q) = x (ix2 (0 : Fin 1) q) :=
  broadcastTo_apply x h (ix2 p q) (ix2 (0 : Fin 1) q) fun a => by
    match a with
    | ⟨0, _⟩ => rfl
    | ⟨1, _⟩ => rfl

/-- The body's stored value at an entry of the block. -/
theorem pay2_apply (x0 : Vec Ideal S5000x128 .f32) (x1 x2 x3 x4 : Vec Ideal S1x128 .f32) (p : Fin 5000) (q : Fin 128) :
    (k2_pay1 x0 x1 x2 x3 x4 (ix2 p q) : EReal)
      = max (((x0 (ix2 p q) : EReal) - x1 (ix2 (0 : Fin 1) q)) * x2 (ix2 (0 : Fin 1) q) * x3 (ix2 (0 : Fin 1) q)
          + x4 (ix2 (0 : Fin 1) q)) 0 := by
  unfold k2_pay1
  simp only [shapeCast_self]
  show max (((x0 (ix2 p q) : EReal) - broadcastTo S5000x128 x1 broadcasts_S1x128_S5000x128 (ix2 p q))
        * broadcastTo S5000x128 x2 broadcasts_S1x128_S5000x128 (ix2 p q)
        * broadcastTo S5000x128 x3 broadcasts_S1x128_S5000x128 (ix2 p q)
        + broadcastTo S5000x128 x4 broadcasts_S1x128_S5000x128 (ix2 p q)) (Ideal.ofBits .f32 0x00000000#32) = _
  rw [spreadRow_apply x1, spreadRow_apply x2, spreadRow_apply x3, spreadRow_apply x4, Ideal.ofBits_zero_f32]

/-- The block indices over the grid: the row blocks of the aggregate and of the output move with the point, every
    other block index is 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The normalised, scaled, shifted and rectified aggregate. -/
def bnRelu2 (c : Dev nD) : Mat := fun i =>
  max ((atM (V c main_v49_0) (i 0) (i 1) - atR (V c main_v63) (i 1)) * atR (V c main_v64) (i 1)
      * atR (V c main_v65) (i 1) + atR (V c main_v66) (i 1)) 0

/-- What point t writes back is block t of that array. -/
theorem flushed2_eq (c : Dev nD) (t : Fin cfg2.N) :
    (dat2 (F := Ideal) V c).flushed 5 t = ((cfg2.win 5).blk t).view.read (Elt Ideal) (bnRelu2 V c) := by
  show (cfg2.win 5).cut (grid2.coords t) ((dat2 (F := Ideal) V c).after 5 t) = _
  rw [after2_5]
  unfold out2_5
  rw [View.canon_unit_zero hz2]
  simp only [View.ld_unit_zero (S := S5000x128) hz2, View.ld_unit_zero (S := S1x128) hz2]
  obtain ⟨e00, e01, e10, e11, e20, e21, e30, e31, e40, e41, e50, e51⟩ := idx_facts2 t
  funext j
  obtain ⟨p, q, rfl⟩ : ∃ (p : Fin 5000) (q : Fin 128), j = ix2 p q := ⟨j 0, j 1, eq_ix2 j⟩
  show (k2_pay1 (iblk2 V c 0 t) (iblk2 V c 1 t) (iblk2 V c 2 t) (iblk2 V c 3 t) (iblk2 V c 4 t) (ix2 p q) : EReal)
    = bnRelu2 V c (((cfg2.win 5).blk t).view.emb (ix2 p q))
  refine (pay2_apply _ _ _ _ _ p q).trans ?_
  unfold bnRelu2
  have h0 : ((cfg2.win 0).blk t).view.emb (ix2 p q)
      = ix2 (n0 := 100000) (n1 := 128) ((((cfg2.win 5).blk t).view.emb (ix2 p q)) 0) ((((cfg2.win 5).blk t).view.emb (ix2 p q)) 1) := by
    funext a; apply Fin.ext
    match a with
    | ⟨0, _⟩ => show win2_0.index t (0 : Fin 2) * 5000 + 1 * p.val = win2_5.index t (0 : Fin 2) * 5000 + 1 * p.val; rw [e00, e50]
    | ⟨1, _⟩ => show win2_0.index t (1 : Fin 2) * 128 + 1 * q.val = win2_5.index t (1 : Fin 2) * 128 + 1 * q.val; rw [e01, e51]
  have h1 : ((cfg2.win 1).blk t).view.emb (ix2 (0 : Fin 1) q)
      = ix2 (0 : Fin 1) (n1 := 128) ((((cfg2.win 5).blk t).view.emb (ix2 p q)) 1) := by
    funext a; apply Fin.ext
    match a with
    | ⟨0, _⟩ => show win2_1.index t (0 : Fin 2) * 1 + 1 * 0 = 0; rw [e10]
    | ⟨1, _⟩ => show win2_1.index t (1 : Fin 2) * 128 + 1 * q.val = win2_5.index t (1 : Fin 2) * 128 + 1 * q.val; rw [e11, e51]
  have h2 : ((cfg2.win 2).blk t).view.emb (ix2 (0 : Fin 1) q)
      = ix2 (0 : Fin 1) (n1 := 128) ((((cfg2.win 5).blk t).view.emb (ix2 p q)) 1) := by
    funext a; apply Fin.ext
    match a with
    | ⟨0, _⟩ => show win2_2.index t (0 : Fin 2) * 1 + 1 * 0 = 0; rw [e20]
    | ⟨1, _⟩ => show win2_2.index t (1 : Fin 2) * 128 + 1 * q.val = win2_5.index t (1 : Fin 2) * 128 + 1 * q.val; rw [e21, e51]
  have h3 : ((cfg2.win 3).blk t).view.emb (ix2 (0 : Fin 1) q)
      = ix2 (0 : Fin 1) (n1 := 128) ((((cfg2.win 5).blk t).view.emb (ix2 p q)) 1) := by
    funext a; apply Fin.ext
    match a with
    | ⟨0, _⟩ => show win2_3.index t (0 : Fin 2) * 1 + 1 * 0 = 0; rw [e30]
    | ⟨1, _⟩ => show win2_3.index t (1 : Fin 2) * 128 + 1 * q.val = win2_5.index t (1 : Fin 2) * 128 + 1 * q.val; rw [e31, e51]
  have h4 : ((cfg2.win 4).blk t).view.emb (ix2 (0 : Fin 1) q)
      = ix2 (0 : Fin 1) (n1 := 128) ((((cfg2.win 5).blk t).view.emb (ix2 p q)) 1) := by
    funext a; apply Fin.ext
    match a with
    | ⟨0, _⟩ => show win2_4.index t (0 : Fin 2) * 1 + 1 * 0 = 0; rw [e40]
    | ⟨1, _⟩ => show win2_4.index t (1 : Fin 2) * 128 + 1 * q.val = win2_5.index t (1 : Fin 2) * 128 + 1 * q.val; rw [e41, e51]
  have hA0 : (iblk2 V c 0 t (ix2 p q) : EReal)
      = atM (V c main_v49_0) ((((cfg2.win 5).blk t).view.emb (ix2 p q)) 0) ((((cfg2.win 5).blk t).view.emb (ix2 p q)) 1) :=
    congrArg (show Mat from V c main_v49_0) h0
  have hA1 : (iblk2 V c 1 t (ix2 (0 : Fin 1) q) : EReal)
      = atR (V c main_v63) ((((cfg2.win 5).blk t).view.emb (ix2 p q)) 1) := congrArg (show Row from V c main_v63) h1
  have hA2 : (iblk2 V c 2 t (ix2 (0 : Fin 1) q) : EReal)
      = atR (V c main_v64) ((((cfg2.win 5).blk t).view.emb (ix2 p q)) 1) := congrArg (show Row from V c main_v64) h2
  have hA3 : (iblk2 V c 3 t (ix2 (0 : Fin 1) q) : EReal)
      = atR (V c main_v65) ((((cfg2.win 5).blk t).view.emb (ix2 p q)) 1) := congrArg (show Row from V c main_v65) h3
  have hA4 : (iblk2 V c 4 t (ix2 (0 : Fin 1) q) : EReal)
      = atR (V c main_v66) ((((cfg2.win 5).blk t).view.emb (ix2 p q)) 1) := congrArg (show Row from V c main_v66) h4
  exact congrArg₂ (fun a b : EReal => max a b)
    (congrArg₂ (fun a b : EReal => a + b)
      (congrArg₂ (fun a b : EReal => a * b)
        (congrArg₂ (fun a b : EReal => a * b) (congrArg₂ (fun a b : EReal => a - b) hA0 hA1) hA2) hA3) hA4) rfl

/-- An index of the output array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v67).slice (win2_5.rect t)).set ↔ _
  rw [View.set_slice_whole, Rect.mem_set_unit]
  exact Iff.rfl

/-- Every entry of the output array is in some point's block: row r is in the block of point r / 5000. -/
theorem cover2 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 20 := N_2
  have ht : (i 0).val / 5000 < cfg2.N := by rw [hN]; omega
  obtain ⟨-, -, -, -, -, -, -, -, -, -, e50, e51⟩ := idx_facts2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]; omega

/-- The output array after the region. -/
theorem final2 (c : Dev nD) : (dat2 (F := Ideal) V c).arrAt 5 cfg2.N = bnRelu2 V c :=
  (dat2 (F := Ideal) V c).arrAt_eq_of_cover 5 (bnRelu2 V c) (fun t _ => flushed2_eq V c t) cover2

/-- Region 2: centre, scale by the inverse deviation and by the scale row, shift by the shift row, rectify. -/
theorem reg2 (c : Dev nD) (i : Fin 100000) (j : Fin 128) :
    atM ((dat2 (F := Ideal) V c).arrAt 5 cfg2.N) i j
      = max ((atM (V c main_v49_0) i j - atR (V c main_v63) j) * atR (V c main_v64) j
          * atR (V c main_v65) j + atR (V c main_v66) j) 0 :=
  congrFun (final2 V c) (ix2 i j)

end Cert.KernelIdeal.RegVal

end
-- ==== Proof.KerHost.lean ====
/-
  The two stretches of host operations between the three kernel regions, read entry by entry over the extended reals,
  for ANY contents `X` of the buffers at the stretch's start: the first gathers the source rows of the product by the
  normalised source words, scales each by its edge's normalised weight and scatter-adds them onto a zero table by the
  raw target words; the second turns the column sums and sums of squares into the column mean and the inverse
  deviation, and reshapes these, the scale and the shift into single rows.
-/
import proofs.«147712_j11338713662112_2_alg».proof.Proof.Gen.KernelIdeal.Frame
import proofs.«147712_j11338713662112_2_alg».proof.Proof.Spec
import proofs.«147712_j11338713662112_2_alg».proof.Proof.LibRowIndex
import proofs.«147712_j11338713662112_2_alg».proof.Proof.RegValDefs
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

set_option maxHeartbeats 2000000

namespace Cert.KernelIdeal.KerHost

open Cert.KernelIdeal Cert.KernelIdeal.Gen Idealize.ShloMosaic Idealize.ShloMosaic.TcCoe Idealize.ShloMosaic.ValueIdx

open Cert.KernelIdeal.RegVal (Mat Sq Row Col atM atS atR atC)

/-- Per-edge arrays of extended reals and of words, per-feature arrays, and their entries. -/
abbrev EVec : Type := S1600000.Idx → EReal
abbrev WVec : Type := S1600000.Idx → BitVec 32
abbrev CVec : Type := S128.Idx → EReal
abbrev atE (a : EVec) (e : Fin 1600000) : EReal := a (ix1 e)
abbrev atW (a : WVec) (e : Fin 1600000) : BitVec 32 := a (ix1 e)
abbrev atF (a : CVec) (j : Fin 128) : EReal := a (ix1 j)

/-! ## Broadcasts of a column of words, and of a column along the rows, read at an index -/

/-- An `[N]` array broadcast to `[N, 1]` along axis 0 reads, at `(n, u)`, the operand at `n`. -/
theorem bcast_col_apply {α : Type} {N : ℕ} (h : (⟨1, ![N]⟩ : Shape).BroadcastsInDim ⟨2, ![N, 1]⟩ ![0])
    (x : (⟨1, ![N]⟩ : Shape).Idx → α) (n : Fin N) (u : Fin 1) :
    broadcastInDim ⟨2, ![N, 1]⟩ ![0] h x (ix2 n u) = x (ix1 n) := by
  refine broadcastInDim_apply _ h x _ (ix1 n) fun a => ?_
  match a with
  | ⟨0, _⟩ =>
    show n.val = if N = 1 then 0 else n.val
    split
    · have := n.isLt; omega
    · rfl

/-- An `[N, 1]` array broadcast to `[N, C]` reads, at `(n, c)`, the operand at `(n, 0)`. -/
theorem bcast_row_apply {α : Type} {N C : ℕ} (h : (⟨2, ![N, 1]⟩ : Shape).BroadcastsInDim ⟨2, ![N, C]⟩ ![0, 1])
    (x : (⟨2, ![N, 1]⟩ : Shape).Idx → α) (n : Fin N) (c : Fin C) :
    broadcastInDim ⟨2, ![N, C]⟩ ![0, 1] h x (ix2 n c) = x (ix2 n (0 : Fin 1)) := by
  refine broadcastInDim_apply _ h x _ (ix2 n (0 : Fin 1)) fun a => ?_
  match a with
  | ⟨0, _⟩ =>
    show n.val = if N = 1 then 0 else n.val
    split
    · have := n.isLt; omega
    · rfl
  | ⟨1, _⟩ => rfl

/-! ## The gather, the scaling and the scatter-add, read at an index -/

/-- Rows of `tbl` gathered by the normalised words `rw_`, each scaled by its edge's `nr`, scatter-added onto a zero table
    by the raw words `cw`: at `(i, j)`, the sum over the edges whose `cw` word is `i`. -/
theorem scat_apply (tbl : FVec Ideal S100000x128 .bf16) (cw rw_ : IVec S1600000 32) (nr : FVec Ideal S1600000 .f32)
    (i : Fin 100000) (j : Fin 128) :
    Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 cw)
        (mulf (extf .f32 (Host.gather gather_S100000x128_S1600000x1_S1600000x128_1_0_n_n_0_1_1128 tbl
              (broadcastInDim S1600000x1 ![0] bcast_S1600000_S1600000x1_0
                (select (cmpi .slt rw_ (broadcastInDim S1600000 ![] bcast_S_S1600000 (constantI S_ 32 0#32)))
                  (addi rw_ (broadcastInDim S1600000 ![] bcast_S_S1600000 (constantI S_ 32 100000#32)))
                  rw_))) bitsLt_bf16_f32)
            (broadcastInDim S1600000x128 ![0, 1] bcast_S1600000x1_S1600000x128_0_1
              (broadcastInDim S1600000x1 ![0] bcast_S1600000_S1600000x1_0 nr))) (ix2 i j)
      = ∑ e ∈ Finset.univ.filter (fun e : Fin 1600000 => (cw (ix1 e)).toInt = (i.val : ℤ)),
          tbl (ix2 (Cert.GcnBn.src (rw_ (ix1 e))) j) * nr (ix1 e) := by
  have hwf : ScatterDims.WF ⟨2, ![100000, 128]⟩ ⟨2, ![1600000, 1]⟩ ⟨2, ![1600000, 128]⟩ [1] [0] [0] 1 :=
    scatter_S100000x128_S1600000x1_S1600000x128_1_0_0_1.wf
  have hs : scatter_S100000x128_S1600000x1_S1600000x128_1_0_0_1 = Cert.RowIndex.rowScatter 100000 128 1600000 hwf := rfl
  have hgwf : GatherDims.WF ⟨2, ![100000, 128]⟩ ⟨2, ![1600000, 1]⟩ ⟨2, ![1600000, 128]⟩ [1] [0] [] [0] [] 1 ![1, 128] :=
    gather_S100000x128_S1600000x1_S1600000x128_1_0_n_n_0_1_1128.wf
  have hg : gather_S100000x128_S1600000x1_S1600000x128_1_0_n_n_0_1_1128 = Cert.RowIndex.rowGather 100000 128 1600000 hgwf := rfl
  rw [hs, Cert.RowIndex.rowScatterAdd_apply, broadcastInDim_scalar_apply, constant_apply, Ideal.ofBits_zero_f32, zero_add, hg]
  refine Finset.sum_congr (Finset.filter_congr fun n _ => ?_) fun n _ => ?_
  · rw [bcast_col_apply]
  · rw [mulf_apply, extf_apply, Cert.RowIndex.rowGather_apply (by decide : 0 < 100000), bcast_row_apply, bcast_col_apply,
      bcast_col_apply]
    rfl

/-! ## The stretch between regions 0 and 1, read at an index over any entry contents -/

section H1
variable (X : Valuation τ sig (Elt Ideal))

/-- The scattered messages: at node `i`, the sum over the edges whose target word is `i` of the source node's row of the
    product times the edge's normalised weight. -/
theorem h1_v48 (i : Fin 100000) (j : Fin 128) :
    atM (StableHlo.after (hostOps1 (F := Ideal)) X (Proc.devRef .tc main_v48)) i j
      = ∑ e ∈ Finset.univ.filter (fun e : Fin 1600000 => (atW (X (Proc.devRef .tc main_v3)) e).toInt = (i.val : ℤ)),
          atM (X (Proc.devRef .tc main_v34)) (Cert.GcnBn.src (atW (X (Proc.devRef .tc main_v1)) e)) j
            * atE (X (Proc.devRef .tc main_v31)) e := by
  have e : StableHlo.after (hostOps1 (F := Ideal)) X (Proc.devRef .tc main_v48)
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (X (Proc.devRef .tc main_v3)))
          (mulf (extf .f32 (Host.gather gather_S100000x128_S1600000x1_S1600000x128_1_0_n_n_0_1_1128 (X (Proc.devRef .tc main_v34))
              (broadcastInDim S1600000x1 ![0] bcast_S1600000_S1600000x1_0
                (select (cmpi .slt (X (Proc.devRef .tc main_v1)) (broadcastInDim S1600000 ![] bcast_S_S1600000 (constantI S_ 32 0#32)))
                  (addi (X (Proc.devRef .tc main_v1)) (broadcastInDim S1600000 ![] bcast_S_S1600000 (constantI S_ 32 100000#32)))
                  (X (Proc.devRef .tc main_v1))))) bitsLt_bf16_f32)
            (broadcastInDim S1600000x128 ![0, 1] bcast_S1600000x1_S1600000x128_0_1
              (broadcastInDim S1600000x1 ![0] bcast_S1600000_S1600000x1_0 (X (Proc.devRef .tc main_v31))))) := by
    after_results_simp
  rw [e]
  exact scat_apply _ _ _ _ i j

/-- The product and the self-loop factor are not written by this stretch, nor are the scale and the shift. -/
theorem h1_v34 :
    StableHlo.after (hostOps1 (F := Ideal)) X (Proc.devRef .tc main_v34) = X (Proc.devRef .tc main_v34) := by
  after_results_simp

theorem h1_v33 :
    StableHlo.after (hostOps1 (F := Ideal)) X (Proc.devRef .tc main_v33) = X (Proc.devRef .tc main_v33) := by
  after_results_simp

theorem h1_arg4 :
    StableHlo.after (hostOps1 (F := Ideal)) X (Proc.devRef .tc main_arg4) = X (Proc.devRef .tc main_arg4) := by
  after_results_simp

theorem h1_arg5 :
    StableHlo.after (hostOps1 (F := Ideal)) X (Proc.devRef .tc main_arg5) = X (Proc.devRef .tc main_arg5) := by
  after_results_simp

end H1

/-! ## The stretch between regions 1 and 2, read at an index over any entry contents -/

section H2
variable (X : Valuation τ sig (Elt Ideal))

/-- The column mean: the column sum divided by the node count. -/
theorem h2_v63 (j : Fin 128) :
    atR (StableHlo.after (hostOps2 (F := Ideal)) X (Proc.devRef .tc main_v63)) j
      = Ideal.div (atR (X (Proc.devRef .tc main_v49_1)) j) (Ideal.ofBits .f32 0x47C35000#32) := by
  have e : StableHlo.after (hostOps2 (F := Ideal)) X (Proc.devRef .tc main_v63)
      = shapeCast S1x128 (shapeCast S128 (Host.divf (F := Ideal) (X (Proc.devRef .tc main_v49_1))
          (broadcastInDim S1x128 ![] bcast_S_S1x128 (constant (F := Ideal) S_ .f32 0x47C35000#32))) shapeCasts_S1x128_S128) shapeCasts_S128_S1x128 := by
    after_results; rfl
  rw [e]
  show shapeCast S1x128 _ shapeCasts_S128_S1x128 (ix2 (0 : Fin 1) j) = _
  rw [shapeCast_a_1a_apply, shapeCast_1a_a_apply]
  rfl

/-- The inverse deviation: the inverse square root of the clamped variance plus ε. -/
theorem h2_v64 (j : Fin 128) :
    atR (StableHlo.after (hostOps2 (F := Ideal)) X (Proc.devRef .tc main_v64)) j
      = Ideal.rsqrt (max (Ideal.div (atR (X (Proc.devRef .tc main_v49_2)) j) (Ideal.ofBits .f32 0x47C35000#32)
            - Ideal.div (atR (X (Proc.devRef .tc main_v49_1)) j) (Ideal.ofBits .f32 0x47C35000#32)
              * Ideal.div (atR (X (Proc.devRef .tc main_v49_1)) j) (Ideal.ofBits .f32 0x47C35000#32))
          (Ideal.ofBits .f32 0x00000000#32) + Ideal.ofBits .f32 0x3727C5AC#32) := by
  have e : StableHlo.after (hostOps2 (F := Ideal)) X (Proc.devRef .tc main_v64)
      = shapeCast S1x128 (Host.rsqrt (F := Ideal) (addf (maximumf (subf
          (shapeCast S128 (Host.divf (F := Ideal) (X (Proc.devRef .tc main_v49_2))
            (broadcastInDim S1x128 ![] bcast_S_S1x128 (constant (F := Ideal) S_ .f32 0x47C35000#32))) shapeCasts_S1x128_S128)
          (mulf (shapeCast S128 (Host.divf (F := Ideal) (X (Proc.devRef .tc main_v49_1))
            (broadcastInDim S1x128 ![] bcast_S_S1x128 (constant (F := Ideal) S_ .f32 0x47C35000#32))) shapeCasts_S1x128_S128)
            (shapeCast S128 (Host.divf (F := Ideal) (X (Proc.devRef .tc main_v49_1))
            (broadcastInDim S1x128 ![] bcast_S_S1x128 (constant (F := Ideal) S_ .f32 0x47C35000#32))) shapeCasts_S1x128_S128)))
          (broadcastInDim S128 ![] bcast_S_S128 (constant (F := Ideal) S_ .f32 0x00000000#32)))
          (broadcastInDim S128 ![] bcast_S_S128 (constant (F := Ideal) S_ .f32 0x3727C5AC#32)))) shapeCasts_S128_S1x128 := by
    after_results; rfl
  rw [e]
  show shapeCast S1x128 _ shapeCasts_S128_S1x128 (ix2 (0 : Fin 1) j) = _
  rw [shapeCast_a_1a_apply]
  show Ideal.rsqrt (max (shapeCast S128 _ shapeCasts_S1x128_S128 (ix1 j)
      - shapeCast S128 _ shapeCasts_S1x128_S128 (ix1 j) * shapeCast S128 _ shapeCasts_S1x128_S128 (ix1 j)) _ + _) = _
  rw [shapeCast_1a_a_apply, shapeCast_1a_a_apply]
  rfl

/-- The scale, as one row. -/
theorem h2_v65 (j : Fin 128) :
    atR (StableHlo.after (hostOps2 (F := Ideal)) X (Proc.devRef .tc main_v65)) j
      = atF (X (Proc.devRef .tc main_arg4)) j := by
  have e : StableHlo.after (hostOps2 (F := Ideal)) X (Proc.devRef .tc main_v65)
      = shapeCast S1x128 (X (Proc.devRef .tc main_arg4)) shapeCasts_S128_S1x128 := by
    after_results; rfl
  rw [e]
  exact shapeCast_a_1a_apply _ _ _ j

/-- The shift, as one row. -/
theorem h2_v66 (j : Fin 128) :
    atR (StableHlo.after (hostOps2 (F := Ideal)) X (Proc.devRef .tc main_v66)) j
      = atF (X (Proc.devRef .tc main_arg5)) j := by
  have e : StableHlo.after (hostOps2 (F := Ideal)) X (Proc.devRef .tc main_v66)
      = shapeCast S1x128 (X (Proc.devRef .tc main_arg5)) shapeCasts_S128_S1x128 := by
    after_results; rfl
  rw [e]
  exact shapeCast_a_1a_apply _ _ _ j

/-- The aggregate is not written by this stretch. -/
theorem h2_v49_0 :
    StableHlo.after (hostOps2 (F := Ideal)) X (Proc.devRef .tc main_v49_0) = X (Proc.devRef .tc main_v49_0) := by
  after_results

end H2

end Cert.KernelIdeal.KerHost

end
-- ==== Proof.KerPrefix.lean ====
/-
  What the first kernel region finds in its buffers: the operations that run before it, read entry by entry over the
  extended reals. They cut the edge index into the source words and the target words; scatter-add the edge weights by
  the raw target words onto a zero table and add one (the weighted in-degree with the self-loop); take the inverse
  square root where the degree is positive and zero elsewhere (two guarded selections: the inner one only keeps the
  root's argument positive); read that table at the normalised source and target words and multiply the three factors
  (the normalised edge weight); and square the table into a column (the self-loop's factor).

  Each stretch of operations is read over ANY contents `X` of the buffers at its start; the stretches are then
  chained from the launch contents.
-/
import proofs.«147712_j11338713662112_2_alg».proof.Proof.Gen.KernelIdeal.Frame
import proofs.«147712_j11338713662112_2_alg».proof.Proof.Spec
import proofs.«147712_j11338713662112_2_alg».proof.Proof.ArgRead
import proofs.«147712_j11338713662112_2_alg».proof.Proof.LibRowIndex
import proofs.«147712_j11338713662112_2_alg».proof.Proof.LibFlatGather
import proofs.«147712_j11338713662112_2_alg».proof.Proof.LibTypedRefs
import proofs.«147712_j11338713662112_2_alg».proof.Proof.RegValDefs
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

set_option maxHeartbeats 2000000

namespace Cert.KernelIdeal.KerPrefix

open Cert.KernelIdeal Cert.KernelIdeal.Gen Idealize.ShloMosaic Idealize.ShloMosaic.TcCoe Idealize.ShloMosaic.ValueIdx

open Cert.KernelIdeal.RegVal (Col atC)

/-- Per-edge arrays of extended reals and of words, per-node arrays, the edge index, and their entries. -/
abbrev EVec : Type := S1600000.Idx → EReal
abbrev WVec : Type := S1600000.Idx → BitVec 32
abbrev NVec : Type := S100000.Idx → EReal
abbrev BVec : Type := S100000.Idx → BitVec 1
abbrev EIdx : Type := S2x1600000.Idx → BitVec 32
abbrev atE (a : EVec) (e : Fin 1600000) : EReal := a (ix1 e)
abbrev atW (a : WVec) (e : Fin 1600000) : BitVec 32 := a (ix1 e)
abbrev atN (a : NVec) (i : Fin 100000) : EReal := a (ix1 i)
abbrev atB (a : BVec) (i : Fin 100000) : BitVec 1 := a (ix1 i)
abbrev at0 (a : S_.Idx → EReal) : EReal := a ix0

/-- An `[N]` array broadcast to `[N, 1]` along axis 0 reads, at `(n, u)`, the operand at `n`. -/
theorem bcast_col_apply {α : Type} {N : ℕ} (h : (⟨1, ![N]⟩ : Shape).BroadcastsInDim ⟨2, ![N, 1]⟩ ![0])
    (x : (⟨1, ![N]⟩ : Shape).Idx → α) (n : Fin N) (u : Fin 1) :
    broadcastInDim ⟨2, ![N, 1]⟩ ![0] h x (ix2 n u) = x (ix1 n) := by
  refine broadcastInDim_apply _ h x _ (ix1 n) fun a => ?_
  match a with
  | ⟨0, _⟩ =>
    show n.val = if N = 1 then 0 else n.val
    split
    · have := n.isLt; omega
    · rfl

/-- Row `r` of a `[2, E]` array, cut out and flattened, reads at `e` the array at `(r, e)`. -/
theorem slice_row_apply {α : Type} (r : Fin 2) (x : S2x1600000.Idx → α)
    (hs : S2x1600000.Slices ![r.val, 0] S1x1600000) (hc : S1x1600000.ShapeCasts S1600000) (e : Fin 1600000) :
    shapeCast S1600000 (extractStridedSlice S1x1600000 ![r.val, 0] x hs) hc (ix1 e) = x (ix2 r e) := by
  refine (shapeCast_1a_a_apply _ hc e).trans ?_
  refine extractStridedSlice_apply _ x hs _ (ix2 r e) fun a => ?_
  match a with
  | ⟨0, _⟩ => exact (Nat.add_zero _).symm
  | ⟨1, _⟩ => exact (Nat.zero_add _).symm

/-! ## The degree, the guarded inverse root, and the gathers, read at an index -/

/-- The edge weights scatter-added by the raw words `cw` onto a zero table, plus one: the weighted in-degree. -/
theorem deg_apply (cw : IVec S1600000 32) (wt : FVec Ideal S1600000 .f32) (i : Fin 100000) :
    addf (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 cw) wt)
        (broadcastInDim S100000 ![] bcast_S_S100000 (constant (F := Ideal) S_ .f32 0x3F800000#32)) (ix1 i)
      = Cert.GcnBn.deg (fun e => cw (ix1 e)) (fun e => wt (ix1 e)) i := by
  have hwf : ScatterDims.WF ⟨1, ![100000]⟩ ⟨2, ![1600000, 1]⟩ ⟨1, ![1600000]⟩ [] [0] [0] 1 :=
    scatter_S100000_S1600000x1_S1600000_n_0_0_1.wf
  have hs : scatter_S100000_S1600000x1_S1600000_n_0_0_1 = Cert.RowIndex.flatScatter 100000 1600000 hwf := rfl
  rw [addf_apply, hs, Cert.RowIndex.flatScatterAdd_apply, broadcastInDim_scalar_apply, constant_apply, Ideal.ofBits_zero_f32,
    zero_add, broadcastInDim_scalar_apply, constant_apply, Cert.GcnBn.one_f32]
  show _ = (∑ e ∈ Finset.univ.filter (fun e : Fin 1600000 => (cw (ix1 e)).toInt = (i.val : ℤ)), wt (ix1 e)) + 1
  refine congrArg (· + (1 : EReal)) ?_
  refine Finset.sum_congr (Finset.filter_congr fun n _ => ?_) fun n _ => rfl
  rw [bcast_col_apply]

/-- "Greater than the zero table", at an entry. -/
theorem pos_apply (d : FVec Ideal S100000 .f32) (i : Fin 100000) :
    cmpf .ogt d (broadcastInDim S100000 ![] bcast_S_S100000 (constant (F := Ideal) S_ .f32 0x00000000#32)) (ix1 i)
      = BitVec.ofBool (decide (0 < d (ix1 i))) := by
  rw [cmpf_apply, broadcastInDim_scalar_apply, constant_apply, Ideal.ofBits_zero_f32]
  rfl

/-- A selection by a decided bit is an `if`. -/
theorem select_ofBool {α : Type} (p : Prop) [Decidable p] (a b : α) :
    Scalar.select (BitVec.ofBool (decide p)) a b = if p then a else b := by
  unfold Scalar.select
  by_cases h : p
  · simp [h]
  · simp [h]

/-- The table `t` read at the normalised words of `w`. -/
theorem gather_apply (t : FVec Ideal S100000 .f32) (w : IVec S1600000 32) (e : Fin 1600000) :
    Host.gather gather_S100000_S1600000x1_S1600000_n_0_n_n_0_1_1 t
        (broadcastInDim S1600000x1 ![0] bcast_S1600000_S1600000x1_0
          (select (cmpi .slt w (broadcastInDim S1600000 ![] bcast_S_S1600000 (constantI S_ 32 0#32)))
            (addi w (broadcastInDim S1600000 ![] bcast_S_S1600000 (constantI S_ 32 100000#32))) w)) (ix1 e)
      = t (ix1 (Cert.GcnBn.src (w (ix1 e)))) := by
  have hgwf : GatherDims.WF ⟨1, ![100000]⟩ ⟨2, ![1600000, 1]⟩ ⟨1, ![1600000]⟩ [] [0] [] [0] [] 1 ![1] :=
    gather_S100000_S1600000x1_S1600000_n_0_n_n_0_1_1.wf
  have hg : gather_S100000_S1600000x1_S1600000_n_0_n_n_0_1_1 = Cert.RowIndex.flatGather 100000 1600000 hgwf := rfl
  rw [hg, Cert.RowIndex.flatGather_apply (by decide : 0 < 100000), bcast_col_apply]
  rfl

/-- The target words as the first stretch cuts them out of the edge index, and the degree table it computes. -/
abbrev colArr (EI : EIdx) : IVec S1600000 32 :=
  shapeCast S1600000 (extractStridedSlice S1x1600000 ![1, 0] EI slices_S2x1600000_S1x1600000_1_0) shapeCasts_S1x1600000_S1600000
abbrev degArr (cw : IVec S1600000 32) (wt : FVec Ideal S1600000 .f32) : FVec Ideal S100000 .f32 :=
  addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 cw) wt)
    (broadcastInDim S100000 ![] bcast_S_S100000 (constant (F := Ideal) S_ .f32 0x3F800000#32))

theorem degArr_apply (EI : EIdx) (wt : FVec Ideal S1600000 .f32) (i : Fin 100000) :
    degArr (colArr EI) wt (ix1 i) = Cert.GcnBn.deg (Cert.GcnBn.colOf EI) (Cert.GcnBn.vecOf wt) i := by
  refine (deg_apply _ _ i).trans ?_
  have hc : (fun e : Fin 1600000 => colArr EI (ix1 e)) = Cert.GcnBn.colOf EI :=
    funext fun e => slice_row_apply (1 : Fin 2) EI _ _ e
  rw [hc]

/-! ## The first stretch: the words, the degree, the positivity bit -/

section H0
variable (X : Valuation τ sig (Elt Ideal))

/-- The source words. -/
theorem h0_v1 (e : Fin 1600000) :
    atW (StableHlo.after (hostOps0 (F := Ideal)) X (Proc.devRef .tc main_v1)) e
      = Cert.GcnBn.rowOf (X (Proc.devRef .tc main_arg1)) e := by
  have h : StableHlo.after (hostOps0 (F := Ideal)) X (Proc.devRef .tc main_v1)
      = shapeCast S1600000 (extractStridedSlice S1x1600000 ![0, 0] (X (Proc.devRef .tc main_arg1) : EIdx)
          slices_S2x1600000_S1x1600000_0_0) shapeCasts_S1x1600000_S1600000 := by
    after_results; rfl
  rw [h]
  exact slice_row_apply (0 : Fin 2) _ _ _ e

/-- The target words. -/
theorem h0_v3 (e : Fin 1600000) :
    atW (StableHlo.after (hostOps0 (F := Ideal)) X (Proc.devRef .tc main_v3)) e
      = Cert.GcnBn.colOf (X (Proc.devRef .tc main_arg1)) e := by
  have h : StableHlo.after (hostOps0 (F := Ideal)) X (Proc.devRef .tc main_v3)
      = shapeCast S1600000 (extractStridedSlice S1x1600000 ![1, 0] (X (Proc.devRef .tc main_arg1) : EIdx)
          slices_S2x1600000_S1x1600000_1_0) shapeCasts_S1x1600000_S1600000 := by
    after_results; rfl
  rw [h]
  exact slice_row_apply (1 : Fin 2) _ _ _ e

theorem h0_arg0 : StableHlo.after (hostOps0 (F := Ideal)) X (Proc.devRef .tc main_arg0) = X (Proc.devRef .tc main_arg0) := by
  after_results_simp
theorem h0_arg1 : StableHlo.after (hostOps0 (F := Ideal)) X (Proc.devRef .tc main_arg1) = X (Proc.devRef .tc main_arg1) := by
  after_results_simp
theorem h0_arg2 : StableHlo.after (hostOps0 (F := Ideal)) X (Proc.devRef .tc main_arg2) = X (Proc.devRef .tc main_arg2) := by
  after_results_simp
theorem h0_arg3 : StableHlo.after (hostOps0 (F := Ideal)) X (Proc.devRef .tc main_arg3) = X (Proc.devRef .tc main_arg3) := by
  after_results_simp
theorem h0_arg4 : StableHlo.after (hostOps0 (F := Ideal)) X (Proc.devRef .tc main_arg4) = X (Proc.devRef .tc main_arg4) := by
  after_results_simp
theorem h0_arg5 : StableHlo.after (hostOps0 (F := Ideal)) X (Proc.devRef .tc main_arg5) = X (Proc.devRef .tc main_arg5) := by
  after_results_simp

/-- The weighted in-degree, the self-loop counted. -/
theorem h0_v8 (i : Fin 100000) :
    atN (StableHlo.after (hostOps0 (F := Ideal)) X (Proc.devRef .tc main_v8)) i
      = Cert.GcnBn.deg (Cert.GcnBn.colOf (X (Proc.devRef .tc main_arg1))) (Cert.GcnBn.vecOf (X (Proc.devRef .tc main_arg2))) i := by
  have h : StableHlo.after (hostOps0 (F := Ideal)) X (Proc.devRef .tc main_v8)
      = degArr (colArr (X (Proc.devRef .tc main_arg1))) (X (Proc.devRef .tc main_arg2)) := by
    after_results; rfl
  rw [h]
  exact degArr_apply _ _ i

/-- Whether the degree is positive. -/
theorem h0_v10 (i : Fin 100000) :
    atB (StableHlo.after (hostOps0 (F := Ideal)) X (Proc.devRef .tc main_v10)) i
      = BitVec.ofBool (decide (0 < Cert.GcnBn.deg (Cert.GcnBn.colOf (X (Proc.devRef .tc main_arg1)))
          (Cert.GcnBn.vecOf (X (Proc.devRef .tc main_arg2))) i)) := by
  have h : StableHlo.after (hostOps0 (F := Ideal)) X (Proc.devRef .tc main_v10)
      = cmpf .ogt (degArr (colArr (X (Proc.devRef .tc main_arg1))) (X (Proc.devRef .tc main_arg2)))
          (broadcastInDim S100000 ![] bcast_S_S100000 (constant (F := Ideal) S_ .f32 0x00000000#32)) := by
    after_results; rfl
  rw [h]
  refine (pos_apply _ i).trans ?_
  rw [degArr_apply]

/-- The constant one the first guarded selection falls back to. -/
theorem h0_cst2 :
    at0 (StableHlo.after (hostOps0 (F := Ideal)) X (Proc.devRef .tc main_cst_2)) = 1 := by
  have h : StableHlo.after (hostOps0 (F := Ideal)) X (Proc.devRef .tc main_cst_2)
      = constant (F := Ideal) S_ .f32 0x3F800000#32 := by
    after_results
  rw [h]
  exact Cert.GcnBn.one_f32

end H0

/-! ## The guarded inverse root: two outlined selections around the root -/

section H123
variable (X : Valuation τ sig (Elt Ideal))

/-- The root's argument: the degree where the bit is set, the fallback elsewhere. -/
theorem h1_v11 (i : Fin 100000) :
    atN (StableHlo.after (hostOps0_1 (F := Ideal)) X (Proc.devRef .tc main_v11)) i
      = Scalar.select (atB (X (Proc.devRef .tc main_v10)) i) (atN (X (Proc.devRef .tc main_v8)) i)
          (at0 (X (Proc.devRef .tc main_cst_2))) := by
  have h : StableHlo.after (hostOps0_1 (F := Ideal)) X (Proc.devRef .tc main_v11)
      = (select (X (Proc.devRef .tc main_v10) : IVec S100000 1) (X (Proc.devRef .tc main_v8) : FVec Ideal S100000 .f32)
          (broadcastInDim S100000 ![] bcast_S_S100000 (X (Proc.devRef .tc main_cst_2) : FVec Ideal S_ .f32)) : FVec Ideal S100000 .f32) := by
    after_results
    simp only [Cert.Lib.TypedRefs.ofBuf_toBuf]
    rfl
  rw [h]
  show Scalar.select _ _ (broadcastInDim S100000 ![] bcast_S_S100000 (X (Proc.devRef .tc main_cst_2) : FVec Ideal S_ .f32) (ix1 i)) = _
  rw [broadcastInDim_scalar_apply]

/-- Whether the degree is positive, again. -/
theorem h2_v13 (i : Fin 100000) :
    atB (StableHlo.after (hostOps0_2 (F := Ideal)) X (Proc.devRef .tc main_v13)) i
      = BitVec.ofBool (decide (0 < atN (X (Proc.devRef .tc main_v8)) i)) := by
  have h : StableHlo.after (hostOps0_2 (F := Ideal)) X (Proc.devRef .tc main_v13)
      = (cmpf .ogt (X (Proc.devRef .tc main_v8) : FVec Ideal S100000 .f32)
          (broadcastInDim S100000 ![] bcast_S_S100000 (constant (F := Ideal) S_ .f32 0x00000000#32)) : IVec S100000 1) := by
    after_results
  rw [h]
  exact pos_apply _ i

/-- The inverse square root of the guarded argument. -/
theorem h2_v14 (i : Fin 100000) :
    atN (StableHlo.after (hostOps0_2 (F := Ideal)) X (Proc.devRef .tc main_v14)) i
      = Ideal.rsqrt (atN (X (Proc.devRef .tc main_v11)) i) := by
  have h : StableHlo.after (hostOps0_2 (F := Ideal)) X (Proc.devRef .tc main_v14)
      = (Host.rsqrt (F := Ideal) (X (Proc.devRef .tc main_v11) : FVec Ideal S100000 .f32) : FVec Ideal S100000 .f32) := by
    after_results
  rw [h]
  rfl

/-- The constant zero the second guarded selection falls back to. -/
theorem h2_cst4 :
    at0 (StableHlo.after (hostOps0_2 (F := Ideal)) X (Proc.devRef .tc main_cst_4)) = 0 := by
  have h : StableHlo.after (hostOps0_2 (F := Ideal)) X (Proc.devRef .tc main_cst_4)
      = constant (F := Ideal) S_ .f32 0x00000000#32 := by
    after_results
  rw [h]
  exact Ideal.ofBits_zero_f32

/-- The inverse root where the bit is set, the fallback elsewhere. -/
theorem h3_v15 (i : Fin 100000) :
    atN (StableHlo.after (hostOps0_3 (F := Ideal)) X (Proc.devRef .tc main_v15)) i
      = Scalar.select (atB (X (Proc.devRef .tc main_v13)) i) (atN (X (Proc.devRef .tc main_v14)) i)
          (at0 (X (Proc.devRef .tc main_cst_4))) := by
  have h : StableHlo.after (hostOps0_3 (F := Ideal)) X (Proc.devRef .tc main_v15)
      = (select (X (Proc.devRef .tc main_v13) : IVec S100000 1) (X (Proc.devRef .tc main_v14) : FVec Ideal S100000 .f32)
          (broadcastInDim S100000 ![] bcast_S_S100000 (X (Proc.devRef .tc main_cst_4) : FVec Ideal S_ .f32)) : FVec Ideal S100000 .f32) := by
    after_results
    simp only [Cert.Lib.TypedRefs.ofBuf_toBuf]
    rfl
  rw [h]
  show Scalar.select _ _ (broadcastInDim S100000 ![] bcast_S_S100000 (X (Proc.devRef .tc main_cst_4) : FVec Ideal S_ .f32) (ix1 i)) = _
  rw [broadcastInDim_scalar_apply]

end H123

/-! ## The last stretch: the normalised weight and the self-loop factor -/

section H4
variable (X : Valuation τ sig (Elt Ideal))

/-- The normalised weight of edge `e`: the table at the source node, times the weight, times the table at the target node. -/
theorem h4_v31 (e : Fin 1600000) :
    atE (StableHlo.after (hostOps0_4 (F := Ideal)) X (Proc.devRef .tc main_v31)) e
      = atN (X (Proc.devRef .tc main_v15)) (Cert.GcnBn.src (atW (X (Proc.devRef .tc main_v1)) e))
          * atE (X (Proc.devRef .tc main_arg2)) e
          * atN (X (Proc.devRef .tc main_v15)) (Cert.GcnBn.src (atW (X (Proc.devRef .tc main_v3)) e)) := by
  have h : StableHlo.after (hostOps0_4 (F := Ideal)) X (Proc.devRef .tc main_v31)
      = (mulf (mulf (Host.gather gather_S100000_S1600000x1_S1600000_n_0_n_n_0_1_1 (X (Proc.devRef .tc main_v15) : FVec Ideal S100000 .f32)
            (broadcastInDim S1600000x1 ![0] bcast_S1600000_S1600000x1_0
              (select (cmpi .slt (X (Proc.devRef .tc main_v1) : IVec S1600000 32) (broadcastInDim S1600000 ![] bcast_S_S1600000 (constantI S_ 32 0#32)))
                (addi (X (Proc.devRef .tc main_v1) : IVec S1600000 32) (broadcastInDim S1600000 ![] bcast_S_S1600000 (constantI S_ 32 100000#32)))
                (X (Proc.devRef .tc main_v1) : IVec S1600000 32))))
          (X (Proc.devRef .tc main_arg2) : FVec Ideal S1600000 .f32))
        (Host.gather gather_S100000_S1600000x1_S1600000_n_0_n_n_0_1_1 (X (Proc.devRef .tc main_v15) : FVec Ideal S100000 .f32)
            (broadcastInDim S1600000x1 ![0] bcast_S1600000_S1600000x1_0
              (select (cmpi .slt (X (Proc.devRef .tc main_v3) : IVec S1600000 32) (broadcastInDim S1600000 ![] bcast_S_S1600000 (constantI S_ 32 0#32)))
                (addi (X (Proc.devRef .tc main_v3) : IVec S1600000 32) (broadcastInDim S1600000 ![] bcast_S_S1600000 (constantI S_ 32 100000#32)))
                (X (Proc.devRef .tc main_v3) : IVec S1600000 32)))) : FVec Ideal S1600000 .f32) := by
    after_results_simp
  rw [h]
  show (_ * _ : EReal) * _ = _
  rw [gather_apply, gather_apply]

/-- The self-loop factor: the table squared, as a column. -/
theorem h4_v33 (i : Fin 100000) :
    atC (StableHlo.after (hostOps0_4 (F := Ideal)) X (Proc.devRef .tc main_v33)) i
      = atN (X (Proc.devRef .tc main_v15)) i * atN (X (Proc.devRef .tc main_v15)) i := by
  have h : StableHlo.after (hostOps0_4 (F := Ideal)) X (Proc.devRef .tc main_v33)
      = (shapeCast S100000x1 (mulf (X (Proc.devRef .tc main_v15) : FVec Ideal S100000 .f32) (X (Proc.devRef .tc main_v15) : FVec Ideal S100000 .f32)) shapeCasts_S100000_S100000x1
          : FVec Ideal S100000x1 .f32) := by
    after_results_simp
    rfl
  rw [h]
  refine (shapeCast_apply _ shapeCasts_S100000_S100000x1 (ix2 i (0 : Fin 1)) (ix1 i) ?_).trans ?_
  · rw [Shape.rowMajor_val_one, Shape.rowMajor_val_two]
    show i.val = i.val * 1 + 0
    omega
  · rfl

end H4

/-! ## What the later stretches leave alone -/

section Pass
variable (X : Valuation τ sig (Elt Ideal))

theorem h1_arg0 : StableHlo.after (hostOps0_1 (F := Ideal)) X (Proc.devRef .tc main_arg0) = X (Proc.devRef .tc main_arg0) := by
  after_results_simp
theorem h1_arg1 : StableHlo.after (hostOps0_1 (F := Ideal)) X (Proc.devRef .tc main_arg1) = X (Proc.devRef .tc main_arg1) := by
  after_results_simp
theorem h1_arg2 : StableHlo.after (hostOps0_1 (F := Ideal)) X (Proc.devRef .tc main_arg2) = X (Proc.devRef .tc main_arg2) := by
  after_results_simp
theorem h1_arg3 : StableHlo.after (hostOps0_1 (F := Ideal)) X (Proc.devRef .tc main_arg3) = X (Proc.devRef .tc main_arg3) := by
  after_results_simp
theorem h1_arg4 : StableHlo.after (hostOps0_1 (F := Ideal)) X (Proc.devRef .tc main_arg4) = X (Proc.devRef .tc main_arg4) := by
  after_results_simp
theorem h1_arg5 : StableHlo.after (hostOps0_1 (F := Ideal)) X (Proc.devRef .tc main_arg5) = X (Proc.devRef .tc main_arg5) := by
  after_results_simp
theorem h1_v1 : StableHlo.after (hostOps0_1 (F := Ideal)) X (Proc.devRef .tc main_v1) = X (Proc.devRef .tc main_v1) := by
  after_results_simp
theorem h1_v3 : StableHlo.after (hostOps0_1 (F := Ideal)) X (Proc.devRef .tc main_v3) = X (Proc.devRef .tc main_v3) := by
  after_results_simp
theorem h1_v8 : StableHlo.after (hostOps0_1 (F := Ideal)) X (Proc.devRef .tc main_v8) = X (Proc.devRef .tc main_v8) := by
  after_results_simp
theorem h2_arg0 : StableHlo.after (hostOps0_2 (F := Ideal)) X (Proc.devRef .tc main_arg0) = X (Proc.devRef .tc main_arg0) := by
  after_results_simp
theorem h2_arg1 : StableHlo.after (hostOps0_2 (F := Ideal)) X (Proc.devRef .tc main_arg1) = X (Proc.devRef .tc main_arg1) := by
  after_results_simp
theorem h2_arg2 : StableHlo.after (hostOps0_2 (F := Ideal)) X (Proc.devRef .tc main_arg2) = X (Proc.devRef .tc main_arg2) := by
  after_results_simp
theorem h2_arg3 : StableHlo.after (hostOps0_2 (F := Ideal)) X (Proc.devRef .tc main_arg3) = X (Proc.devRef .tc main_arg3) := by
  after_results_simp
theorem h2_arg4 : StableHlo.after (hostOps0_2 (F := Ideal)) X (Proc.devRef .tc main_arg4) = X (Proc.devRef .tc main_arg4) := by
  after_results_simp
theorem h2_arg5 : StableHlo.after (hostOps0_2 (F := Ideal)) X (Proc.devRef .tc main_arg5) = X (Proc.devRef .tc main_arg5) := by
  after_results_simp
theorem h2_v1 : StableHlo.after (hostOps0_2 (F := Ideal)) X (Proc.devRef .tc main_v1) = X (Proc.devRef .tc main_v1) := by
  after_results_simp
theorem h2_v3 : StableHlo.after (hostOps0_2 (F := Ideal)) X (Proc.devRef .tc main_v3) = X (Proc.devRef .tc main_v3) := by
  after_results_simp
theorem h3_arg0 : StableHlo.after (hostOps0_3 (F := Ideal)) X (Proc.devRef .tc main_arg0) = X (Proc.devRef .tc main_arg0) := by
  after_results_simp
theorem h3_arg1 : StableHlo.after (hostOps0_3 (F := Ideal)) X (Proc.devRef .tc main_arg1) = X (Proc.devRef .tc main_arg1) := by
  after_results_simp
theorem h3_arg2 : StableHlo.after (hostOps0_3 (F := Ideal)) X (Proc.devRef .tc main_arg2) = X (Proc.devRef .tc main_arg2) := by
  after_results_simp
theorem h3_arg3 : StableHlo.after (hostOps0_3 (F := Ideal)) X (Proc.devRef .tc main_arg3) = X (Proc.devRef .tc main_arg3) := by
  after_results_simp
theorem h3_arg4 : StableHlo.after (hostOps0_3 (F := Ideal)) X (Proc.devRef .tc main_arg4) = X (Proc.devRef .tc main_arg4) := by
  after_results_simp
theorem h3_arg5 : StableHlo.after (hostOps0_3 (F := Ideal)) X (Proc.devRef .tc main_arg5) = X (Proc.devRef .tc main_arg5) := by
  after_results_simp
theorem h3_v1 : StableHlo.after (hostOps0_3 (F := Ideal)) X (Proc.devRef .tc main_v1) = X (Proc.devRef .tc main_v1) := by
  after_results_simp
theorem h3_v3 : StableHlo.after (hostOps0_3 (F := Ideal)) X (Proc.devRef .tc main_v3) = X (Proc.devRef .tc main_v3) := by
  after_results_simp
theorem h4_arg0 : StableHlo.after (hostOps0_4 (F := Ideal)) X (Proc.devRef .tc main_arg0) = X (Proc.devRef .tc main_arg0) := by
  after_results_simp
theorem h4_arg1 : StableHlo.after (hostOps0_4 (F := Ideal)) X (Proc.devRef .tc main_arg1) = X (Proc.devRef .tc main_arg1) := by
  after_results_simp
theorem h4_arg2 : StableHlo.after (hostOps0_4 (F := Ideal)) X (Proc.devRef .tc main_arg2) = X (Proc.devRef .tc main_arg2) := by
  after_results_simp
theorem h4_arg3 : StableHlo.after (hostOps0_4 (F := Ideal)) X (Proc.devRef .tc main_arg3) = X (Proc.devRef .tc main_arg3) := by
  after_results_simp
theorem h4_arg4 : StableHlo.after (hostOps0_4 (F := Ideal)) X (Proc.devRef .tc main_arg4) = X (Proc.devRef .tc main_arg4) := by
  after_results_simp
theorem h4_arg5 : StableHlo.after (hostOps0_4 (F := Ideal)) X (Proc.devRef .tc main_arg5) = X (Proc.devRef .tc main_arg5) := by
  after_results_simp
theorem h4_v1 : StableHlo.after (hostOps0_4 (F := Ideal)) X (Proc.devRef .tc main_v1) = X (Proc.devRef .tc main_v1) := by
  after_results_simp
theorem h4_v3 : StableHlo.after (hostOps0_4 (F := Ideal)) X (Proc.devRef .tc main_v3) = X (Proc.devRef .tc main_v3) := by
  after_results_simp

end Pass

/-! ## Chained from the launch contents -/

section Final
variable (m : (ℓ : Loc nD τ sig) → Buf (Elt Ideal) ℓ) (ρ : Dev nD → PrngReg) (c : Dev nD)

theorem arg0 : Gen.W5 m ρ c (Proc.devRef .tc main_arg0) = m ((c.tc : Thread nD τ).loc main_arg0) :=
  (h4_arg0 _).trans ((h3_arg0 _).trans ((h2_arg0 _).trans ((h1_arg0 _).trans (h0_arg0 _))))
theorem arg1 : Gen.W5 m ρ c (Proc.devRef .tc main_arg1) = m ((c.tc : Thread nD τ).loc main_arg1) :=
  (h4_arg1 _).trans ((h3_arg1 _).trans ((h2_arg1 _).trans ((h1_arg1 _).trans (h0_arg1 _))))
theorem arg2 : Gen.W5 m ρ c (Proc.devRef .tc main_arg2) = m ((c.tc : Thread nD τ).loc main_arg2) :=
  (h4_arg2 _).trans ((h3_arg2 _).trans ((h2_arg2 _).trans ((h1_arg2 _).trans (h0_arg2 _))))
theorem arg3 : Gen.W5 m ρ c (Proc.devRef .tc main_arg3) = m ((c.tc : Thread nD τ).loc main_arg3) :=
  (h4_arg3 _).trans ((h3_arg3 _).trans ((h2_arg3 _).trans ((h1_arg3 _).trans (h0_arg3 _))))
theorem arg4 : Gen.W5 m ρ c (Proc.devRef .tc main_arg4) = m ((c.tc : Thread nD τ).loc main_arg4) :=
  (h4_arg4 _).trans ((h3_arg4 _).trans ((h2_arg4 _).trans ((h1_arg4 _).trans (h0_arg4 _))))
theorem arg5 : Gen.W5 m ρ c (Proc.devRef .tc main_arg5) = m ((c.tc : Thread nD τ).loc main_arg5) :=
  (h4_arg5 _).trans ((h3_arg5 _).trans ((h2_arg5 _).trans ((h1_arg5 _).trans (h0_arg5 _))))

/-- The source words at the region's entry. -/
theorem v1 (e : Fin 1600000) :
    atW (Gen.W5 m ρ c (Proc.devRef .tc main_v1)) e = Cert.GcnBn.rowOf (m ((c.tc : Thread nD τ).loc main_arg1)) e := by
  have h : Gen.W5 m ρ c (Proc.devRef .tc main_v1) = Gen.W1 m ρ c (Proc.devRef .tc main_v1) :=
    (h4_v1 _).trans ((h3_v1 _).trans ((h2_v1 _).trans (h1_v1 _)))
  rw [h]
  exact h0_v1 _ e

/-- The target words at the region's entry. -/
theorem v3 (e : Fin 1600000) :
    atW (Gen.W5 m ρ c (Proc.devRef .tc main_v3)) e = Cert.GcnBn.colOf (m ((c.tc : Thread nD τ).loc main_arg1)) e := by
  have h : Gen.W5 m ρ c (Proc.devRef .tc main_v3) = Gen.W1 m ρ c (Proc.devRef .tc main_v3) :=
    (h4_v3 _).trans ((h3_v3 _).trans ((h2_v3 _).trans (h1_v3 _)))
  rw [h]
  exact h0_v3 _ e

/-! ### After the first stretch -/

theorem w1_v8 (i : Fin 100000) :
    atN (Gen.W1 m ρ c (Proc.devRef .tc main_v8)) i = Cert.GcnBn.deg (Cert.GcnBn.colOf (m ((c.tc : Thread nD τ).loc main_arg1))) (Cert.GcnBn.vecOf (m ((c.tc : Thread nD τ).loc main_arg2))) i := h0_v8 _ i
theorem w1_v10 (i : Fin 100000) :
    atB (Gen.W1 m ρ c (Proc.devRef .tc main_v10)) i = BitVec.ofBool (decide (0 < Cert.GcnBn.deg (Cert.GcnBn.colOf (m ((c.tc : Thread nD τ).loc main_arg1))) (Cert.GcnBn.vecOf (m ((c.tc : Thread nD τ).loc main_arg2))) i)) := h0_v10 _ i
theorem w1_cst2 : at0 (Gen.W1 m ρ c (Proc.devRef .tc main_cst_2)) = 1 := h0_cst2 _

/-! ### After the first selection -/

theorem w2_v8 (i : Fin 100000) :
    atN (Gen.W2 m ρ c (Proc.devRef .tc main_v8)) i = Cert.GcnBn.deg (Cert.GcnBn.colOf (m ((c.tc : Thread nD τ).loc main_arg1))) (Cert.GcnBn.vecOf (m ((c.tc : Thread nD τ).loc main_arg2))) i := by
  have h : Gen.W2 m ρ c (Proc.devRef .tc main_v8) = Gen.W1 m ρ c (Proc.devRef .tc main_v8) := h1_v8 _
  rw [h]
  exact w1_v8 m ρ c i
theorem w2_v11 (i : Fin 100000) :
    atN (Gen.W2 m ρ c (Proc.devRef .tc main_v11)) i = if 0 < Cert.GcnBn.deg (Cert.GcnBn.colOf (m ((c.tc : Thread nD τ).loc main_arg1))) (Cert.GcnBn.vecOf (m ((c.tc : Thread nD τ).loc main_arg2))) i then Cert.GcnBn.deg (Cert.GcnBn.colOf (m ((c.tc : Thread nD τ).loc main_arg1))) (Cert.GcnBn.vecOf (m ((c.tc : Thread nD τ).loc main_arg2))) i else 1 := by
  refine (h1_v11 (Gen.W1 m ρ c) i).trans ?_
  rw [w1_v10, w1_v8, w1_cst2, select_ofBool]

/-! ### After the root -/

theorem w3_v13 (i : Fin 100000) :
    atB (Gen.W3 m ρ c (Proc.devRef .tc main_v13)) i = BitVec.ofBool (decide (0 < Cert.GcnBn.deg (Cert.GcnBn.colOf (m ((c.tc : Thread nD τ).loc main_arg1))) (Cert.GcnBn.vecOf (m ((c.tc : Thread nD τ).loc main_arg2))) i)) := by
  refine (h2_v13 (Gen.W2 m ρ c) i).trans ?_
  rw [w2_v8]
theorem w3_v14 (i : Fin 100000) :
    atN (Gen.W3 m ρ c (Proc.devRef .tc main_v14)) i = Ideal.rsqrt (if 0 < Cert.GcnBn.deg (Cert.GcnBn.colOf (m ((c.tc : Thread nD τ).loc main_arg1))) (Cert.GcnBn.vecOf (m ((c.tc : Thread nD τ).loc main_arg2))) i then Cert.GcnBn.deg (Cert.GcnBn.colOf (m ((c.tc : Thread nD τ).loc main_arg1))) (Cert.GcnBn.vecOf (m ((c.tc : Thread nD τ).loc main_arg2))) i else 1) := by
  refine (h2_v14 (Gen.W2 m ρ c) i).trans ?_
  rw [w2_v11]
theorem w3_cst4 : at0 (Gen.W3 m ρ c (Proc.devRef .tc main_cst_4)) = 0 := h2_cst4 _

/-! ### After the second selection: the inverse root of the degree where it is positive, zero elsewhere -/

theorem w4_v15 (i : Fin 100000) :
    atN (Gen.W4 m ρ c (Proc.devRef .tc main_v15)) i = Cert.GcnBn.dis (Cert.GcnBn.colOf (m ((c.tc : Thread nD τ).loc main_arg1))) (Cert.GcnBn.vecOf (m ((c.tc : Thread nD τ).loc main_arg2))) i := by
  refine (h3_v15 (Gen.W3 m ρ c) i).trans ?_
  rw [w3_v13, w3_v14, w3_cst4, select_ofBool]
  show _ = if 0 < Cert.GcnBn.deg (Cert.GcnBn.colOf (m ((c.tc : Thread nD τ).loc main_arg1))) (Cert.GcnBn.vecOf (m ((c.tc : Thread nD τ).loc main_arg2))) i then Ideal.rsqrt (Cert.GcnBn.deg (Cert.GcnBn.colOf (m ((c.tc : Thread nD τ).loc main_arg1))) (Cert.GcnBn.vecOf (m ((c.tc : Thread nD τ).loc main_arg2))) i) else 0
  by_cases h : 0 < Cert.GcnBn.deg (Cert.GcnBn.colOf (m ((c.tc : Thread nD τ).loc main_arg1))) (Cert.GcnBn.vecOf (m ((c.tc : Thread nD τ).loc main_arg2))) i
  · rw [if_pos h, if_pos h, if_pos h]
  · rw [if_neg h, if_neg h]
theorem w4_v1 (e : Fin 1600000) :
    atW (Gen.W4 m ρ c (Proc.devRef .tc main_v1)) e = Cert.GcnBn.rowOf (m ((c.tc : Thread nD τ).loc main_arg1)) e := by
  have h : Gen.W4 m ρ c (Proc.devRef .tc main_v1) = Gen.W1 m ρ c (Proc.devRef .tc main_v1) :=
    (h3_v1 _).trans ((h2_v1 _).trans (h1_v1 _))
  rw [h]
  exact h0_v1 _ e
theorem w4_v3 (e : Fin 1600000) :
    atW (Gen.W4 m ρ c (Proc.devRef .tc main_v3)) e = Cert.GcnBn.colOf (m ((c.tc : Thread nD τ).loc main_arg1)) e := by
  have h : Gen.W4 m ρ c (Proc.devRef .tc main_v3) = Gen.W1 m ρ c (Proc.devRef .tc main_v3) :=
    (h3_v3 _).trans ((h2_v3 _).trans (h1_v3 _))
  rw [h]
  exact h0_v3 _ e
theorem w4_arg2 : Gen.W4 m ρ c (Proc.devRef .tc main_arg2) = m ((c.tc : Thread nD τ).loc main_arg2) :=
  (h3_arg2 _).trans ((h2_arg2 _).trans ((h1_arg2 _).trans (h0_arg2 _)))

/-! ### At the region's entry -/

/-- The normalised edge weight. -/
theorem v31 (e : Fin 1600000) :
    atE (Gen.W5 m ρ c (Proc.devRef .tc main_v31)) e = Cert.GcnBn.nrm (Cert.GcnBn.rowOf (m ((c.tc : Thread nD τ).loc main_arg1))) (Cert.GcnBn.colOf (m ((c.tc : Thread nD τ).loc main_arg1))) (Cert.GcnBn.vecOf (m ((c.tc : Thread nD τ).loc main_arg2))) e := by
  refine (h4_v31 (Gen.W4 m ρ c) e).trans ?_
  rw [w4_v1, w4_v3, w4_v15, w4_v15, w4_arg2]
  rfl

/-- The self-loop factor. -/
theorem v33 (i : Fin 100000) :
    atC (Gen.W5 m ρ c (Proc.devRef .tc main_v33)) i
      = Cert.GcnBn.dis (Cert.GcnBn.colOf (m ((c.tc : Thread nD τ).loc main_arg1))) (Cert.GcnBn.vecOf (m ((c.tc : Thread nD τ).loc main_arg2))) i * Cert.GcnBn.dis (Cert.GcnBn.colOf (m ((c.tc : Thread nD τ).loc main_arg1))) (Cert.GcnBn.vecOf (m ((c.tc : Thread nD τ).loc main_arg2))) i := by
  refine (h4_v33 (Gen.W4 m ρ c) i).trans ?_
  rw [w4_v15]

end Final

end Cert.KernelIdeal.KerPrefix

end
-- ==== Proof.KerChain.lean ====
/-
  The idealized kernel's run from the first region's entry to the result, entry by entry over the extended reals:
  the first region leaves the product x · W; the stretch after it scatters the normalised messages; the second region
  adds the self-loop term and accumulates the column sums and sums of squares, so its first output is the layer's
  aggregate; the stretch after it turns the sums into the column mean and the inverse deviation; the third region
  normalises, scales, shifts and rectifies. Put together, the result buffer holds the layer's output with the
  variance spelt as the clamped difference.
-/
import proofs.«147712_j11338713662112_2_alg».proof.Proof.Gen.KernelIdeal.Frame
import proofs.«147712_j11338713662112_2_alg».proof.Proof.Spec
import proofs.«147712_j11338713662112_2_alg».proof.Proof.ArgRead
import proofs.«147712_j11338713662112_2_alg».proof.Proof.RegValDefs
import proofs.«147712_j11338713662112_2_alg».proof.Proof.RegVal0
import proofs.«147712_j11338713662112_2_alg».proof.Proof.RegVal1
import proofs.«147712_j11338713662112_2_alg».proof.Proof.RegVal2
import proofs.«147712_j11338713662112_2_alg».proof.Proof.KerHost
import proofs.«147712_j11338713662112_2_alg».proof.Proof.KerPrefix
import Idealize.ShloMosaic.Lib.ValueIdx
import Idealize.ShloMosaic.PureOps.Ideal.Laws

noncomputable section

open scoped BigOperators

namespace Cert.KernelIdeal.KerChain

open Cert.KernelIdeal Cert.KernelIdeal.Gen Idealize.ShloMosaic Idealize.ShloMosaic.TcCoe Idealize.ShloMosaic.ValueIdx
open Cert.KernelIdeal.RegVal (Mat Sq Row Col atM atS atR atC)
open Cert.KernelIdeal.KerHost (EVec WVec CVec atE atW atF)
open Cert.GcnBn

variable (m : (ℓ : Loc nD τ sig) → Buf (Elt Ideal) ℓ) (ρ : Dev nD → PrngReg) (c : Dev nD)

/-! ## The layer's inputs, read off the argument arrays -/

abbrev rowK : Fin EE → BitVec 32 := rowOf (m ((c.tc : Thread nD τ).loc main_arg1))
abbrev colK : Fin EE → BitVec 32 := colOf (m ((c.tc : Thread nD τ).loc main_arg1))
abbrev wtK : Fin EE → EReal := vecOf (m ((c.tc : Thread nD τ).loc main_arg2))
abbrev xK : Fin NN → Fin CC → EReal := matOf (m ((c.tc : Thread nD τ).loc main_arg0))
abbrev wK : Fin CC → Fin CC → EReal := sqOf (m ((c.tc : Thread nD τ).loc main_arg3))
abbrev gK : Fin CC → EReal := featOf (m ((c.tc : Thread nD τ).loc main_arg4))
abbrev bK : Fin CC → EReal := featOf (m ((c.tc : Thread nD τ).loc main_arg5))

/-- The layer's aggregate over the argument arrays. -/
abbrev aggK : Fin NN → Fin CC → EReal := agg (rowK m c) (colK m c) (wtK m c) (xK m c) (wK m c)

/-! ## At the first region's exit -/

theorem w6_v1 (e : Fin 1600000) : atW (Gen.W6 m ρ c (Proc.devRef .tc main_v1)) e = rowK m c e := by
  rw [Gen.W6_of_ne m ρ c main_v1 (by decide)]
  exact KerPrefix.v1 m ρ c e

theorem w6_v3 (e : Fin 1600000) : atW (Gen.W6 m ρ c (Proc.devRef .tc main_v3)) e = colK m c e := by
  rw [Gen.W6_of_ne m ρ c main_v3 (by decide)]
  exact KerPrefix.v3 m ρ c e

theorem w6_v31 (e : Fin 1600000) :
    atE (Gen.W6 m ρ c (Proc.devRef .tc main_v31)) e = nrm (rowK m c) (colK m c) (wtK m c) e := by
  rw [Gen.W6_of_ne m ρ c main_v31 (by decide)]
  exact KerPrefix.v31 m ρ c e

theorem w6_v33 (i : Fin 100000) :
    atC (Gen.W6 m ρ c (Proc.devRef .tc main_v33)) i = dis (colK m c) (wtK m c) i * dis (colK m c) (wtK m c) i := by
  rw [Gen.W6_of_ne m ρ c main_v33 (by decide)]
  exact KerPrefix.v33 m ρ c i

/-- The first region's output is the product x · W. -/
theorem w6_v34 (i : Fin 100000) (j : Fin 128) :
    atM (Gen.W6 m ρ c (Proc.devRef .tc main_v34)) i j = lin (xK m c) (wK m c) i j := by
  have h : Gen.W6 m ρ c (Proc.devRef .tc main_v34) = (Gen.dat0 (Gen.V5 m ρ) c).arrAt 2 cfg0.N := Gen.W6_arr m ρ c 2
  rw [h]
  refine (RegVal.reg0 (Gen.V5 m ρ) c i j).trans ?_
  have a0 : Gen.V5 m ρ c main_arg0 = m ((c.tc : Thread nD τ).loc main_arg0) := KerPrefix.arg0 m ρ c
  have a3 : Gen.V5 m ρ c main_arg3 = m ((c.tc : Thread nD τ).loc main_arg3) := KerPrefix.arg3 m ρ c
  rw [a0, a3]
  rfl

/-! ## At the second region's entry -/

/-- The scattered messages are the sum over a node's in-edges. -/
theorem v7_v48 (i : Fin 100000) (j : Fin 128) :
    atM (Gen.V7 m ρ c main_v48) i j
      = ∑ e ∈ into (colK m c) i, lin (xK m c) (wK m c) (src (rowK m c e)) j * nrm (rowK m c) (colK m c) (wtK m c) e := by
  refine (KerHost.h1_v48 (Gen.W6 m ρ c) i j).trans ?_
  refine Finset.sum_congr (Finset.filter_congr fun e _ => ?_) fun e _ => ?_
  · rw [w6_v3]
  · rw [w6_v1, w6_v34, w6_v31]

theorem v7_v34 (i : Fin 100000) (j : Fin 128) :
    atM (Gen.V7 m ρ c main_v34) i j = lin (xK m c) (wK m c) i j := by
  have h : Gen.V7 m ρ c main_v34 = Gen.W6 m ρ c (Proc.devRef .tc main_v34) := KerHost.h1_v34 (Gen.W6 m ρ c)
  rw [h]
  exact w6_v34 m ρ c i j

theorem v7_v33 (i : Fin 100000) :
    atC (Gen.V7 m ρ c main_v33) i = dis (colK m c) (wtK m c) i * dis (colK m c) (wtK m c) i := by
  have h : Gen.V7 m ρ c main_v33 = Gen.W6 m ρ c (Proc.devRef .tc main_v33) := KerHost.h1_v33 (Gen.W6 m ρ c)
  rw [h]
  exact w6_v33 m ρ c i

/-- What the second region writes at an entry is the layer's aggregate. -/
theorem full_eq (i : Fin 100000) (j : Fin 128) : RegVal.full (Gen.V7 m ρ) c i j = aggK m c i j := by
  unfold RegVal.full
  rw [v7_v48, v7_v33, v7_v34, mul_comm (dis (colK m c) (wtK m c) i * dis (colK m c) (wtK m c) i)]
  rfl

/-! ## At the second region's exit -/

theorem w8_v49_0 (i : Fin 100000) (j : Fin 128) :
    atM (Gen.W8 m ρ c (Proc.devRef .tc main_v49_0)) i j = aggK m c i j := by
  have h : Gen.W8 m ρ c (Proc.devRef .tc main_v49_0) = (Gen.dat1 (Gen.V7 m ρ) c).arrAt 3 cfg1.N := Gen.W8_arr m ρ c 3
  rw [h]
  exact (RegVal.reg1_full (Gen.V7 m ρ) c i j).trans (full_eq m ρ c i j)

theorem w8_v49_1 (j : Fin 128) :
    atR (Gen.W8 m ρ c (Proc.devRef .tc main_v49_1)) j = ∑ i : Fin 100000, aggK m c i j := by
  have h : Gen.W8 m ρ c (Proc.devRef .tc main_v49_1) = (Gen.dat1 (Gen.V7 m ρ) c).arrAt 4 cfg1.N := Gen.W8_arr m ρ c 4
  rw [h]
  exact (RegVal.reg1_sum (Gen.V7 m ρ) c j).trans (Finset.sum_congr rfl fun i _ => full_eq m ρ c i j)

theorem w8_v49_2 (j : Fin 128) :
    atR (Gen.W8 m ρ c (Proc.devRef .tc main_v49_2)) j = ∑ i : Fin 100000, aggK m c i j * aggK m c i j := by
  have h : Gen.W8 m ρ c (Proc.devRef .tc main_v49_2) = (Gen.dat1 (Gen.V7 m ρ) c).arrAt 5 cfg1.N := Gen.W8_arr m ρ c 5
  rw [h]
  exact (RegVal.reg1_sumsq (Gen.V7 m ρ) c j).trans (Finset.sum_congr rfl fun i _ => by rw [full_eq])

theorem w8_arg4 : Gen.W8 m ρ c (Proc.devRef .tc main_arg4) = m ((c.tc : Thread nD τ).loc main_arg4) := by
  rw [Gen.W8_of_ne m ρ c main_arg4 (by decide)]
  refine (KerHost.h1_arg4 (Gen.W6 m ρ c)).trans ?_
  rw [Gen.W6_of_ne m ρ c main_arg4 (by decide)]
  exact KerPrefix.arg4 m ρ c

theorem w8_arg5 : Gen.W8 m ρ c (Proc.devRef .tc main_arg5) = m ((c.tc : Thread nD τ).loc main_arg5) := by
  rw [Gen.W8_of_ne m ρ c main_arg5 (by decide)]
  refine (KerHost.h1_arg5 (Gen.W6 m ρ c)).trans ?_
  rw [Gen.W6_of_ne m ρ c main_arg5 (by decide)]
  exact KerPrefix.arg5 m ρ c

/-! ## At the third region's entry -/

theorem v9_v49_0 (i : Fin 100000) (j : Fin 128) : atM (Gen.V9 m ρ c main_v49_0) i j = aggK m c i j := by
  have h : Gen.V9 m ρ c main_v49_0 = Gen.W8 m ρ c (Proc.devRef .tc main_v49_0) := KerHost.h2_v49_0 (Gen.W8 m ρ c)
  rw [h]
  exact w8_v49_0 m ρ c i j

/-- The column mean of the aggregate. -/
theorem v9_v63 (j : Fin 128) : atR (Gen.V9 m ρ c main_v63) j = mean (aggK m c) j := by
  refine (KerHost.h2_v63 (Gen.W8 m ρ c) j).trans ?_
  rw [w8_v49_1, n_f32]
  rfl

/-- The inverse deviation of the aggregate's columns. -/
theorem v9_v64 (j : Fin 128) :
    atR (Gen.V9 m ρ c main_v64) j = Ideal.rsqrt (varK (aggK m c) j + eps) := by
  refine (KerHost.h2_v64 (Gen.W8 m ρ c) j).trans ?_
  rw [w8_v49_1, w8_v49_2, n_f32, Ideal.ofBits_zero_f32]
  rfl

theorem v9_v65 (j : Fin 128) : atR (Gen.V9 m ρ c main_v65) j = gK m c j := by
  refine (KerHost.h2_v65 (Gen.W8 m ρ c) j).trans ?_
  rw [w8_arg4]

theorem v9_v66 (j : Fin 128) : atR (Gen.V9 m ρ c main_v66) j = bK m c j := by
  refine (KerHost.h2_v66 (Gen.W8 m ρ c) j).trans ?_
  rw [w8_arg5]

/-! ## The result -/

/-- The result buffer after the run, entry by entry, is the layer's output with the variance spelt as the clamped
    difference of the mean of squares and the squared mean. -/
theorem result (m : (ℓ : Loc nD τ sig) → Buf (Elt Ideal) ℓ) (ρ : Dev nD → PrngReg) (c : Dev nD) (i : Fin 100000) (j : Fin 128) :
    atM (Gen.W10 m ρ c (Proc.devRef .tc main_v67)) i j
      = outK (rowOf (m ((c.tc : Thread nD τ).loc main_arg1))) (colOf (m ((c.tc : Thread nD τ).loc main_arg1)))
          (vecOf (m ((c.tc : Thread nD τ).loc main_arg2))) (matOf (m ((c.tc : Thread nD τ).loc main_arg0)))
          (sqOf (m ((c.tc : Thread nD τ).loc main_arg3))) (featOf (m ((c.tc : Thread nD τ).loc main_arg4)))
          (featOf (m ((c.tc : Thread nD τ).loc main_arg5))) i j := by
  have h : Gen.W10 m ρ c (Proc.devRef .tc main_v67) = (Gen.dat2 (Gen.V9 m ρ) c).arrAt 5 cfg2.N := Gen.W10_arr m ρ c 5
  rw [h]
  refine (RegVal.reg2 (Gen.V9 m ρ) c i j).trans ?_
  rw [v9_v49_0, v9_v63, v9_v64, v9_v65, v9_v66]
  rfl

end Cert.KernelIdeal.KerChain

end
-- ==== Proof.Bridge.lean ====
/-
  The two programs' result arrays are one array: the reference's, read off its operations as the layer's result with
  the variance spelt as the mean squared deviation, and the kernel's, read off its three regions and the host
  stretches between them as the layer's result with the variance spelt as the clamped difference of means, agree at
  every entry once the memories agree on the arguments and the arguments are finite.
-/
import proofs.«147712_j11338713662112_2_alg».proof.Proof.BridgeCore
import proofs.«147712_j11338713662112_2_alg».proof.Proof.Finite
import proofs.«147712_j11338713662112_2_alg».proof.Proof.RefRun
import proofs.«147712_j11338713662112_2_alg».proof.Proof.KerRun
import proofs.«147712_j11338713662112_2_alg».proof.Proof.RegValDefs
import proofs.«147712_j11338713662112_2_alg».proof.Proof.Gen.Pre_finite_inputs
import proofs.«147712_j11338713662112_2_alg».proof.Proof.RefLink
import proofs.«147712_j11338713662112_2_alg».proof.Proof.KerChain

noncomputable section

namespace Cert.Bridge

open Idealize.ShloMosaic Idealize.ShloMosaic.TcCoe Idealize.ShloMosaic.ValueIdx Cert.GcnBn

/-- From memories that agree on the six arguments, of which the kernel's are finite, the reference's result array —
    its operations folded over its launch contents — is the array the kernel's last boundary holds in its result buffer:
    entry by entry both are the layer's result, the reference's read through the reference-side spelling and joined by
    the variance law. -/
theorem result_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.RefRun.ops (F := Ideal)) (StableHlo.launchContents m' c)
        (Proc.devRef .tc Cert.ReferenceIdeal.main_v68)
      = Cert.KernelIdeal.Gen.W10 m ρ c (Proc.devRef .tc Cert.KernelIdeal.main_v67) := by
  obtain ⟨hX, hWt, hWm⟩ := Cert.Finite.real_of_pre _ _ _ _ _ _ hpre
  funext idx
  obtain ⟨i, j, rfl⟩ : ∃ (i : Fin 100000) (j : Fin 128), idx = ix2 i j := ⟨idx 0, idx 1, eq_ix2 idx⟩
  refine (congrFun (Cert.ReferenceIdeal.RefLink.out_eq (StableHlo.launchContents m' c)) (ix2 i j)).trans ?_
  refine Eq.trans ?_ (Cert.KernelIdeal.KerChain.result m ρ c i j).symm
  have e0 : StableHlo.launchContents m' c (Proc.devRef .tc Cert.ReferenceIdeal.main_arg0) = m ((c.tc : Thread Cert.KernelIdeal.nD Cert.KernelIdeal.τ).loc Cert.KernelIdeal.main_arg0) := h0
  have e1 : StableHlo.launchContents m' c (Proc.devRef .tc Cert.ReferenceIdeal.main_arg1) = m ((c.tc : Thread Cert.KernelIdeal.nD Cert.KernelIdeal.τ).loc Cert.KernelIdeal.main_arg1) := h1
  have e2 : StableHlo.launchContents m' c (Proc.devRef .tc Cert.ReferenceIdeal.main_arg2) = m ((c.tc : Thread Cert.KernelIdeal.nD Cert.KernelIdeal.τ).loc Cert.KernelIdeal.main_arg2) := h2
  have e3 : StableHlo.launchContents m' c (Proc.devRef .tc Cert.ReferenceIdeal.main_arg3) = m ((c.tc : Thread Cert.KernelIdeal.nD Cert.KernelIdeal.τ).loc Cert.KernelIdeal.main_arg3) := h3
  have e4 : StableHlo.launchContents m' c (Proc.devRef .tc Cert.ReferenceIdeal.main_arg4) = m ((c.tc : Thread Cert.KernelIdeal.nD Cert.KernelIdeal.τ).loc Cert.KernelIdeal.main_arg4) := h4
  have e5 : StableHlo.launchContents m' c (Proc.devRef .tc Cert.ReferenceIdeal.main_arg5) = m ((c.tc : Thread Cert.KernelIdeal.nD Cert.KernelIdeal.τ).loc Cert.KernelIdeal.main_arg5) := h5
  rw [e0, e1, e2, e3, e4, e5]
  exact refArr_eq_outK _ _ _ _ _ _ hX hWt hWm i j

end Cert.Bridge

end
-- ==== Proof.lean ====
/- The proof of the certificate's claim, for one graph-convolution layer with symmetric normalisation and self-loops
   followed by batch normalisation and a rectifier.

   Both programs compute, entry by entry over the extended reals, the layer of Proof/Spec.lean: the degrees (the
   self-loop counted) and their inverse square roots, the normalised edge weights, the product x · W, the aggregate of
   the in-edges' messages plus the self-loop message, the column mean and variance of the aggregate, and
   max (((agg − mean) · (var + ε)^(−1/2)) · γ + β) 0. The kernel forms x · W in twenty row blocks, adds the self-loop
   term and accumulates the column sums and sums of squares over the same twenty blocks, and normalises blockwise, so it
   spells the variance as the mean of the squares less the squared mean, clamped at zero; the reference appends the
   self-loops to the edge list and spells the variance as the mean of the squared deviations. For finite inputs the
   aggregate is real and Σ (a − m)² = Σ a² − N·m² at m = (Σ a)/N joins the two (Proof/VarLaw.lean), which is the
   algebraic claim (Proof/Bridge.lean). The frame claims are the generated frame theorems, the reference's read off its
   run; the idealization rewrote no operation, so its claim is trivial. -/
import proofs.«147712_j11338713662112_2_alg».proof.Defs
import proofs.«147712_j11338713662112_2_alg».proof.Proof.Gen.Kernel
import proofs.«147712_j11338713662112_2_alg».proof.Proof.Gen.Kernel.Skeleton
import proofs.«147712_j11338713662112_2_alg».proof.Proof.Gen.Kernel.Launch
import proofs.«147712_j11338713662112_2_alg».proof.Proof.Gen.Kernel.Points
import proofs.«147712_j11338713662112_2_alg».proof.Proof.Gen.Kernel.Frame
import proofs.«147712_j11338713662112_2_alg».proof.Proof.Gen.KernelIdeal
import proofs.«147712_j11338713662112_2_alg».proof.Proof.Gen.KernelIdeal.Skeleton
import proofs.«147712_j11338713662112_2_alg».proof.Proof.Gen.KernelIdeal.Launch
import proofs.«147712_j11338713662112_2_alg».proof.Proof.Gen.KernelIdeal.Points
import proofs.«147712_j11338713662112_2_alg».proof.Proof.Gen.KernelIdeal.Frame
import proofs.«147712_j11338713662112_2_alg».proof.Proof.Gen.ReferenceIdeal
import proofs.«147712_j11338713662112_2_alg».proof.Proof.Gen.Pre_finite_inputs
import proofs.«147712_j11338713662112_2_alg».proof.Proof.KerRun
import proofs.«147712_j11338713662112_2_alg».proof.Proof.RefRun
import proofs.«147712_j11338713662112_2_alg».proof.Proof.RefLink
import proofs.«147712_j11338713662112_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as launched: the generated frame theorem. -/
theorem frame_Kernel : Cert.frame_Kernel := fun m ρ _ => Cert.Kernel.Gen.frame m ρ

/-- The kernel read over the extended reals runs and leaves its arguments as launched: the generated frame theorem. -/
theorem frame_KernelIdeal : Cert.frame_KernelIdeal := fun m ρ _ => Cert.KernelIdeal.Gen.frame m ρ

/-- The reference runs and leaves its arguments as launched: no operation writes an argument, so the fold of its
    operations over the launch contents reads each argument back unchanged. -/
theorem frame_ReferenceIdeal : Cert.frame_ReferenceIdeal := fun m ρ _ =>
  (θ_run Cert.ReferenceIdeal.defs _ _).mono (fun r h c =>
    ⟨(h c Cert.ReferenceIdeal.main_arg0).trans (Cert.ReferenceIdeal.RefLink.arg0_eq _),
     (h c Cert.ReferenceIdeal.main_arg1).trans (Cert.ReferenceIdeal.RefLink.arg1_eq _),
     (h c Cert.ReferenceIdeal.main_arg2).trans (Cert.ReferenceIdeal.RefLink.arg2_eq _),
     (h c Cert.ReferenceIdeal.main_arg3).trans (Cert.ReferenceIdeal.RefLink.arg3_eq _),
     (h c Cert.ReferenceIdeal.main_arg4).trans (Cert.ReferenceIdeal.RefLink.arg4_eq _),
     (h c Cert.ReferenceIdeal.main_arg5).trans (Cert.ReferenceIdeal.RefLink.arg5_eq _)⟩)
    (Cert.ReferenceIdeal.RefRun.run_main (F := Ideal) m ρ)

/-- Over the extended reals, from memories that agree on the arguments, both programs run, leave their arguments as
    launched, and end with one result array: the kernel's last boundary's contents of its result buffer, which the
    reference's operations reach by the variance law. -/
theorem algebraic : Cert.algebraic_KernelIdeal_ReferenceIdeal := fun m ρ m' ρ' hpre hagree =>
  ⟨fun c => Cert.KernelIdeal.Gen.W10 m ρ c (Proc.devRef .tc Cert.KernelIdeal.main_v67),
   Cert.KernelIdeal.KerRun.run m ρ,
   (θ_run Cert.ReferenceIdeal.defs _ _).mono (fun r h c =>
    ⟨(h c Cert.ReferenceIdeal.main_v68).trans
        (Cert.Bridge.result_eq m ρ m' c (hpre c) (hagree c).1 (hagree c).2.1 (hagree c).2.2.1 (hagree c).2.2.2.1
          (hagree c).2.2.2.2.1 (hagree c).2.2.2.2.2),
     (h c Cert.ReferenceIdeal.main_arg0).trans (Cert.ReferenceIdeal.RefLink.arg0_eq _),
     (h c Cert.ReferenceIdeal.main_arg1).trans (Cert.ReferenceIdeal.RefLink.arg1_eq _),
     (h c Cert.ReferenceIdeal.main_arg2).trans (Cert.ReferenceIdeal.RefLink.arg2_eq _),
     (h c Cert.ReferenceIdeal.main_arg3).trans (Cert.ReferenceIdeal.RefLink.arg3_eq _),
     (h c Cert.ReferenceIdeal.main_arg4).trans (Cert.ReferenceIdeal.RefLink.arg4_eq _),
     (h c Cert.ReferenceIdeal.main_arg5).trans (Cert.ReferenceIdeal.RefLink.arg5_eq _)⟩)
    (Cert.ReferenceIdeal.RefRun.run_main (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
